-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x100x4 : Shape := ⟨3, ![20000, 100, 4]⟩
abbrev S20000 : Shape := ⟨1, ![20000]⟩
abbrev S20000x4 : Shape := ⟨2, ![20000, 4]⟩
abbrev S9x64 : Shape := ⟨2, ![9, 64]⟩
abbrev S64 : Shape := ⟨1, ![64]⟩
abbrev S_ : Shape := ⟨0, ![]⟩

class Facts : Prop where
  bcast_S_S20000x100x4 : S_.BroadcastsInDim S20000x100x4 (![] : Fin 0 → Fin S20000x100x4.rank)
  reducesTo_S20000x100x4_S_d0_1_2 : S20000x100x4.ReducesTo [0, 1, 2] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S20000x100x4 .f32) (main_arg1 : IVec S20000 32) (main_arg2 : IVec S20000x4 32) (main_arg3 : FVec F S9x64 .f32) (main_arg4 : FVec F S64 .f32) (main_arg5 : FVec F S64 .f32) : IVec S_ 1 :=
  let main_v0 : FVec F S20000x100x4 .f32 := Host.absf main_arg0
  let main_cst : FVec F S_ .f32 := constant S_ .f32 0x7F800000#32
  let main_v1 : FVec F S20000x100x4 .f32 := broadcastInDim S20000x100x4 ![] bcast_S_S20000x100x4 main_cst
  let main_v2 : IVec S20000x100x4 1 := cmpf .olt main_v0 main_v1
  let main_c : IVec S_ 1 := constantI S_ 1 1#1
  let main_v3 : IVec S_ 1 := (fun x v => Host.reduce IntOp.andi x v reducesTo_S20000x100x4_S_d0_1_2 h_S_) main_v2 main_c
  let main_v4 : FVec F S9x64 .f32 := Host.absf main_arg3
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S20000x100x4 : Shape := ⟨3, ![20000, 100, 4]⟩
abbrev S20000 : Shape := ⟨1, ![20000]⟩
abbrev S20000x4 : Shape := ⟨2, ![20000, 4]⟩
abbrev S9x64 : Shape := ⟨2, ![9, 64]⟩
abbrev S64 : Shape := ⟨1, ![64]⟩
abbrev S20000x1 : Shape := ⟨2, ![20000, 1]⟩
abbrev S_ : Shape := ⟨0, ![]⟩
abbrev S20000x5 : Shape := ⟨2, ![20000, 5]⟩
abbrev S20000x8 : Shape := ⟨2, ![20000, 8]⟩
abbrev S80x100x4 : Shape := ⟨3, ![80, 100, 4]⟩
abbrev S80x8 : Shape := ⟨2, ![80, 8]⟩
abbrev S80x1 : Shape := ⟨2, ![80, 1]⟩
abbrev S80x1x1 : Shape := ⟨3, ![80, 1, 1]⟩
abbrev S80x100x3 : Shape := ⟨3, ![80, 100, 3]⟩
abbrev S80x3 : Shape := ⟨2, ![80, 3]⟩
abbrev S80x1x3 : Shape := ⟨3, ![80, 1, 3]⟩
abbrev S80x100x1 : Shape := ⟨3, ![80, 100, 1]⟩
abbrev S80x100x2 : Shape := ⟨3, ![80, 100, 2]⟩
abbrev S80x100 : Shape := ⟨2, ![80, 100]⟩
abbrev S80x100x9 : Shape := ⟨3, ![80, 100, 9]⟩
abbrev S8000x9 : Shape := ⟨2, ![8000, 9]⟩
abbrev S8000x64 : Shape := ⟨2, ![8000, 64]⟩
abbrev S20000x64 : Shape := ⟨2, ![20000, 64]⟩
abbrev S80x64 : Shape := ⟨2, ![80, 64]⟩
abbrev S1x64 : Shape := ⟨2, ![1, 64]⟩
abbrev S80x100x64 : Shape := ⟨3, ![80, 100, 64]⟩

abbrev nBuf : Space → Nat
  | .hbm => 52
  | .vmem => 16
  | .smem => 0
  | _ => 0

abbrev bufTy : (tb : Table) → Fin (tcTables nBuf tb) → BufTy
  | .hbm, ⟨0, _⟩ => ⟨S20000x100x4, .f32⟩
  | .hbm, ⟨1, _⟩ => ⟨S20000, .i32⟩
  | .hbm, ⟨2, _⟩ => ⟨S20000x4, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S20000, .f32⟩
  | .hbm, ⟨7, _⟩ => ⟨S20000x1, .i32⟩
  | .hbm, ⟨8, _⟩ => ⟨S20000, .i32⟩
  | .hbm, ⟨9, _⟩ => ⟨S20000, .f32⟩
  | .hbm, ⟨10, _⟩ => ⟨S_, .f32⟩
  | .hbm, ⟨11, _⟩ => ⟨S20000, .f32⟩
  | .hbm, ⟨12, _⟩ => ⟨S20000, .f32⟩
  | .hbm, ⟨13, _⟩ => ⟨S_, .f32⟩
  | .hbm, ⟨14, _⟩ => ⟨S20000, .f32⟩
  | .hbm, ⟨15, _⟩ => ⟨S20000, .f32⟩
  | .hbm, ⟨16, _⟩ => ⟨S20000x1, .i32⟩
  | .hbm, ⟨17, _⟩ => ⟨S20000, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .f32⟩
  | .hbm, ⟨22, _⟩ => ⟨S_, .f32⟩
  | .hbm, ⟨23, _⟩ => ⟨S20000, .f32⟩
  | .hbm, ⟨24, _⟩ => ⟨S20000, .f32⟩
  | .hbm, ⟨25, _⟩ => ⟨S_, .f32⟩
  | .hbm, ⟨26, _⟩ => ⟨S20000x5, .f32⟩
  | .hbm, ⟨27, _⟩ => ⟨S20000x1, .f32⟩
  | .hbm, ⟨28, _⟩ => ⟨S20000x1, .f32⟩
  | .hbm, ⟨29, _⟩ => ⟨S20000x1, .f32⟩
  | .hbm, ⟨30, _⟩ => ⟨S20000x8, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S64, .f32⟩
  | .hbm, ⟨51, _⟩ => ⟨S20000x64, .f32⟩
  | .local _ .vmem, ⟨0, _⟩ => ⟨S80x100x4, .f32⟩
  | .local _ .vmem, ⟨1, _⟩ => ⟨S80x100x4, .f32⟩
  | .local _ .vmem, ⟨2, _⟩ => ⟨S80x8, .f32⟩
  | .local _ .vmem, ⟨3, _⟩ => ⟨S80x8, .f32⟩
  | .local _ .vmem, ⟨4, _⟩ => ⟨S9x64, .f32⟩
  | .local _ .vmem, ⟨5, _⟩ => ⟨S64, .f32⟩
  | .local _ .vmem, ⟨6, _⟩ => ⟨S64, .f32⟩
  | .local _ .vmem, ⟨7, _⟩ => ⟨S80x100x4, .f32⟩
  | .local _ .vmem, ⟨8, _⟩ => ⟨S80x100x4, .f32⟩
  | .local _ .vmem, ⟨9, _⟩ => ⟨S80x8, .f32⟩
  | .local _ .vmem, ⟨10, _⟩ => ⟨S80x8, .f32⟩
  | .local _ .vmem, ⟨11, _⟩ => ⟨S9x64, .f32⟩
  | .local _ .vmem, ⟨12, _⟩ => ⟨S64, .f32⟩
  | .local _ .vmem, ⟨13, _⟩ => ⟨S64, .f32⟩
  | .local _ .vmem, ⟨14, _⟩ => ⟨S80x64, .f32⟩
  | .local _ .vmem, ⟨15, _⟩ => ⟨S80x64, .f32⟩
  | _, _ => ⟨S20000x100x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S80x100x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![250], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S80x100x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S80x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S9x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S80x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S20000x4_S20000x1_0_3 : S20000x4.Slices ![0, 3] S20000x1
  shapeCasts_S20000x1_S20000 : S20000x1.ShapeCasts S20000
  bcast_S_S20000 : S_.BroadcastsInDim S20000 (![] : Fin 0 → Fin S20000.rank)
  slices_S20000x4_S20000x1_0_2 : S20000x4.Slices ![0, 2] S20000x1
  bcast_S_S20000x5 : S_.BroadcastsInDim S20000x5 (![] : Fin 0 → Fin S20000x5.rank)
  bcast_S20000_S20000x1_0 : S20000.BroadcastsInDim S20000x1 (![0] : Fin 1 → Fin S20000x1.rank)
  concatenates_S20000x1_S20000x1_S20000x1_S20000x5_S20000x8_d1 : Shape.Concatenates [S20000x1, S20000x1, S20000x1, S20000x5] S20000x8 1
  inb_S64_S64_0 : ∀ a, (![0] : Fin 1 → Nat) a + S64.size a ≤ S64.size a
  h_S64 : 0 < S64.numel
  inb_S80x100x4_S80x100x4_0_0_0 : ∀ a, (![0, 0, 0] : Fin 3 → Nat) a + S80x100x4.size a ≤ S80x100x4.size a
  h_S80x100x4 : 0 < S80x100x4.numel
  inb_S80x8_S80x8_0_0 : ∀ a, (![0, 0] : Fin 2 → Nat) a + S80x8.size a ≤ S80x8.size a
  h_S80x8 : 0 < S80x8.numel
  shapeCasts_S80x8_S80x8 : S80x8.ShapeCasts S80x8
  slices_S80x8_o0_0_S80x1 : S80x8.Slices ![0, 0] S80x1
  slices_S80x8_o0_1_S80x1 : S80x8.Slices ![0, 1] S80x1
  slices_S80x8_o0_2_S80x1 : S80x8.Slices ![0, 2] S80x1
  shapeCasts_S80x1_S80x1x1 : S80x1.ShapeCasts S80x1x1
  slices_S80x100x4_o0_0_0_S80x100x3 : S80x100x4.Slices ![0, 0, 0] S80x100x3
  reduces_S80x100x3_S80x3 : S80x100x3.Reduces [1] S80x3
  shapeCasts_S80x3_S80x1x3 : S80x3.ShapeCasts S80x1x3
  broadcasts_S80x1x1_S80x1x3 : S80x1x1.Broadcasts S80x1x3
  broadcasts_S80x1x3_S80x100x3 : S80x1x3.Broadcasts S80x100x3
  slices_S80x100x4_o0_0_0_S80x100x1 : S80x100x4.Slices ![0, 0, 0] S80x100x1
  broadcasts_S80x1x1_S80x100x1 : S80x1x1.Broadcasts S80x100x1
  slices_S80x100x4_o0_0_1_S80x100x1 : S80x100x4.Slices ![0, 0, 1] S80x100x1
  concatenates_S80x100x1_S80x100x1_S80x100x2_d2 : Shape.Concatenates [S80x100x1, S80x100x1] S80x100x2 2
  iota_S80x100_d1_w32 : S80x100.Iotas .tc 32 [1]
  broadcasts_S80x1_S80x100 : S80x1.Broadcasts S80x100
  natLt_1_32 : 1 < 32
  shapeCasts_S80x100_S80x100x1 : S80x100.ShapeCasts S80x100x1
  concatenates_S80x100x4_S80x100x3_S80x100x2_S80x100x9_d2 : Shape.Concatenates [S80x100x4, S80x100x3, S80x100x2] S80x100x9 2
  broadcasts_S80x100x1_S80x100x9 : S80x100x1.Broadcasts S80x100x9
  shapeCasts_S80x100x9_S8000x9 : S80x100x9.ShapeCasts S8000x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  shapeCasts_S64_S64 : S64.ShapeCasts S64
  reduces_S8000x64_S64 : S8000x64.Reduces [0] S64
  bcast_S_S64 : S_.BroadcastsInDim S64 (![] : Fin 0 → Fin S64.rank)
  shapeCasts_S64_S1x64 : S64.ShapeCasts S1x64
  broadcasts_S1x64_S8000x64 : S1x64.Broadcasts S8000x64
  shapeCasts_S8000x64_S80x100x64 : S8000x64.ShapeCasts S80x100x64
  reduces_S80x100x64_S80x64 : S80x100x64.Reduces [1] S80x64
  inb_S80x64_S80x64_0_0 : ∀ a, (![0, 0] : Fin 2 → Nat) a + S80x64.size a ≤ S80x64.size a
  h_S80x64 : 0 < S80x64.numel
  dot_S8000x9_S9x64_S8000x64_1_0_0_1_n_n_wf : DotDims.WF S8000x9 S9x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S80x100x4.size a ≤ S20000x100x4.size a
  hwx0_0 : ∀ i : grid0.Coords, EltTy.bits .f32 = 32 ∨ (Rect.block (s := S20000x100x4) S80x100x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S80x8.size a ≤ S20000x8.size a
  hwx0_1 : ∀ i : grid0.Coords, EltTy.bits .f32 = 32 ∨ (Rect.block (s := S20000x8) S80x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x64.size a ≤ S9x64.size a
  hwx0_2 : ∀ i : grid0.Coords, EltTy.bits .f32 = 32 ∨ (Rect.block (s := S9x64) S9x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S80x100x4.size a ≤ S20000x100x4.size a
  hwx1_0 : ∀ i : grid1.Coords, EltTy.bits .f32 = 32 ∨ (Rect.block (s := S20000x100x4) S80x100x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S80x8.size a ≤ S20000x8.size a
  hwx1_1 : ∀ i : grid1.Coords, EltTy.bits .f32 = 32 ∨ (Rect.block (s := S20000x8) S80x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x64.size a ≤ S9x64.size a
  hwx1_2 : ∀ i : grid1.Coords, EltTy.bits .f32 = 32 ∨ (Rect.block (s := S9x64) S9x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S80x64.size a ≤ S20000x64.size a
  hwx1_5 : ∀ i : grid1.Coords, EltTy.bits .f32 = 32 ∨ (Rect.block (s := S20000x64) S80x64.size (cc1_transform_5 i) (hinb1_5 i)).WholeWords (EltTy.packing .f32)

variable [Facts₀]

def dot_S8000x9_S9x64_S8000x64_1_0_0_1_n_n : DotDims S8000x9 S9x64 S8000x64 where
  lhsContracting := [1]
  rhsContracting := [0]
  lhsNonContracting := [0]
  rhsNonContracting := [1]
  lhsBatch := []
  rhsBatch := []
  wf := dot_S8000x9_S9x64_S8000x64_1_0_0_1_n_n_wf

abbrev win0_0 : Pipeline.Window sig grid0 :=
  Pipeline.Window.ofSpec (Memref.whole main_arg0) S80x100x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S80x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S9x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20_0) S64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20_1) S64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S80x100x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S80x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S9x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S80x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x100x4 : Shape := ⟨3, ![20000, 100, 4]⟩
abbrev S20000 : Shape := ⟨1, ![20000]⟩
abbrev S20000x4 : Shape := ⟨2, ![20000, 4]⟩
abbrev S9x64 : Shape := ⟨2, ![9, 64]⟩
abbrev S64 : Shape := ⟨1, ![64]⟩
abbrev S20000x1x1 : Shape := ⟨3, ![20000, 1, 1]⟩
abbrev S20000x1 : Shape := ⟨2, ![20000, 1]⟩
abbrev S_ : Shape := ⟨0, ![]⟩
abbrev S100 : Shape := ⟨1, ![100]⟩
abbrev S1x100 : Shape := ⟨2, ![1, 100]⟩
abbrev S20000x100 : Shape := ⟨2, ![20000, 100]⟩
abbrev S20000x100x1 : Shape := ⟨3, ![20000, 100, 1]⟩
abbrev S20000x100x3 : Shape := ⟨3, ![20000, 100, 3]⟩
abbrev S20000x3 : Shape := ⟨2, ![20000, 3]⟩
abbrev S20000x1x3 : Shape := ⟨3, ![20000, 1, 3]⟩
abbrev S20000x100x2 : Shape := ⟨3, ![20000, 100, 2]⟩
abbrev S20000x100x9 : Shape := ⟨3, ![20000, 100, 9]⟩
abbrev S20000x100x64 : Shape := ⟨3, ![20000, 100, 64]⟩
abbrev S1x1x64 : Shape := ⟨3, ![1, 1, 64]⟩
abbrev S20000x64 : Shape := ⟨2, ![20000, 64]⟩

abbrev nBuf : Space → Nat
  | .hbm => 95
  | .vmem => 0
  | .smem => 0
  | _ => 0

abbrev bufTy : (tb : Table) → Fin (tcTables nBuf tb) → BufTy
  | .hbm, ⟨0, _⟩ => ⟨S20000x100x4, .f32⟩
  | .hbm, ⟨1, _⟩ => ⟨S20000, .i32⟩
  | .hbm, ⟨2, _⟩ => ⟨S20000x4, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S20000, .f32⟩
  | .hbm, ⟨7, _⟩ => ⟨S20000x1x1, .f32⟩
  | .hbm, ⟨8, _⟩ => ⟨S20000x1, .i32⟩
  | .hbm, ⟨9, _⟩ => ⟨S20000, .i32⟩
  | .hbm, ⟨10, _⟩ => ⟨S20000, .f32⟩
  | .hbm, ⟨11, _⟩ => ⟨S20000x1, .f32⟩
  | .hbm, ⟨12, _⟩ => ⟨S_, .f32⟩
  | .hbm, ⟨13, _⟩ => ⟨S20000x1, .f32⟩
  | .hbm, ⟨14, _⟩ => ⟨S20000x1, .f32⟩
  | .hbm, ⟨15, _⟩ => ⟨S_, .f32⟩
  | .hbm, ⟨16, _⟩ => ⟨S20000x1, .f32⟩
  | .hbm, ⟨17, _⟩ => ⟨S20000x1, .f32⟩
  | .hbm, ⟨18, _⟩ => ⟨S20000x1, .i32⟩
  | .hbm, ⟨19, _⟩ => ⟨S20000, .i32⟩
  | .hbm, ⟨20, _⟩ => ⟨S20000, .f32⟩
  | .hbm, ⟨21, _⟩ => ⟨S20000x1, .f32⟩
  | .hbm, ⟨22, _⟩ => ⟨S_, .f32⟩
  | .hbm, ⟨23, _⟩ => ⟨S20000x1, .f32⟩
  | .hbm, ⟨24, _⟩ => ⟨S20000x1, .f32⟩
  | .hbm, ⟨25, _⟩ => ⟨S_, .f32⟩
  | .hbm, ⟨26, _⟩ => ⟨S20000x1, .f32⟩
  | .hbm, ⟨27, _⟩ => ⟨S20000x1, .f32⟩
  | .hbm, ⟨28, _⟩ => ⟨S100, .i32⟩
  | .hbm, ⟨29, _⟩ => ⟨S1x100, .i32⟩
  | .hbm, ⟨30, _⟩ => ⟨S20000x1, .i32⟩
  | .hbm, ⟨31, _⟩ => ⟨S20000x100, .i32⟩
  | .hbm, ⟨32, _⟩ => ⟨S20000x100, .i32⟩
  | .hbm, ⟨33, _⟩ => ⟨S20000x100, .i1⟩
  | .hbm, ⟨34, _⟩ => ⟨S20000x100, .f32⟩
  | .hbm, ⟨35, _⟩ => ⟨S20000x100x1, .f32⟩
  | .hbm, ⟨36, _⟩ => ⟨S20000x100x3, .f32⟩
  | .hbm, ⟨37, _⟩ => ⟨S_, .f32⟩
  | .hbm, ⟨38, _⟩ => ⟨S20000x3, .f32⟩
  | .hbm, ⟨39, _⟩ => ⟨S20000x1x3, .f32⟩
  | .hbm, ⟨40, _⟩ => ⟨S20000x1x3, .f32⟩
  | .hbm, ⟨41, _⟩ => ⟨S20000x1x3, .f32⟩
  | .hbm, ⟨42, _⟩ => ⟨S20000x100x3, .f32⟩
  | .hbm, ⟨43, _⟩ => ⟨S20000x100x3, .f32⟩
  | .hbm, ⟨44, _⟩ => ⟨S20000x100x3, .f32⟩
  | .hbm, ⟨45, _⟩ => ⟨S20000x100x1, .f32⟩
  | .hbm, ⟨46, _⟩ => ⟨S20000x100, .f32⟩
  | .hbm, ⟨47, _⟩ => ⟨S20000x100, .f32⟩
  | .hbm, ⟨48, _⟩ => ⟨S20000x100, .f32⟩
  | .hbm, ⟨49, _⟩ => ⟨S20000x100x1, .f32⟩
  | .hbm, ⟨50, _⟩ => ⟨S20000x100, .f32⟩
  | .hbm, ⟨51, _⟩ => ⟨S20000x100, .f32⟩
  | .hbm, ⟨52, _⟩ => ⟨S20000x100, .f32⟩
  | .hbm, ⟨53, _⟩ => ⟨S20000x100x1, .f32⟩
  | .hbm, ⟨54, _⟩ => ⟨S20000x100x1, .f32⟩
  | .hbm, ⟨55, _⟩ => ⟨S20000x100x2, .f32⟩
  | .hbm, ⟨56, _⟩ => ⟨S20000x100x9, .f32⟩
  | .hbm, ⟨57, _⟩ => ⟨S20000x100x9, .f32⟩
  | .hbm, ⟨58, _⟩ => ⟨S20000x100x9, .f32⟩
  | .hbm, ⟨59, _⟩ => ⟨S20000x100x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x1x64, .f32⟩
  | .hbm, ⟨66, _⟩ => ⟨S20000x100x64, .f32⟩
  | .hbm, ⟨67, _⟩ => ⟨S20000x100x64, .f32⟩
  | .hbm, ⟨68, _⟩ => ⟨S20000x100x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S1x1x64, .f32⟩
  | .hbm, ⟨75, _⟩ => ⟨S20000x100x64, .f32⟩
  | .hbm, ⟨76, _⟩ => ⟨S20000x100x64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S64, .f32⟩
  | .hbm, ⟨81, _⟩ => ⟨S1x1x64, .f32⟩
  | .hbm, ⟨82, _⟩ => ⟨S20000x100x64, .f32⟩
  | .hbm, ⟨83, _⟩ => ⟨S20000x100x64, .f32⟩
  | .hbm, ⟨84, _⟩ => ⟨S1x1x64, .f32⟩
  | .hbm, ⟨85, _⟩ => ⟨S20000x100x64, .f32⟩
  | .hbm, ⟨86, _⟩ => ⟨S20000x100x64, .f32⟩
  | .hbm, ⟨87, _⟩ => ⟨S1x1x64, .f32⟩
  | .hbm, ⟨88, _⟩ => ⟨S20000x100x64, .f32⟩
  | .hbm, ⟨89, _⟩ => ⟨S20000x100x64, .f32⟩
  | .hbm, ⟨90, _⟩ => ⟨S_, .f32⟩
  | .hbm, ⟨91, _⟩ => ⟨S20000x100x64, .f32⟩
  | .hbm, ⟨92, _⟩ => ⟨S20000x100x64, .f32⟩
  | .hbm, ⟨93, _⟩ => ⟨S_, .f32⟩
  | .hbm, ⟨94, _⟩ => ⟨S20000x64, .f32⟩
  | _, _ => ⟨S20000x100x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_4 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_call0_cst : Ref sig .tc := ⟨.hbm, 90, rfl⟩
abbrev main_call0_v0 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩

abbrev nD : Nat := 1
abbrev τ : Topo := Topo.v7x

variable {F : FTy → Type} [FloatOps F]

class Facts₀ : Prop where
  bcast_S20000_S20000x1x1_0 : S20000.BroadcastsInDim S20000x1x1 (![0] : Fin 1 → Fin S20000x1x1.rank)
  slices_S20000x4_S20000x1_0_3 : S20000x4.Slices ![0, 3] S20000x1
  shapeCasts_S20000x1_S20000 : S20000x1.ShapeCasts S20000
  bcast_S20000_S20000x1_0 : S20000.BroadcastsInDim S20000x1 (![0] : Fin 1 → Fin S20000x1.rank)
  bcast_S_S20000x1 : S_.BroadcastsInDim S20000x1 (![] : Fin 0 → Fin S20000x1.rank)
  slices_S20000x4_S20000x1_0_2 : S20000x4.Slices ![0, 2] S20000x1
  bcast_S100_S1x100_1 : S100.BroadcastsInDim S1x100 (![1] : Fin 1 → Fin S1x100.rank)
  bcast_S1x100_S20000x100_0_1 : S1x100.BroadcastsInDim S20000x100 (![0, 1] : Fin 2 → Fin S20000x100.rank)
  bcast_S20000x1_S20000x100_0_1 : S20000x1.BroadcastsInDim S20000x100 (![0, 1] : Fin 2 → Fin S20000x100.rank)
  bcast_S20000x100_S20000x100x1_0_1 : S20000x100.BroadcastsInDim S20000x100x1 (![0, 1] : Fin 2 → Fin S20000x100x1.rank)
  slices_S20000x100x4_S20000x100x3_0_0_0 : S20000x100x4.Slices ![0, 0, 0] S20000x100x3
  reducesTo_S20000x100x3_S20000x3_d1 : S20000x100x3.ReducesTo [1] S20000x3
  h_S_ : 0 < S_.numel
  bcast_S20000x3_S20000x1x3_0_2 : S20000x3.BroadcastsInDim S20000x1x3 (![0, 2] : Fin 2 → Fin S20000x1x3.rank)
  bcast_S20000x1x1_S20000x1x3_0_1_2 : S20000x1x1.BroadcastsInDim S20000x1x3 (![0, 1, 2] : Fin 3 → Fin S20000x1x3.rank)
  bcast_S20000x1x3_S20000x100x3_0_1_2 : S20000x1x3.BroadcastsInDim S20000x100x3 (![0, 1, 2] : Fin 3 → Fin S20000x100x3.rank)
  slices_S20000x100x4_S20000x100x1_0_0_0 : S20000x100x4.Slices ![0, 0, 0] S20000x100x1
  shapeCasts_S20000x100x1_S20000x100 : S20000x100x1.ShapeCasts S20000x100
  slices_S20000x100x4_S20000x100x1_0_0_1 : S20000x100x4.Slices ![0, 0, 1] S20000x100x1
  concatenates_S20000x100x1_S20000x100x1_S20000x100x2_d2 : Shape.Concatenates [S20000x100x1, S20000x100x1] S20000x100x2 2
  concatenates_S20000x100x4_S20000x100x3_S20000x100x2_S20000x100x9_d2 : Shape.Concatenates [S20000x100x4, S20000x100x3, S20000x100x2] S20000x100x9 2
  bcast_S20000x100x1_S20000x100x9_0_1_2 : S20000x100x1.BroadcastsInDim S20000x100x9 (![0, 1, 2] : Fin 3 → Fin S20000x100x9.rank)
  reducesTo_S20000x100x64_S64_d0_1 : S20000x100x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S1x1x64_S20000x100x64_0_1_2 : S1x1x64.BroadcastsInDim S20000x100x64 (![0, 1, 2] : Fin 3 → Fin S20000x100x64.rank)
  bcast_S_S20000x100x64 : S_.BroadcastsInDim S20000x100x64 (![] : Fin 0 → Fin S20000x100x64.rank)
  reducesTo_S20000x100x64_S20000x64_d1 : S20000x100x64.ReducesTo [1] S20000x64
  dot_S20000x100x9_S9x64_S20000x100x64_2_0_01_1_n_n_wf : DotDims.WF S20000x100x9 S9x64 S20000x100x64 [2] [0] [0, 1] [1] [] []

variable [Facts₀]

def dot_S20000x100x9_S9x64_S20000x100x64_2_0_01_1_n_n : DotDims S20000x100x9 S9x64 S20000x100x64 where
  lhsContracting := [2]
  rhsContracting := [0]
  lhsNonContracting := [0, 1]
  rhsNonContracting := [1]
  lhsBatch := []
  rhsBatch := []
  wf := dot_S20000x100x9_S9x64_S20000x100x64_2_0_01_1_n_n_wf

class Facts : Prop extends Facts₀ where

variable [Facts]
-- ==== Proof.K.Stats.lean ====
import proofs.«147546_j60705067762261_2_alg».proof.Proof.Gen.Kernel.Launch
import proofs.«147546_j60705067762261_2_alg».proof.Proof.Gen.Kernel.Skeleton
import proofs.«147546_j60705067762261_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

/-! # The first kernel (the column statistics): its proof data and body obligation

The kernel accumulates, over the grid's points, the column sums and the column sums of squares of a product block
into two output buffers that are written back at the last point only: zero-filled at the first point, carried from
point to point after. Stated at a parameter `V`, the TensorCore's buffer contents when the region is entered. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one branch, from the grid coordinates. -/
abbrev cond0_0 (i : grid0.Coords) : Prop := (Scalar.cmpi .ne (Scalar.extui (Scalar.cmpi .eq (BitVec.ofNat 32 (i 0).val) 0#32)) 0#32) = 1#1

/-- It holds at the first point only: decided over the grid. -/
theorem hcond0_0 : ∀ t : Fin cfg0.N, cond0_0 (grid0.coords t) ↔ t.val % 250 = 0 :=
  (by decide +kernel : ∀ t : Fin grid0.N, cond0_0 (grid0.coords t) ↔ t.val % 250 = 0)

private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- A whole-buffer store, LAST, leaves its payload: whatever the earlier stores and the prior contents. -/
private theorem read_writes_cons_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body on any whole staging memrefs, case by case

The body zero-fills both outputs at the first point (the branch taken), reads them back, and adds the point's column
sums; at a later point (the branch not taken) it reads what the buffers hold and adds. Each case's triple states what
each output's buffer holds afterwards in the payloads' own words: the last store of each output covers its buffer, so
what it leaves is its payload, and a whole-buffer load reads the contents (after the zero fill: the fill). -/

set_option maxHeartbeats 1000000 in
/-- CASE A (the branch taken): the outputs' buffers at anything. -/
theorem sound_kernel0_A (c : Dev nD) (E : Set ℕ) (i : grid0.Coords)
    (arg1 : Memref sig .tc .vmem S80x100x4 .f32) (harg1 : arg1.IsWhole) (arg2 : Memref sig .tc .vmem S80x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole) (hc0 : cond0_0 i)
    (x0 : Vec F S80x100x4 .f32) (x1 : Vec F S80x8 .f32) (x2 : Vec F S9x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (k0_pay6 (k0_pay3 (F := F))) (k0_pay7 x0 x1 x2))
            ∗ owns (c : Thread nD τ) arg5 fullShare (k0_pay2 (k0_pay5 x0 x1 x2) (k0_pay4 (F := F)))) -∗ K ⟨⟩))
      ⊢ wp frame (wpE (defs₀ (F := F)) Variants.none c none) E (cc0_stats_kernel i arg1 harg1 arg2 harg2 arg3 harg3 arg4 harg4 arg5 harg5) K := by
  simp only [cc0_stats_kernel_eq_skeleton]; unfold cc0_stats_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_cons_unit_zero (S := S64) _ _ hz1 _ _ _).trans ?_
    dsimp only
    sl_unfold_words
    rw [View.readCov_unit_zero (S := S64) _ hz1]
    simp only [View.readAt_eq_ld, View.ld_unit_zero (S := S80x100x4) hz3, View.ld_unit_zero (S := S80x8) hz2, View.ld_unit_zero (S := S9x64) hz2]
  · iexists _; isplitr
    swap; · iexact H4
    ipureintro
    refine (read_writes_cons_unit_zero (S := S64) _ _ hz1 _ _ _).trans ?_
    dsimp only
    sl_unfold_words
    rw [View.readCov_unit_zero (S := S64) _ hz1]
    simp only [View.readAt_eq_ld, View.ld_unit_zero (S := S80x100x4) hz3, View.ld_unit_zero (S := S80x8) hz2, View.ld_unit_zero (S := S9x64) hz2]

set_option maxHeartbeats 1000000 in
/-- CASE B (the branch not taken): the outputs' buffers at their running contents `xo3`, `xo4`. -/
theorem sound_kernel0_B (c : Dev nD) (E : Set ℕ) (i : grid0.Coords)
    (arg1 : Memref sig .tc .vmem S80x100x4 .f32) (harg1 : arg1.IsWhole) (arg2 : Memref sig .tc .vmem S80x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole) (hc0 : ¬cond0_0 i)
    (x0 : Vec F S80x100x4 .f32) (x1 : Vec F S80x8 .f32) (x2 : Vec F S9x64 .f32) (xo3 : Vec F S64 .f32) (xo4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo3 ∗ owns (c : Thread nD τ) arg5 fullShare xo4
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (k0_pay6 xo3) (k0_pay7 x0 x1 x2))
            ∗ owns (c : Thread nD τ) arg5 fullShare (k0_pay2 (k0_pay5 x0 x1 x2) xo4)) -∗ K ⟨⟩))
      ⊢ wp frame (wpE (defs₀ (F := F)) Variants.none c none) E (cc0_stats_kernel i arg1 harg1 arg2 harg2 arg3 harg3 arg4 harg4 arg5 harg5) K := by
  simp only [cc0_stats_kernel_eq_skeleton]; unfold cc0_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_cons_unit_zero (S := S64) _ _ hz1 _ _ _).trans ?_
    dsimp only
    simp only [View.readAt_eq_ld, View.ld_unit_zero (S := S80x100x4) hz3, View.ld_unit_zero (S := S80x8) hz2, View.ld_unit_zero (S := S9x64) hz2, View.ld_unit_zero (S := S64) hz1]
  · iexists _; isplitr
    swap; · iexact H4
    ipureintro
    refine (read_writes_cons_unit_zero (S := S64) _ _ hz1 _ _ _).trans ?_
    dsimp only
    simp only [View.readAt_eq_ld, View.ld_unit_zero (S := S80x100x4) hz3, View.ld_unit_zero (S := S80x8) hz2, View.ld_unit_zero (S := S9x64) hz2, View.ld_unit_zero (S := S64) hz1]

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs hold after each point -/

/-- THE ACCUMULATION. What the two outputs' staging buffers (the column sums and the column sums of squares) hold
    after the body at point `n`: at the first point the body's sums over the zero fills, at a later point over what
    the point before left (the buffers are not written back between). -/
def acc0 (c : Dev nD) : (n : ℕ) → n < cfg0.N → Vec F S64 .f32 × Vec F S64 .f32
  | 0, h => (k0_pay1 (k0_pay6 (k0_pay3 (F := F))) (k0_pay7 (iblk0 V c 0 ⟨0, h⟩) (iblk0 V c 1 ⟨0, h⟩) (iblk0 V c 2 ⟨0, h⟩)),
      k0_pay2 (k0_pay5 (iblk0 V c 0 ⟨0, h⟩) (iblk0 V c 1 ⟨0, h⟩) (iblk0 V c 2 ⟨0, h⟩)) (k0_pay4 (F := F)))
  | n + 1, h => (k0_pay1 (k0_pay6 (acc0 c n (Nat.lt_of_succ_lt h)).1) (k0_pay7 (iblk0 V c 0 ⟨n + 1, h⟩) (iblk0 V c 1 ⟨n + 1, h⟩) (iblk0 V c 2 ⟨n + 1, h⟩)),
      k0_pay2 (k0_pay5 (iblk0 V c 0 ⟨n + 1, h⟩) (iblk0 V c 1 ⟨n + 1, h⟩) (iblk0 V c 2 ⟨n + 1, h⟩)) (acc0 c n (Nat.lt_of_succ_lt h)).2)

theorem acc0_zero (c : Dev nD) (h : 0 < cfg0.N) : acc0 V c 0 h = (k0_pay1 (k0_pay6 (k0_pay3 (F := F))) (k0_pay7 (iblk0 V c 0 ⟨0, h⟩) (iblk0 V c 1 ⟨0, h⟩) (iblk0 V c 2 ⟨0, h⟩)), k0_pay2 (k0_pay5 (iblk0 V c 0 ⟨0, h⟩) (iblk0 V c 1 ⟨0, h⟩) (iblk0 V c 2 ⟨0, h⟩)) (k0_pay4 (F := F))) := by
  rw [acc0]

theorem acc0_succ (c : Dev nD) (n : ℕ) (h : n + 1 < cfg0.N) : acc0 V c (n + 1) h = (k0_pay1 (k0_pay6 (acc0 V c n (Nat.lt_of_succ_lt h)).1) (k0_pay7 (iblk0 V c 0 ⟨n + 1, h⟩) (iblk0 V c 1 ⟨n + 1, h⟩) (iblk0 V c 2 ⟨n + 1, h⟩)), k0_pay2 (k0_pay5 (iblk0 V c 0 ⟨n + 1, h⟩) (iblk0 V c 1 ⟨n + 1, h⟩) (iblk0 V c 2 ⟨n + 1, h⟩)) (acc0 V c n (Nat.lt_of_succ_lt h)).2) := by
  rw [acc0]

/-- `acc0` at the first point. -/
theorem acc0_A (c : Dev nD) (t : Fin cfg0.N) (h0 : t.val % 250 = 0) :
    acc0 V c t.val t.isLt = (k0_pay1 (k0_pay6 (k0_pay3 (F := F))) (k0_pay7 (iblk0 V c 0 t) (iblk0 V c 1 t) (iblk0 V c 2 t)),
      k0_pay2 (k0_pay5 (iblk0 V c 0 t) (iblk0 V c 1 t) (iblk0 V c 2 t)) (k0_pay4 (F := F))) := by
  obtain ⟨n, hn⟩ := t
  have hN : n < 250 := lt_of_lt_of_eq hn (show cfg0.N = 250 from N_0)
  dsimp only at h0
  obtain rfl : n = 0 := by omega
  exact acc0_zero V c hn

/-- `acc0` at a later point: over what the point before left. -/
theorem acc0_B (c : Dev nD) (t : Fin cfg0.N) (h0 : ¬t.val % 250 = 0) :
    acc0 V c t.val t.isLt = (k0_pay1 (k0_pay6 (acc0 V c (t.val - 1) (Nat.lt_of_le_of_lt (Nat.sub_le _ _) t.isLt)).1) (k0_pay7 (iblk0 V c 0 t) (iblk0 V c 1 t) (iblk0 V c 2 t)),
      k0_pay2 (k0_pay5 (iblk0 V c 0 t) (iblk0 V c 1 t) (iblk0 V c 2 t)) (acc0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact acc0_succ V c n hn

/-! ## The pipeline's proof data -/

/-- The proof data of the pipeline on core `c`: the arrays as the region finds them (`V`); after the body at
    point `t` each input's buffer at its block and the two outputs' at `acc0`; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (acc0 V c t.val t.isLt).1
    | ⟨4, _⟩ => (acc0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (acc0 V c t.val t.isLt).1 := by dsimp only [dat0]
theorem after0_4 (c : Dev nD) (t : Fin cfg0.N) : (dat0 V c).after 4 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point an output's current staging buffer holds what the body left at the point before: the buffer was
    not written back between (only the last point writes back), the window is live and uncut. -/
theorem before0_3_B (c : Dev nD) (t : Fin cfg0.N) (h0 : ¬t.val % 250 = 0) (d) :
    (dat0 V c).before 3 t d = (acc0 V c (t.val - 1) (Nat.lt_of_le_of_lt (Nat.sub_le _ _) t.isLt)).1 := by
  have hN : t.val < 250 := lt_of_lt_of_eq t.isLt (show cfg0.N = 250 from N_0)
  rw [Dat.before_out_kept _ 3 rfl t (by omega) (Bool.eq_false_iff.mpr fun h => by have := (flush0_3 _).mp h; dsimp only at this; omega)
    (fun _ => rfl) (fun _ _ => rfl)]
  dsimp only [dat0]

theorem before0_4_B (c : Dev nD) (t : Fin cfg0.N) (h0 : ¬t.val % 250 = 0) (d) :
    (dat0 V c).before 4 t d = (acc0 V c (t.val - 1) (Nat.lt_of_le_of_lt (Nat.sub_le _ _) t.isLt)).2 := by
  have hN : t.val < 250 := lt_of_lt_of_eq t.isLt (show cfg0.N = 250 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point: the inputs' memrefs hold their blocks; the closed form of the branch condition says which
    case the point is in; at a later point each output's buffer holds what the point before left; so the kernel's
    triple of that case applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 250 := lt_of_lt_of_eq t.isLt (show cfg0.N = 250 from N_0)
  by_cases h0 : t.val % 250 = 0
  · rw [acc0_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond0_0 t).mpr h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_B V c t h0]
    simp only [before0_3_B V c t h0, before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond0_0 t).mp h)) (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.MainRegion.lean ====
/- The class-A half of REGION 1 of @main (custom_call 1, `cc1_main_kernel`, pipeline 1), at a
   PARAMETER `V` — the TensorCore's buffer contents when the region is entered: each window's block at a point
   (`iblk1`), what the body leaves in the output window's staging buffer (`out1_5`, and its value in plain payload
   form `out1_5_eq`), the body's triple (`sound_kernel1`), the proof data (`dat1`) and the body obligation
   (`body_obligation1`). Five input windows (features block, aux block, weights, scale, shift; the last three at a
   constant block index, fetched at the first point only) and one output window stored whole once per point. -/
import proofs.«147546_j60705067762261_2_alg».proof.Proof.Gen.Kernel.Launch
import proofs.«147546_j60705067762261_2_alg».proof.Proof.Gen.Kernel.Skeleton
import proofs.«147546_j60705067762261_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

-- rectangles of large extents: one level of recursion per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S80x100x4 := Rect.unit (s := S80x100x4) ![0, 0, 0] S80x100x4.size inb_S80x100x4_S80x100x4_0_0_0
abbrev r1_1 : Rect S80x8 := Rect.unit (s := S80x8) ![0, 0] S80x8.size inb_S80x8_S80x8_0_0
abbrev r1_2 : Rect S9x64 := Rect.unit (s := S9x64) ![0, 0] S9x64.size inb_S9x64_S9x64_0_0
abbrev r1_3 : Rect S64 := Rect.unit (s := S64) ![0] S64.size inb_S64_S64_0
abbrev r1_5 : Rect S80x64 := Rect.unit (s := S80x64) ![0, 0] S80x64.size inb_S80x64_S80x64_0_0

/-- The offsets of a whole-block rectangle are zero. -/
theorem hzR1_1 : (![0] : Fin 1 → Nat) = fun _ => 0 := funext fun a => by fin_cases a <;> rfl
theorem hzR1_2 : (![0, 0] : Fin 2 → Nat) = fun _ => 0 := funext fun a => by fin_cases a <;> rfl
theorem hzR1_3 : (![0, 0, 0] : Fin 3 → Nat) = fun _ => 0 := funext fun a => by fin_cases a <;> rfl

/-! ## What the body leaves in the output window's buffer -/

/-- Window 5's staging buffer after the body, from the input windows' blocks: its one store as a piece, the payload
    the skeleton's over the loads of the five input blocks. -/
def out1_5 (x0 : Vec F S80x100x4 .f32) (x1 : Vec F S80x8 .f32) (x2 : Vec F S9x64 .f32) (x3 x4 : Vec F S64 .f32) : Vec F S80x64 .f32 :=
  View.canon [⟨r1_5, k1_pay1 (k1_pay2 (View.ld x0 r1_0) (View.ld x1 r1_1) (View.ld x2 r1_2) (View.ld x3 r1_3)) (k1_pay3 (View.ld x4 r1_3))⟩]

/-- Its store is of the whole buffer, so it covers it. -/
theorem cover1_5 (p0 : Vec F S80x64 .f32) (y : S80x64.Idx) :
    ∃ pc ∈ ([⟨r1_5, p0⟩] : List (View.Piece (Elt F) S80x64 .f32)), y ∈ pc.1.set :=
  ⟨_, List.mem_singleton_self _, View.mem_set_unit_zero hzR1_2 inb_S80x64_S80x64_0_0 y⟩

/-- The value the body stores, in plain payload form: every load is of a whole block through a whole rectangle, and
    the one store is of the whole buffer. -/
theorem out1_5_eq (x0 : Vec F S80x100x4 .f32) (x1 : Vec F S80x8 .f32) (x2 : Vec F S9x64 .f32) (x3 x4 : Vec F S64 .f32) :
    out1_5 x0 x1 x2 x3 x4 = k1_pay1 (k1_pay2 x0 x1 x2 x3) (k1_pay3 x4) := by
  unfold out1_5
  rw [View.canon_unit_zero hzR1_2]
  simp only [View.ld_unit_zero (S := S80x100x4) hzR1_3, View.ld_unit_zero (S := S80x8) hzR1_2, View.ld_unit_zero (S := S9x64) hzR1_2,
    View.ld_unit_zero (S := S64) hzR1_1]

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S80x100x4 .f32) (harg1 : arg1.IsWhole) (arg2 : Memref sig .tc .vmem S80x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S80x64 .f32) (harg6 : arg6.IsWhole)
    (x0 : Vec F S80x100x4 .f32) (x1 : Vec F S80x8 .f32) (x2 : Vec F S9x64 .f32) (x3 x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_main_kernel i arg1 harg1 arg2 harg2 arg3 harg3 arg4 harg4 arg5 harg5 arg6 harg6) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1
end Cert.Kernel.Hand
end
-- ==== Proof.K.Run.lean ====
import proofs.«147546_j60705067762261_2_alg».proof.Proof.Gen.Kernel.Launch
import proofs.«147546_j60705067762261_2_alg».proof.Proof.Gen.Kernel.Skeleton
import proofs.«147546_j60705067762261_2_alg».proof.Proof.Gen.Kernel.Points
import proofs.«147546_j60705067762261_2_alg».proof.Proof.K.Stats
import proofs.«147546_j60705067762261_2_alg».proof.Proof.K.MainRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program's run: host operations, the statistics region, host operations, the main region

The contents of every unscoped buffer at each boundary between two of these four items, as a fold from the
launch memory: a stretch of host operations applies them; a region leaves its input arrays as it found them
and each output array at what its write-backs leave. -/

/-- Core `c`'s buffers at launch. -/
abbrev W0 : Dev nD → Valuation τ sig (Elt F) := fun c b => (s₀ m ρ).mem ((c : Dev nD), b)
/-- After the first stretch of host operations: the statistics region's entry. -/
abbrev W1 : Dev nD → Valuation τ sig (Elt F) := fun c => StableHlo.after hostOps0 (W0 m ρ c)
/-- The same, read at the TensorCore's references. -/
abbrev Vin0 : (c : Dev nD) → (b : Ref sig .tc) → Buf (Elt F) ((c : Thread nD τ).loc b) := fun c b => W1 m ρ c b
/-- At the statistics region's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the second stretch of host operations: the main region's entry. -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b
/-- At the main region's exit. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-! ## The arguments end as launched

No host operation writes an argument; a region reads it through an input window or does not touch it. -/

/-- No operation of the first stretch writes `b`. -/
local macro "not_written0" : tactic => `(tactic| (
  refine List.forall_iff_forall_mem.mp ?_
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)))
local macro "not_written1" : tactic => `(tactic| (
  refine List.forall_iff_forall_mem.mp ?_
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)))

theorem W1_main_arg0 (c : Dev nD) : W1 m ρ c (Proc.devRef .tc main_arg0) = m ((c : Thread nD τ).loc main_arg0) :=
  (StableHlo.after_of_forall_not_mem (b := Proc.devRef .tc main_arg0) _ _ (by not_written0)).trans rfl
theorem W1_main_arg1 (c : Dev nD) : W1 m ρ c (Proc.devRef .tc main_arg1) = m ((c : Thread nD τ).loc main_arg1) :=
  (StableHlo.after_of_forall_not_mem (b := Proc.devRef .tc main_arg1) _ _ (by not_written0)).trans rfl
theorem W1_main_arg2 (c : Dev nD) : W1 m ρ c (Proc.devRef .tc main_arg2) = m ((c : Thread nD τ).loc main_arg2) :=
  (StableHlo.after_of_forall_not_mem (b := Proc.devRef .tc main_arg2) _ _ (by not_written0)).trans rfl
theorem W1_main_arg3 (c : Dev nD) : W1 m ρ c (Proc.devRef .tc main_arg3) = m ((c : Thread nD τ).loc main_arg3) :=
  (StableHlo.after_of_forall_not_mem (b := Proc.devRef .tc main_arg3) _ _ (by not_written0)).trans rfl
theorem W1_main_arg4 (c : Dev nD) : W1 m ρ c (Proc.devRef .tc main_arg4) = m ((c : Thread nD τ).loc main_arg4) :=
  (StableHlo.after_of_forall_not_mem (b := Proc.devRef .tc main_arg4) _ _ (by not_written0)).trans rfl
theorem W1_main_arg5 (c : Dev nD) : W1 m ρ c (Proc.devRef .tc main_arg5) = m ((c : Thread nD τ).loc main_arg5) :=
  (StableHlo.after_of_forall_not_mem (b := Proc.devRef .tc main_arg5) _ _ (by not_written0)).trans rfl

/-- An input window's array leaves the statistics region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Vin0 m ρ) c).arrAt_in w hw _).trans (A_eq0 (Vin0 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (Vin1 m ρ) c).arrAt_in w hw _).trans (A_eq1 (Vin1 m ρ) c w))

theorem W2_main_arg0 (c : Dev nD) : W2 m ρ c (Proc.devRef .tc main_arg0) = m ((c : Thread nD τ).loc main_arg0) :=
  (W2_in m ρ c 0 rfl).trans (W1_main_arg0 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_in m ρ c 2 rfl).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)

theorem W3_main_arg0 (c : Dev nD) : W3 m ρ c (Proc.devRef .tc main_arg0) = m ((c : Thread nD τ).loc main_arg0) :=
  (StableHlo.after_of_forall_not_mem (b := Proc.devRef .tc main_arg0) _ _ (by not_written1)).trans (W2_main_arg0 m ρ c)
theorem W3_main_arg1 (c : Dev nD) : W3 m ρ c (Proc.devRef .tc main_arg1) = m ((c : Thread nD τ).loc main_arg1) :=
  (StableHlo.after_of_forall_not_mem (b := Proc.devRef .tc main_arg1) _ _ (by not_written1)).trans (W2_main_arg1 m ρ c)
theorem W3_main_arg2 (c : Dev nD) : W3 m ρ c (Proc.devRef .tc main_arg2) = m ((c : Thread nD τ).loc main_arg2) :=
  (StableHlo.after_of_forall_not_mem (b := Proc.devRef .tc main_arg2) _ _ (by not_written1)).trans (W2_main_arg2 m ρ c)
theorem W3_main_arg3 (c : Dev nD) : W3 m ρ c (Proc.devRef .tc main_arg3) = m ((c : Thread nD τ).loc main_arg3) :=
  (StableHlo.after_of_forall_not_mem (b := Proc.devRef .tc main_arg3) _ _ (by not_written1)).trans (W2_main_arg3 m ρ c)
theorem W3_main_arg4 (c : Dev nD) : W3 m ρ c (Proc.devRef .tc main_arg4) = m ((c : Thread nD τ).loc main_arg4) :=
  (StableHlo.after_of_forall_not_mem (b := Proc.devRef .tc main_arg4) _ _ (by not_written1)).trans (W2_main_arg4 m ρ c)
theorem W3_main_arg5 (c : Dev nD) : W3 m ρ c (Proc.devRef .tc main_arg5) = m ((c : Thread nD τ).loc main_arg5) :=
  (StableHlo.after_of_forall_not_mem (b := Proc.devRef .tc main_arg5) _ _ (by not_written1)).trans (W2_main_arg5 m ρ c)

theorem W4_main_arg0 (c : Dev nD) : W4 m ρ c (Proc.devRef .tc main_arg0) = m ((c : Thread nD τ).loc main_arg0) :=
  (W4_in m ρ c 0 rfl).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_in m ρ c 2 rfl).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)

/-- The auxiliary array is an input window of the statistics region and no operation of the second stretch writes it:
    the main region finds it as the first stretch left it. -/
theorem W2_main_v19 (c : Dev nD) : W2 m ρ c (Proc.devRef .tc main_v19) = W1 m ρ c (Proc.devRef .tc main_v19) :=
  W2_in m ρ c 1 rfl
theorem W3_main_v19 (c : Dev nD) : W3 m ρ c (Proc.devRef .tc main_v19) = W1 m ρ c (Proc.devRef .tc main_v19) :=
  (StableHlo.after_of_forall_not_mem (b := Proc.devRef .tc main_v19) _ _ (by not_written1)).trans (W2_main_v19 m ρ c)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back, at what the pipeline
    leaves, at exit; the generator register goes into the pipeline's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back, at what the pipeline
    leaves, at exit; the generator register goes into the pipeline's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Hand

end
-- ==== Proof.KI.Stats.lean ====
import proofs.«147546_j60705067762261_2_alg».proof.Proof.Gen.KernelIdeal.Launch
import proofs.«147546_j60705067762261_2_alg».proof.Proof.Gen.KernelIdeal.Skeleton
import proofs.«147546_j60705067762261_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

/-! # The first kernel (the column statistics): its proof data and body obligation

The kernel accumulates, over the grid's points, the column sums and the column sums of squares of a product block
into two output buffers that are written back at the last point only: zero-filled at the first point, carried from
point to point after. Stated at a parameter `V`, the TensorCore's buffer contents when the region is entered. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one branch, from the grid coordinates. -/
abbrev cond0_0 (i : grid0.Coords) : Prop := (Scalar.cmpi .ne (Scalar.extui (Scalar.cmpi .eq (BitVec.ofNat 32 (i 0).val) 0#32)) 0#32) = 1#1

/-- It holds at the first point only: decided over the grid. -/
theorem hcond0_0 : ∀ t : Fin cfg0.N, cond0_0 (grid0.coords t) ↔ t.val % 250 = 0 :=
  (by decide +kernel : ∀ t : Fin grid0.N, cond0_0 (grid0.coords t) ↔ t.val % 250 = 0)

private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- A whole-buffer store, LAST, leaves its payload: whatever the earlier stores and the prior contents. -/
private theorem read_writes_cons_unit_zero {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The kernel body on any whole staging memrefs, case by case

The body zero-fills both outputs at the first point (the branch taken), reads them back, and adds the point's column
sums; at a later point (the branch not taken) it reads what the buffers hold and adds. Each case's triple states what
each output's buffer holds afterwards in the payloads' own words: the last store of each output covers its buffer, so
what it leaves is its payload, and a whole-buffer load reads the contents (after the zero fill: the fill). -/

set_option maxHeartbeats 1000000 in
/-- CASE A (the branch taken): the outputs' buffers at anything. -/
theorem sound_kernel0_A (c : Dev nD) (E : Set ℕ) (i : grid0.Coords)
    (arg1 : Memref sig .tc .vmem S80x100x4 .f32) (harg1 : arg1.IsWhole) (arg2 : Memref sig .tc .vmem S80x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole) (hc0 : cond0_0 i)
    (x0 : Vec F S80x100x4 .f32) (x1 : Vec F S80x8 .f32) (x2 : Vec F S9x64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (k0_pay6 (k0_pay3 (F := F))) (k0_pay7 x0 x1 x2))
            ∗ owns (c : Thread nD τ) arg5 fullShare (k0_pay2 (k0_pay5 x0 x1 x2) (k0_pay4 (F := F)))) -∗ K ⟨⟩))
      ⊢ wp frame (wpE (defs₀ (F := F)) Variants.none c none) E (cc0_stats_kernel i arg1 harg1 arg2 harg2 arg3 harg3 arg4 harg4 arg5 harg5) K := by
  simp only [cc0_stats_kernel_eq_skeleton]; unfold cc0_stats_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_cons_unit_zero (S := S64) _ _ hz1 _ _ _).trans ?_
    dsimp only
    sl_unfold_words
    rw [View.readCov_unit_zero (S := S64) _ hz1]
    simp only [View.readAt_eq_ld, View.ld_unit_zero (S := S80x100x4) hz3, View.ld_unit_zero (S := S80x8) hz2, View.ld_unit_zero (S := S9x64) hz2]
  · iexists _; isplitr
    swap; · iexact H4
    ipureintro
    refine (read_writes_cons_unit_zero (S := S64) _ _ hz1 _ _ _).trans ?_
    dsimp only
    sl_unfold_words
    rw [View.readCov_unit_zero (S := S64) _ hz1]
    simp only [View.readAt_eq_ld, View.ld_unit_zero (S := S80x100x4) hz3, View.ld_unit_zero (S := S80x8) hz2, View.ld_unit_zero (S := S9x64) hz2]

set_option maxHeartbeats 1000000 in
/-- CASE B (the branch not taken): the outputs' buffers at their running contents `xo3`, `xo4`. -/
theorem sound_kernel0_B (c : Dev nD) (E : Set ℕ) (i : grid0.Coords)
    (arg1 : Memref sig .tc .vmem S80x100x4 .f32) (harg1 : arg1.IsWhole) (arg2 : Memref sig .tc .vmem S80x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole) (hc0 : ¬cond0_0 i)
    (x0 : Vec F S80x100x4 .f32) (x1 : Vec F S80x8 .f32) (x2 : Vec F S9x64 .f32) (xo3 : Vec F S64 .f32) (xo4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xo3 ∗ owns (c : Thread nD τ) arg5 fullShare xo4
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 (k0_pay6 xo3) (k0_pay7 x0 x1 x2))
            ∗ owns (c : Thread nD τ) arg5 fullShare (k0_pay2 (k0_pay5 x0 x1 x2) xo4)) -∗ K ⟨⟩))
      ⊢ wp frame (wpE (defs₀ (F := F)) Variants.none c none) E (cc0_stats_kernel i arg1 harg1 arg2 harg2 arg3 harg3 arg4 harg4 arg5 harg5) K := by
  simp only [cc0_stats_kernel_eq_skeleton]; unfold cc0_stats_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_writes_cons_unit_zero (S := S64) _ _ hz1 _ _ _).trans ?_
    dsimp only
    simp only [View.readAt_eq_ld, View.ld_unit_zero (S := S80x100x4) hz3, View.ld_unit_zero (S := S80x8) hz2, View.ld_unit_zero (S := S9x64) hz2, View.ld_unit_zero (S := S64) hz1]
  · iexists _; isplitr
    swap; · iexact H4
    ipureintro
    refine (read_writes_cons_unit_zero (S := S64) _ _ hz1 _ _ _).trans ?_
    dsimp only
    simp only [View.readAt_eq_ld, View.ld_unit_zero (S := S80x100x4) hz3, View.ld_unit_zero (S := S80x8) hz2, View.ld_unit_zero (S := S9x64) hz2, View.ld_unit_zero (S := S64) hz1]

section Regions
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What the outputs hold after each point -/

/-- THE ACCUMULATION. What the two outputs' staging buffers (the column sums and the column sums of squares) hold
    after the body at point `n`: at the first point the body's sums over the zero fills, at a later point over what
    the point before left (the buffers are not written back between). -/
def acc0 (c : Dev nD) : (n : ℕ) → n < cfg0.N → Vec F S64 .f32 × Vec F S64 .f32
  | 0, h => (k0_pay1 (k0_pay6 (k0_pay3 (F := F))) (k0_pay7 (iblk0 V c 0 ⟨0, h⟩) (iblk0 V c 1 ⟨0, h⟩) (iblk0 V c 2 ⟨0, h⟩)),
      k0_pay2 (k0_pay5 (iblk0 V c 0 ⟨0, h⟩) (iblk0 V c 1 ⟨0, h⟩) (iblk0 V c 2 ⟨0, h⟩)) (k0_pay4 (F := F)))
  | n + 1, h => (k0_pay1 (k0_pay6 (acc0 c n (Nat.lt_of_succ_lt h)).1) (k0_pay7 (iblk0 V c 0 ⟨n + 1, h⟩) (iblk0 V c 1 ⟨n + 1, h⟩) (iblk0 V c 2 ⟨n + 1, h⟩)),
      k0_pay2 (k0_pay5 (iblk0 V c 0 ⟨n + 1, h⟩) (iblk0 V c 1 ⟨n + 1, h⟩) (iblk0 V c 2 ⟨n + 1, h⟩)) (acc0 c n (Nat.lt_of_succ_lt h)).2)

theorem acc0_zero (c : Dev nD) (h : 0 < cfg0.N) : acc0 V c 0 h = (k0_pay1 (k0_pay6 (k0_pay3 (F := F))) (k0_pay7 (iblk0 V c 0 ⟨0, h⟩) (iblk0 V c 1 ⟨0, h⟩) (iblk0 V c 2 ⟨0, h⟩)), k0_pay2 (k0_pay5 (iblk0 V c 0 ⟨0, h⟩) (iblk0 V c 1 ⟨0, h⟩) (iblk0 V c 2 ⟨0, h⟩)) (k0_pay4 (F := F))) := by
  rw [acc0]

theorem acc0_succ (c : Dev nD) (n : ℕ) (h : n + 1 < cfg0.N) : acc0 V c (n + 1) h = (k0_pay1 (k0_pay6 (acc0 V c n (Nat.lt_of_succ_lt h)).1) (k0_pay7 (iblk0 V c 0 ⟨n + 1, h⟩) (iblk0 V c 1 ⟨n + 1, h⟩) (iblk0 V c 2 ⟨n + 1, h⟩)), k0_pay2 (k0_pay5 (iblk0 V c 0 ⟨n + 1, h⟩) (iblk0 V c 1 ⟨n + 1, h⟩) (iblk0 V c 2 ⟨n + 1, h⟩)) (acc0 V c n (Nat.lt_of_succ_lt h)).2) := by
  rw [acc0]

/-- `acc0` at the first point. -/
theorem acc0_A (c : Dev nD) (t : Fin cfg0.N) (h0 : t.val % 250 = 0) :
    acc0 V c t.val t.isLt = (k0_pay1 (k0_pay6 (k0_pay3 (F := F))) (k0_pay7 (iblk0 V c 0 t) (iblk0 V c 1 t) (iblk0 V c 2 t)),
      k0_pay2 (k0_pay5 (iblk0 V c 0 t) (iblk0 V c 1 t) (iblk0 V c 2 t)) (k0_pay4 (F := F))) := by
  obtain ⟨n, hn⟩ := t
  have hN : n < 250 := lt_of_lt_of_eq hn (show cfg0.N = 250 from N_0)
  dsimp only at h0
  obtain rfl : n = 0 := by omega
  exact acc0_zero V c hn

/-- `acc0` at a later point: over what the point before left. -/
theorem acc0_B (c : Dev nD) (t : Fin cfg0.N) (h0 : ¬t.val % 250 = 0) :
    acc0 V c t.val t.isLt = (k0_pay1 (k0_pay6 (acc0 V c (t.val - 1) (Nat.lt_of_le_of_lt (Nat.sub_le _ _) t.isLt)).1) (k0_pay7 (iblk0 V c 0 t) (iblk0 V c 1 t) (iblk0 V c 2 t)),
      k0_pay2 (k0_pay5 (iblk0 V c 0 t) (iblk0 V c 1 t) (iblk0 V c 2 t)) (acc0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact acc0_succ V c n hn

/-! ## The pipeline's proof data -/

/-- The proof data of the pipeline on core `c`: the arrays as the region finds them (`V`); after the body at
    point `t` each input's buffer at its block and the two outputs' at `acc0`; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (acc0 V c t.val t.isLt).1
    | ⟨4, _⟩ => (acc0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (acc0 V c t.val t.isLt).1 := by dsimp only [dat0]
theorem after0_4 (c : Dev nD) (t : Fin cfg0.N) : (dat0 V c).after 4 t = (acc0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point an output's current staging buffer holds what the body left at the point before: the buffer was
    not written back between (only the last point writes back), the window is live and uncut. -/
theorem before0_3_B (c : Dev nD) (t : Fin cfg0.N) (h0 : ¬t.val % 250 = 0) (d) :
    (dat0 V c).before 3 t d = (acc0 V c (t.val - 1) (Nat.lt_of_le_of_lt (Nat.sub_le _ _) t.isLt)).1 := by
  have hN : t.val < 250 := lt_of_lt_of_eq t.isLt (show cfg0.N = 250 from N_0)
  rw [Dat.before_out_kept _ 3 rfl t (by omega) (Bool.eq_false_iff.mpr fun h => by have := (flush0_3 _).mp h; dsimp only at this; omega)
    (fun _ => rfl) (fun _ _ => rfl)]
  dsimp only [dat0]

theorem before0_4_B (c : Dev nD) (t : Fin cfg0.N) (h0 : ¬t.val % 250 = 0) (d) :
    (dat0 V c).before 4 t d = (acc0 V c (t.val - 1) (Nat.lt_of_le_of_lt (Nat.sub_le _ _) t.isLt)).2 := by
  have hN : t.val < 250 := lt_of_lt_of_eq t.isLt (show cfg0.N = 250 from N_0)
  rw [Dat.before_out_kept _ 4 rfl t (by omega) (Bool.eq_false_iff.mpr fun h => by have := (flush0_4 _).mp h; dsimp only at this; omega)
    (fun _ => rfl) (fun _ _ => rfl)]
  dsimp only [dat0]

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

set_option maxHeartbeats 800000 in
/-- The body at any point: the inputs' memrefs hold their blocks; the closed form of the branch condition says which
    case the point is in; at a later point each output's buffer holds what the point before left; so the kernel's
    triple of that case applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  have hN : t.val < 250 := lt_of_lt_of_eq t.isLt (show cfg0.N = 250 from N_0)
  by_cases h0 : t.val % 250 = 0
  · rw [acc0_A V c t h0]
    iintro ⟨HΦ, Ho, ⟨%d0, H0⟩, ⟨%d1, H1⟩, ⟨%d2, H2⟩, ⟨%d3, H3⟩, ⟨%d4, H4⟩⟩
    iapply (sound_kernel0_A c Set.univ (grid0.coords t) _ _ _ _ _ _ _ _ _ _ ((hcond0_0 t).mpr h0) (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc0_B V c t h0]
    simp only [before0_3_B V c t h0, before0_4_B V c t h0]
    iintro ⟨HΦ, Ho, ⟨%d0, H0⟩, ⟨%d1, H1⟩, ⟨%d2, H2⟩, ⟨%d3, H3⟩, ⟨%d4, H4⟩⟩
    iapply (sound_kernel0_B c Set.univ (grid0.coords t) _ _ _ _ _ _ _ _ _ _ (fun h => h0 ((hcond0_0 t).mp h)) (iblk0 V c 0 t) (iblk0 V c 1 t) (iblk0 V c 2 t) _ _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.MainRegion.lean ====
/- The class-A half of REGION 1 of @main (custom_call 1, `cc1_main_kernel`, pipeline 1), at a
   PARAMETER `V` — the TensorCore's buffer contents when the region is entered: each window's block at a point
   (`iblk1`), what the body leaves in the output window's staging buffer (`out1_5`, and its value in plain payload
   form `out1_5_eq`), the body's triple (`sound_kernel1`), the proof data (`dat1`) and the body obligation
   (`body_obligation1`). Five input windows (features block, aux block, weights, scale, shift; the last three at a
   constant block index, fetched at the first point only) and one output window stored whole once per point. -/
import proofs.«147546_j60705067762261_2_alg».proof.Proof.Gen.KernelIdeal.Launch
import proofs.«147546_j60705067762261_2_alg».proof.Proof.Gen.KernelIdeal.Skeleton
import proofs.«147546_j60705067762261_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

-- rectangles of large extents: one level of recursion per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S80x100x4 := Rect.unit (s := S80x100x4) ![0, 0, 0] S80x100x4.size inb_S80x100x4_S80x100x4_0_0_0
abbrev r1_1 : Rect S80x8 := Rect.unit (s := S80x8) ![0, 0] S80x8.size inb_S80x8_S80x8_0_0
abbrev r1_2 : Rect S9x64 := Rect.unit (s := S9x64) ![0, 0] S9x64.size inb_S9x64_S9x64_0_0
abbrev r1_3 : Rect S64 := Rect.unit (s := S64) ![0] S64.size inb_S64_S64_0
abbrev r1_5 : Rect S80x64 := Rect.unit (s := S80x64) ![0, 0] S80x64.size inb_S80x64_S80x64_0_0

/-- The offsets of a whole-block rectangle are zero. -/
theorem hzR1_1 : (![0] : Fin 1 → Nat) = fun _ => 0 := funext fun a => by fin_cases a <;> rfl
theorem hzR1_2 : (![0, 0] : Fin 2 → Nat) = fun _ => 0 := funext fun a => by fin_cases a <;> rfl
theorem hzR1_3 : (![0, 0, 0] : Fin 3 → Nat) = fun _ => 0 := funext fun a => by fin_cases a <;> rfl

/-! ## What the body leaves in the output window's buffer -/

/-- Window 5's staging buffer after the body, from the input windows' blocks: its one store as a piece, the payload
    the skeleton's over the loads of the five input blocks. -/
def out1_5 (x0 : Vec F S80x100x4 .f32) (x1 : Vec F S80x8 .f32) (x2 : Vec F S9x64 .f32) (x3 x4 : Vec F S64 .f32) : Vec F S80x64 .f32 :=
  View.canon [⟨r1_5, k1_pay1 (k1_pay2 (View.ld x0 r1_0) (View.ld x1 r1_1) (View.ld x2 r1_2) (View.ld x3 r1_3)) (k1_pay3 (View.ld x4 r1_3))⟩]

/-- Its store is of the whole buffer, so it covers it. -/
theorem cover1_5 (p0 : Vec F S80x64 .f32) (y : S80x64.Idx) :
    ∃ pc ∈ ([⟨r1_5, p0⟩] : List (View.Piece (Elt F) S80x64 .f32)), y ∈ pc.1.set :=
  ⟨_, List.mem_singleton_self _, View.mem_set_unit_zero hzR1_2 inb_S80x64_S80x64_0_0 y⟩

/-- The value the body stores, in plain payload form: every load is of a whole block through a whole rectangle, and
    the one store is of the whole buffer. -/
theorem out1_5_eq (x0 : Vec F S80x100x4 .f32) (x1 : Vec F S80x8 .f32) (x2 : Vec F S9x64 .f32) (x3 x4 : Vec F S64 .f32) :
    out1_5 x0 x1 x2 x3 x4 = k1_pay1 (k1_pay2 x0 x1 x2 x3) (k1_pay3 x4) := by
  unfold out1_5
  rw [View.canon_unit_zero hzR1_2]
  simp only [View.ld_unit_zero (S := S80x100x4) hzR1_3, View.ld_unit_zero (S := S80x8) hzR1_2, View.ld_unit_zero (S := S9x64) hzR1_2,
    View.ld_unit_zero (S := S64) hzR1_1]

/-! ## The body's triple -/

set_option maxHeartbeats 1000000 in
/-- The kernel body on whole staging memrefs, the inputs' at read contents `xW` and the output's at anything, runs to
    the continuation holding the inputs' as they were and the output's at `out1_5` of the inputs'. -/
theorem sound_kernel1 (c : Dev nD) (E : Set ℕ) (i : grid1.Coords)
    (arg1 : Memref sig .tc .vmem S80x100x4 .f32) (harg1 : arg1.IsWhole) (arg2 : Memref sig .tc .vmem S80x8 .f32) (harg2 : arg2.IsWhole)
    (arg3 : Memref sig .tc .vmem S9x64 .f32) (harg3 : arg3.IsWhole) (arg4 : Memref sig .tc .vmem S64 .f32) (harg4 : arg4.IsWhole)
    (arg5 : Memref sig .tc .vmem S64 .f32) (harg5 : arg5.IsWhole) (arg6 : Memref sig .tc .vmem S80x64 .f32) (harg6 : arg6.IsWhole)
    (x0 : Vec F S80x100x4 .f32) (x1 : Vec F S80x8 .f32) (x2 : Vec F S9x64 .f32) (x3 x4 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_main_kernel i arg1 harg1 arg2 harg2 arg3 harg3 arg4 harg4 arg5 harg5 arg6 harg6) K := by
  simp only [cc1_main_kernel_eq_skeleton]; unfold cc1_main_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core `c`: the arrays as the region finds them (`V`); after the body at point
    `t` each input's buffer at its block and the output's at `out1_5` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1
end Cert.KernelIdeal.Hand
end
-- ==== Proof.KI.Run.lean ====
import proofs.«147546_j60705067762261_2_alg».proof.Proof.Gen.KernelIdeal.Launch
import proofs.«147546_j60705067762261_2_alg».proof.Proof.Gen.KernelIdeal.Skeleton
import proofs.«147546_j60705067762261_2_alg».proof.Proof.Gen.KernelIdeal.Points
import proofs.«147546_j60705067762261_2_alg».proof.Proof.KI.Stats
import proofs.«147546_j60705067762261_2_alg».proof.Proof.KI.MainRegion
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The program's run: host operations, the statistics region, host operations, the main region

The contents of every unscoped buffer at each boundary between two of these four items, as a fold from the
launch memory: a stretch of host operations applies them; a region leaves its input arrays as it found them
and each output array at what its write-backs leave. -/

/-- Core `c`'s buffers at launch. -/
abbrev W0 : Dev nD → Valuation τ sig (Elt F) := fun c b => (s₀ m ρ).mem ((c : Dev nD), b)
/-- After the first stretch of host operations: the statistics region's entry. -/
abbrev W1 : Dev nD → Valuation τ sig (Elt F) := fun c => StableHlo.after hostOps0 (W0 m ρ c)
/-- The same, read at the TensorCore's references. -/
abbrev Vin0 : (c : Dev nD) → (b : Ref sig .tc) → Buf (Elt F) ((c : Thread nD τ).loc b) := fun c b => W1 m ρ c b
/-- At the statistics region's exit: its arrays at what the pipeline leaves, every other buffer as entered. -/
def W2 (c : Dev nD) : Valuation τ sig (Elt F) :=
  Pipeline.withArrays spec0 c (W1 m ρ c) fun w => (dat0 (Vin0 m ρ) c).arrAt w cfg0.N
theorem W2_arr (c : Dev nD) (w : Fin cfg0.W) :
    W2 m ρ c (Proc.devRef .tc (Pipeline.arrRef spec0 w)) = (dat0 (Vin0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Vout0 : (c : Dev nD) → (b : Ref sig .tc) → Buf (Elt F) ((c : Thread nD τ).loc b) := fun c b => W2 m ρ c b
theorem hF0 (c : Dev nD) (w : Fin cfg0.W) : (dat0 (Vin0 m ρ) c).arrAt w cfg0.N = Vout0 m ρ c (Pipeline.arrRef spec0 w) :=
  (W2_arr m ρ c w).symm
theorem hrest0 (c : Dev nD) : ∀ b, b ∉ Finset.univ.image (Pipeline.arrRef spec0) → Vout0 m ρ c b = Vin0 m ρ c b :=
  fun b hb => W2_of_ne m ρ c b fun w e => hb (Finset.mem_image.mpr ⟨w, Finset.mem_univ _, e⟩)

/-- After the second stretch of host operations: the main region's entry. -/
abbrev W3 : Dev nD → Valuation τ sig (Elt F) := fun c => StableHlo.after hostOps1 (W2 m ρ c)
abbrev Vin1 : (c : Dev nD) → (b : Ref sig .tc) → Buf (Elt F) ((c : Thread nD τ).loc b) := fun c b => W3 m ρ c b
/-- At the main region's exit. -/
def W4 (c : Dev nD) : Valuation τ sig (Elt F) :=
  Pipeline.withArrays spec1 c (W3 m ρ c) fun w => (dat1 (Vin1 m ρ) c).arrAt w cfg1.N
theorem W4_arr (c : Dev nD) (w : Fin cfg1.W) :
    W4 m ρ c (Proc.devRef .tc (Pipeline.arrRef spec1 w)) = (dat1 (Vin1 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Vout1 : (c : Dev nD) → (b : Ref sig .tc) → Buf (Elt F) ((c : Thread nD τ).loc b) := fun c b => W4 m ρ c b
theorem hF1 (c : Dev nD) (w : Fin cfg1.W) : (dat1 (Vin1 m ρ) c).arrAt w cfg1.N = Vout1 m ρ c (Pipeline.arrRef spec1 w) :=
  (W4_arr m ρ c w).symm
theorem hrest1 (c : Dev nD) : ∀ b, b ∉ Finset.univ.image (Pipeline.arrRef spec1) → Vout1 m ρ c b = Vin1 m ρ c b :=
  fun b hb => W4_of_ne m ρ c b fun w e => hb (Finset.mem_image.mpr ⟨w, Finset.mem_univ _, e⟩)

/-! ## The arguments end as launched

No host operation writes an argument; a region reads it through an input window or does not touch it. -/

/-- No operation of the first stretch writes `b`. -/
local macro "not_written0" : tactic => `(tactic| (
  refine List.forall_iff_forall_mem.mp ?_
  simp only [hostOps0, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)))
local macro "not_written1" : tactic => `(tactic| (
  refine List.forall_iff_forall_mem.mp ?_
  simp only [hostOps1, List.Forall, StableHlo.nullary_writes, StableHlo.unary_writes, StableHlo.binary_writes,
    StableHlo.ternary_writes, StableHlo.quaternary_writes, StableHlo.reshape_writes, StableHlo.binaryIndexed_writes,
    StableHlo.unaryIndexed_writes, StableHlo.nary_writes, Finset.mem_singleton]
  repeat' apply And.intro
  all_goals exact StableHlo.devRef_ne_of_ne (by decide)))

theorem W1_main_arg0 (c : Dev nD) : W1 m ρ c (Proc.devRef .tc main_arg0) = m ((c : Thread nD τ).loc main_arg0) :=
  (StableHlo.after_of_forall_not_mem (b := Proc.devRef .tc main_arg0) _ _ (by not_written0)).trans rfl
theorem W1_main_arg1 (c : Dev nD) : W1 m ρ c (Proc.devRef .tc main_arg1) = m ((c : Thread nD τ).loc main_arg1) :=
  (StableHlo.after_of_forall_not_mem (b := Proc.devRef .tc main_arg1) _ _ (by not_written0)).trans rfl
theorem W1_main_arg2 (c : Dev nD) : W1 m ρ c (Proc.devRef .tc main_arg2) = m ((c : Thread nD τ).loc main_arg2) :=
  (StableHlo.after_of_forall_not_mem (b := Proc.devRef .tc main_arg2) _ _ (by not_written0)).trans rfl
theorem W1_main_arg3 (c : Dev nD) : W1 m ρ c (Proc.devRef .tc main_arg3) = m ((c : Thread nD τ).loc main_arg3) :=
  (StableHlo.after_of_forall_not_mem (b := Proc.devRef .tc main_arg3) _ _ (by not_written0)).trans rfl
theorem W1_main_arg4 (c : Dev nD) : W1 m ρ c (Proc.devRef .tc main_arg4) = m ((c : Thread nD τ).loc main_arg4) :=
  (StableHlo.after_of_forall_not_mem (b := Proc.devRef .tc main_arg4) _ _ (by not_written0)).trans rfl
theorem W1_main_arg5 (c : Dev nD) : W1 m ρ c (Proc.devRef .tc main_arg5) = m ((c : Thread nD τ).loc main_arg5) :=
  (StableHlo.after_of_forall_not_mem (b := Proc.devRef .tc main_arg5) _ _ (by not_written0)).trans rfl

/-- An input window's array leaves the statistics region as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (Vin0 m ρ) c).arrAt_in w hw _).trans (A_eq0 (Vin0 m ρ) c w))
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (Vin1 m ρ) c).arrAt_in w hw _).trans (A_eq1 (Vin1 m ρ) c w))

theorem W2_main_arg0 (c : Dev nD) : W2 m ρ c (Proc.devRef .tc main_arg0) = m ((c : Thread nD τ).loc main_arg0) :=
  (W2_in m ρ c 0 rfl).trans (W1_main_arg0 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_in m ρ c 2 rfl).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)

theorem W3_main_arg0 (c : Dev nD) : W3 m ρ c (Proc.devRef .tc main_arg0) = m ((c : Thread nD τ).loc main_arg0) :=
  (StableHlo.after_of_forall_not_mem (b := Proc.devRef .tc main_arg0) _ _ (by not_written1)).trans (W2_main_arg0 m ρ c)
theorem W3_main_arg1 (c : Dev nD) : W3 m ρ c (Proc.devRef .tc main_arg1) = m ((c : Thread nD τ).loc main_arg1) :=
  (StableHlo.after_of_forall_not_mem (b := Proc.devRef .tc main_arg1) _ _ (by not_written1)).trans (W2_main_arg1 m ρ c)
theorem W3_main_arg2 (c : Dev nD) : W3 m ρ c (Proc.devRef .tc main_arg2) = m ((c : Thread nD τ).loc main_arg2) :=
  (StableHlo.after_of_forall_not_mem (b := Proc.devRef .tc main_arg2) _ _ (by not_written1)).trans (W2_main_arg2 m ρ c)
theorem W3_main_arg3 (c : Dev nD) : W3 m ρ c (Proc.devRef .tc main_arg3) = m ((c : Thread nD τ).loc main_arg3) :=
  (StableHlo.after_of_forall_not_mem (b := Proc.devRef .tc main_arg3) _ _ (by not_written1)).trans (W2_main_arg3 m ρ c)
theorem W3_main_arg4 (c : Dev nD) : W3 m ρ c (Proc.devRef .tc main_arg4) = m ((c : Thread nD τ).loc main_arg4) :=
  (StableHlo.after_of_forall_not_mem (b := Proc.devRef .tc main_arg4) _ _ (by not_written1)).trans (W2_main_arg4 m ρ c)
theorem W3_main_arg5 (c : Dev nD) : W3 m ρ c (Proc.devRef .tc main_arg5) = m ((c : Thread nD τ).loc main_arg5) :=
  (StableHlo.after_of_forall_not_mem (b := Proc.devRef .tc main_arg5) _ _ (by not_written1)).trans (W2_main_arg5 m ρ c)

theorem W4_main_arg0 (c : Dev nD) : W4 m ρ c (Proc.devRef .tc main_arg0) = m ((c : Thread nD τ).loc main_arg0) :=
  (W4_in m ρ c 0 rfl).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_in m ρ c 2 rfl).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  (W4_of_ne m ρ c main_arg5 (by decide)).trans (W3_main_arg5 m ρ c)

/-- The auxiliary array is an input window of the statistics region and no operation of the second stretch writes it:
    the main region finds it as the first stretch left it. -/
theorem W2_main_v19 (c : Dev nD) : W2 m ρ c (Proc.devRef .tc main_v19) = W1 m ρ c (Proc.devRef .tc main_v19) :=
  W2_in m ρ c 1 rfl
theorem W3_main_v19 (c : Dev nD) : W3 m ρ c (Proc.devRef .tc main_v19) = W1 m ρ c (Proc.devRef .tc main_v19) :=
  (StableHlo.after_of_forall_not_mem (b := Proc.devRef .tc main_v19) _ _ (by not_written1)).trans (W2_main_v19 m ρ c)

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (Vin0 m ρ) c
  | ⟨1, _⟩ => fun c => dat1 (Vin1 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state "every unscoped buffer at the boundary's contents, the generator register at some
    state, nothing owed": its arrays are split out of the unscoped buffers at entry and put back, at what the pipeline
    leaves, at exit; the generator register goes into the pipeline's invariant and comes back. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vin0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vin0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vin0 m ρ c) (Vout0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer at the boundary's contents, the generator register at some
    state, nothing owed": its arrays are split out of the unscoped buffers at entry and put back, at what the pipeline
    leaves, at exit; the generator register goes into the pipeline's invariant and comes back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vin1 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vin1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vin1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vin1 m ρ c) (Vout1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub ops0_fresh (W0 m ρ)),
    .region (reg0 m ρ),
    .host (hseg hostOps1 hostOps1_sub ops1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing
    faulting, and in every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Hand

end
-- ==== Proof.KI.MainBlocks.lean ====
/- REGION 1's blocks read off the arrays as the region finds them (`V`), and its output array after the region read
   from the blocks. Windows 0 and 1 move with the grid point on axis 0 (block `t` is rows `80 t … 80 t + 79`);
   windows 2, 3, 4 have a constant index map and their block is the whole array; output window 5's block `t` is rows
   `80 t … 80 t + 79` across all 64 columns, written back at every point, and the 250 blocks tile the array. -/
import proofs.«147546_j60705067762261_2_alg».proof.Proof.KI.MainRegion
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

section Blocks1
variable (V : (c : Dev nD) → (b : Ref sig .tc) → Buf (Elt F) ((c : Thread nD τ).loc b))

/-- The printed index maps, decided over the grid: windows 0, 1 and 5 are at block `t` on axis 0 and block 0 on the
    others; windows 2, 3, 4 at block 0 throughout. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0
    ∧ win1_5.index t (0 : Fin 2) = t.val ∧ win1_5.index t (1 : Fin 2) = 0 :=
  (by decide +kernel : ∀ t : Fin grid1.N, _)

/-- A row of block `t` is a row of the array. -/
theorem row_lt1 (t : Fin cfg1.N) (r : Fin 80) : 80 * t.val + r.val < 20000 := by
  have := t.isLt; have : cfg1.N = 250 := N_1; omega

/-- Window 0's block at point `t` is rows `80 t … 80 t + 79` of its array. -/
theorem blk1_0 (c : Dev nD) (t : Fin cfg1.N) (r : Fin 80) (p : Fin 100) (j : Fin 4) :
    (iblk1 V c 0 t : Vec F S80x100x4 .f32) (ix3 r p j) = (V c main_arg0 : S20000x100x4.Idx → Elt F .f32) (ix3 (⟨80 * t.val + r.val, row_lt1 t r⟩ : Fin 20000) p j) := by
  obtain ⟨e0, e1, e2, -⟩ := idx_facts1 t
  unfold iblk1
  rw [View.read_apply]
  show V c main_arg0 _ = V c main_arg0 _
  congr 1
  funext a; apply Fin.ext
  match a with
  | ⟨0, _⟩ => show win1_0.index t (0 : Fin 3) * 80 + 1 * r.val = 80 * t.val + r.val; omega
  | ⟨1, _⟩ => show win1_0.index t (1 : Fin 3) * 100 + 1 * p.val = p.val; omega
  | ⟨2, _⟩ => show win1_0.index t (2 : Fin 3) * 4 + 1 * j.val = j.val; omega

/-- Window 1's block at point `t` is rows `80 t … 80 t + 79` of its array. -/
theorem blk1_1 (c : Dev nD) (t : Fin cfg1.N) (r : Fin 80) (j : Fin 8) :
    (iblk1 V c 1 t : Vec F S80x8 .f32) (ix2 r j) = (V c main_v19 : S20000x8.Idx → Elt F .f32) (ix2 (⟨80 * t.val + r.val, row_lt1 t r⟩ : Fin 20000) j) := by
  obtain ⟨-, -, -, e0, e1, -⟩ := idx_facts1 t
  unfold iblk1
  rw [View.read_apply]
  show V c main_v19 _ = V c main_v19 _
  congr 1
  funext a; apply Fin.ext
  match a with
  | ⟨0, _⟩ => show win1_1.index t (0 : Fin 2) * 80 + 1 * r.val = 80 * t.val + r.val; omega
  | ⟨1, _⟩ => show win1_1.index t (1 : Fin 2) * 8 + 1 * j.val = j.val; omega

/-- Window 2's block at any point is its whole array. -/
theorem blk1_2 (c : Dev nD) (t : Fin cfg1.N) (i : S9x64.Idx) : (iblk1 V c 2 t : Vec F S9x64 .f32) i = (V c main_arg3 : S9x64.Idx → Elt F .f32) i := by
  obtain ⟨-, -, -, -, -, e0, e1, -⟩ := idx_facts1 t
  unfold iblk1
  rw [View.read_apply]
  show V c main_arg3 _ = V c main_arg3 _
  congr 1
  funext a; apply Fin.ext
  match a with
  | ⟨0, _⟩ => show win1_2.index t (0 : Fin 2) * 9 + 1 * (i 0).val = (i 0).val; omega
  | ⟨1, _⟩ => show win1_2.index t (1 : Fin 2) * 64 + 1 * (i 1).val = (i 1).val; omega

/-- Window 3's block at any point is its whole array. -/
theorem blk1_3 (c : Dev nD) (t : Fin cfg1.N) (i : S64.Idx) : (iblk1 V c 3 t : Vec F S64 .f32) i = (V c main_v32 : S64.Idx → Elt F .f32) i := by
  obtain ⟨-, -, -, -, -, -, -, e0, -⟩ := idx_facts1 t
  unfold iblk1
  rw [View.read_apply]
  show V c main_v32 _ = V c main_v32 _
  congr 1
  funext a; apply Fin.ext
  match a with
  | ⟨0, _⟩ => show win1_3.index t (0 : Fin 1) * 64 + 1 * (i 0).val = (i 0).val; omega

/-- Window 4's block at any point is its whole array. -/
theorem blk1_4 (c : Dev nD) (t : Fin cfg1.N) (i : S64.Idx) : (iblk1 V c 4 t : Vec F S64 .f32) i = (V c main_v34 : S64.Idx → Elt F .f32) i := by
  obtain ⟨-, -, -, -, -, -, -, -, e0, -⟩ := idx_facts1 t
  unfold iblk1
  rw [View.read_apply]
  show V c main_v34 _ = V c main_v34 _
  congr 1
  funext a; apply Fin.ext
  match a with
  | ⟨0, _⟩ => show win1_4.index t (0 : Fin 1) * 64 + 1 * (i 0).val = (i 0).val; omega

/-! ## The output array after the region -/

/-- An index of the array is in point `t`'s block of window 5 iff each coordinate is in the block's range on its axis. -/
theorem mem_blk1_5 (t : Fin cfg1.N) (i : S20000x64.Idx) :
    i ∈ ((cfg1.win 5).blk t).view.set ↔ ∀ a : Fin 2, win1_5.index t a * S80x64.size a ≤ (i a).val ∧ (i a).val < win1_5.index t a * S80x64.size a + S80x64.size a := by
  show i ∈ ((View.whole main_v35).slice (win1_5.rect t)).set ↔ _
  rw [View.set_slice_whole, Rect.mem_set_unit]
  exact Iff.rfl

/-- What point `t` writes back is block `t` of `G`, for any `G` that the body's result at `t` is rows
    `80 t … 80 t + 79` of. -/
theorem flushed1_5_eq (c : Dev nD) (G : S20000x64.Idx → Elt F .f32)
    (hG : ∀ (t : Fin cfg1.N) (r : Fin 80) (u : Fin 64),
      ((dat1 V c).after 5 t : Vec F S80x64 .f32) (ix2 r u) = G (ix2 (⟨80 * t.val + r.val, row_lt1 t r⟩ : Fin 20000) u))
    (t : Fin cfg1.N) : (dat1 V c).flushed 5 t = ((cfg1.win 5).blk t).view.read (Elt F) G := by
  show (cfg1.win 5).cut (grid1.coords t) ((dat1 V c).after 5 t) = _
  obtain ⟨-, -, -, -, -, -, -, -, -, e0, e1⟩ := idx_facts1 t
  refine funext fun (y : S80x64.Idx) => ?_
  show ((dat1 V c).after 5 t : Vec F S80x64 .f32) y = G (((cfg1.win 5).blk t).view.emb y)
  obtain ⟨r, u, rfl⟩ : ∃ (r : Fin 80) (u : Fin 64), y = ix2 r u := ⟨y 0, y 1, eq_ix2 y⟩
  rw [hG t r u]
  congr 1
  funext a; apply Fin.ext
  match a with
  | ⟨0, _⟩ => show 80 * t.val + r.val = win1_5.index t (0 : Fin 2) * 80 + 1 * r.val; omega
  | ⟨1, _⟩ => show u.val = win1_5.index t (1 : Fin 2) * 64 + 1 * u.val; omega

/-- The 250 blocks tile the array: row `k` is in the block of point `k / 80`. -/
theorem tiles1_5 (i : S20000x64.Idx) : ∃ t : Fin cfg1.N, (cfg1.win 5).flush t = true ∧ i ∈ ((cfg1.win 5).blk t).view.set := by
  have hN : cfg1.N = 250 := N_1
  have h0 : (i 0).val < 20000 := (i 0).isLt
  have h1 : (i 1).val < 64 := (i 1).isLt
  refine ⟨⟨(i 0).val / 80, by rw [hN]; omega⟩, flush1_5 _, ?_⟩
  rw [mem_blk1_5]
  obtain ⟨-, -, -, -, -, -, -, -, -, e0, e1⟩ := idx_facts1 ⟨(i 0).val / 80, by rw [hN]; omega⟩
  intro a
  match a with
  | ⟨0, _⟩ =>
    show win1_5.index ⟨(i 0).val / 80, _⟩ (0 : Fin 2) * 80 ≤ (i 0).val ∧ (i 0).val < win1_5.index ⟨(i 0).val / 80, _⟩ (0 : Fin 2) * 80 + 80
    rw [e0]; show (i 0).val / 80 * 80 ≤ (i 0).val ∧ (i 0).val < (i 0).val / 80 * 80 + 80; omega
  | ⟨1, _⟩ =>
    show win1_5.index ⟨(i 0).val / 80, _⟩ (1 : Fin 2) * 64 ≤ (i 1).val ∧ (i 1).val < win1_5.index ⟨(i 0).val / 80, _⟩ (1 : Fin 2) * 64 + 64
    rw [e1]; omega

/-- The output array after the region is `G`, for any `G` that the body's result at every point `t` is rows
    `80 t … 80 t + 79` of. -/
theorem final1_5 (c : Dev nD) (G : S20000x64.Idx → Elt F .f32)
    (hG : ∀ (t : Fin cfg1.N) (r : Fin 80) (u : Fin 64),
      ((dat1 V c).after 5 t : Vec F S80x64 .f32) (ix2 r u) = G (ix2 (⟨80 * t.val + r.val, row_lt1 t r⟩ : Fin 20000) u)) :
    (dat1 V c).arrAt 5 cfg1.N = G :=
  (dat1 V c).arrAt_eq_of_cover 5 G (fun t _ => flushed1_5_eq V c G hG t) tiles1_5

end Blocks1
end Cert.KernelIdeal.Hand
end
-- ==== Proof.Spec.lean ====
/-
  The mathematics both programs compute, index by index, on the extended reals.

  A pillar k holds 100 points of 4 features; its count n(k) is an integer, its centre (cx, cy) comes from
  two integer grid coordinates. Each point is augmented to 9 channels: the 4 features, the first three
  minus the pillar's mean (sum over the 100 points divided by the count), and the first two minus the
  centre; a point whose number is not below the count is masked to zero. The 9 channels go through a
  9-by-64 linear map, the result x(k,p,u) is normalised per output channel u by statistics taken over all
  2,000,000 points, scaled and shifted, clamped at zero, and the maximum over the pillar's points is kept.

  The two programs differ in how they normalise: one from the sums of x and of x squared (the variance as
  E[x^2] - E[x]^2, clamped at zero, and the affine map folded into one scale and one shift), the other from
  the centred squares (the variance as E[(x - E x)^2], the affine map applied step by step). 'outK' and
  'outR' below are the two results; they agree when x is real, which it is for real inputs whatever the
  counts are: a count that is not positive masks every point of its pillar, and zero times anything is zero.
-/
import Idealize.ShloMosaic.PureOps.Ideal

noncomputable section

namespace Cert.PFN

open Idealize.ShloMosaic

/-- The argument arrays, by coordinates. -/
structure In where
  feat : Fin 20000 → Fin 100 → Fin 4 → EReal
  nv : Fin 20000 → BitVec 32
  co : Fin 20000 → Fin 4 → BitVec 32
  w : Fin 9 → Fin 64 → EReal
  gamma : Fin 64 → EReal
  beta : Fin 64 → EReal

/-- The float literals of the two programs (the same words on both sides). -/
def cVX : EReal := Ideal.ofBits .f32 0x3E4CCCCD#32
def cXO : EReal := Ideal.ofBits .f32 0x3DCCCCCD#32
def cYO : EReal := Ideal.ofBits .f32 0xC21F999A#32
def cN : EReal := Ideal.ofBits .f32 0x49F42400#32
def cEps : EReal := Ideal.ofBits .f32 0x3A83126F#32
def cZero : EReal := Ideal.ofBits .f32 0x00000000#32
def cNegInf : EReal := Ideal.ofBits .f32 0xFF800000#32

variable (I : In)

/-- The pillar's count as a number. -/
def pn (k : Fin 20000) : EReal := (((I.nv k).toInt : ℝ) : EReal)
/-- The pillar's centre. -/
def cx (k : Fin 20000) : EReal := (((I.co k 3).toInt : ℝ) : EReal) * cVX + cXO
def cy (k : Fin 20000) : EReal := (((I.co k 2).toInt : ℝ) : EReal) * cVX + cYO
/-- The mean of feature j < 3 over the pillar's 100 points, by the count. -/
def mean (k : Fin 20000) (j : Fin 3) : EReal := Ideal.div (∑ p : Fin 100, I.feat k p (j.castLE (by decide))) (pn I k)
/-- One where the point's number is below the count, else zero. -/
def msk (k : Fin 20000) (p : Fin 100) : EReal := if ((p.val : ℕ) : ℤ) < (I.nv k).toInt then 1 else 0
/-- The nine augmented channels of a point, before masking. -/
def aug (k : Fin 20000) (p : Fin 100) (c : Fin 9) : EReal :=
  if h4 : c.val < 4 then I.feat k p ⟨c.val, h4⟩
  else if h7 : c.val < 7 then I.feat k p ⟨c.val - 4, by omega⟩ - mean I k ⟨c.val - 4, by omega⟩
  else if c.val = 7 then I.feat k p 0 - cx I k
  else I.feat k p 1 - cy I k
/-- The masked channels. -/
def fe (k : Fin 20000) (p : Fin 100) (c : Fin 9) : EReal := aug I k p c * msk I k p
/-- The linear layer's output. -/
def x (k : Fin 20000) (p : Fin 100) (u : Fin 64) : EReal := ∑ c : Fin 9, fe I k p c * I.w c u
/-- The sum of x, and of its square, over all points. -/
def S1 (u : Fin 64) : EReal := ∑ k : Fin 20000, ∑ p : Fin 100, x I k p u
def S2 (u : Fin 64) : EReal := ∑ k : Fin 20000, ∑ p : Fin 100, x I k p u * x I k p u
/-- The mean of x (both programs: the sum by the literal 2,000,000). -/
def mu (u : Fin 64) : EReal := Ideal.div (S1 I u) cN

/-! One program: variance from the two sums, one scale and one shift. -/
def varK (u : Fin 64) : EReal := max (Ideal.div (S2 I u) cN - mu I u * mu I u) cZero
def scaleK (u : Fin 64) : EReal := I.gamma u * Ideal.rsqrt (varK I u + cEps)
def shiftK (u : Fin 64) : EReal := I.beta u - mu I u * scaleK I u
def yK (k : Fin 20000) (p : Fin 100) (u : Fin 64) : EReal := max (x I k p u * scaleK I u + shiftK I u) cZero
def outK (k : Fin 20000) (u : Fin 64) : EReal := Finset.univ.fold max cNegInf (fun p : Fin 100 => yK I k p u)

/-! The other: variance from the centred squares, the affine map step by step. -/
def varR (u : Fin 64) : EReal := Ideal.div (∑ k : Fin 20000, ∑ p : Fin 100, (x I k p u - mu I u) * (x I k p u - mu I u)) cN
def yR (k : Fin 20000) (p : Fin 100) (u : Fin 64) : EReal :=
  max ((x I k p u - mu I u) * Ideal.rsqrt (varR I u + cEps) * I.gamma u + I.beta u) cZero
def outR (k : Fin 20000) (u : Fin 64) : EReal := Finset.univ.fold max cNegInf (fun p : Fin 100 => yR I k p u)

/-- Every float input is a real number. -/
structure In.Real : Prop where
  feat : ∀ k p j, ∃ r : ℝ, I.feat k p j = (r : EReal)
  w : ∀ c u, ∃ r : ℝ, I.w c u = (r : EReal)
  gamma : ∀ u, ∃ r : ℝ, I.gamma u = (r : EReal)
  beta : ∀ u, ∃ r : ℝ, I.beta u = (r : EReal)

end Cert.PFN

end
-- ==== Proof.SpecIn.lean ====
/-
  The argument arrays of either program, read by coordinates, as the input record of the specification.
-/
import proofs.«147546_j60705067762261_2_alg».proof.Proof.Spec
import Idealize.ShloMosaic.Lib.ValueIdx

noncomputable section

namespace Cert.PFN

open Idealize.ShloMosaic Idealize.ShloMosaic.ValueIdx

/-- The six argument arrays (features, counts, grid coordinates, weights, scale, shift) as coordinates. -/
def mkIn (a0 : (⟨3, ![20000, 100, 4]⟩ : Shape).Idx → EReal) (a1 : (⟨1, ![20000]⟩ : Shape).Idx → BitVec 32)
    (a2 : (⟨2, ![20000, 4]⟩ : Shape).Idx → BitVec 32) (a3 : (⟨2, ![9, 64]⟩ : Shape).Idx → EReal)
    (a4 a5 : (⟨1, ![64]⟩ : Shape).Idx → EReal) : In where
  feat k p j := a0 (ix3 k p j)
  nv k := a1 (ix1 k)
  co k j := a2 (ix2 k j)
  w c u := a3 (ix2 c u)
  gamma u := a4 (ix1 u)
  beta u := a5 (ix1 u)

end Cert.PFN

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.LibColSum.lean ====
/-
  The sum of an `[a, b]` array along its FIRST axis, read at an index, on the extended reals: at entry `c` it is the
  sum over `r` of the array's entries `(r, c)`, the sum of column `c`.
-/
import Idealize.ShloMosaic.Lib.Pipeline.Value
import Idealize.ShloMosaic.Lib.ValueIdx
import Idealize.ShloMosaic.PureOps.Ideal.Laws

noncomputable section

namespace Cert.LibColSum

open Idealize.ShloMosaic Idealize.ShloMosaic.ValueIdx

/-- A sum along the FIRST axis of an `[a, b]` array, read at entry `c`: the sum over `r` of the entries `(r, c)`, the
    sum of column `c`.  The index the reduction puts back at the summed axis, beside the kept coordinate `c`, is
    `(r, c)`. -/
theorem colSum_apply {a b : ℕ} (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = FKind.add.neutral .f32 hφ) (c : Fin b) :
    multiReduction .add [(0 : Fin 2)] ⟨1, ![b]⟩ src 0x00000000#32 h hφ hacc (ix1 c) = ∑ r : Fin a, src (ix2 r c) :=
  (Ideal.multiReduction_add_single src 0x00000000#32 h hφ hacc (ix1 c)).trans
    (Finset.sum_congr rfl fun r _ => congrArg src (funext fun x => Fin.ext (by
      match x with
      | ⟨0, _⟩ => rfl
      | ⟨1, _⟩ => rfl)))

end Cert.LibColSum

end
-- ==== Proof.KPay.lean ====
/-
  The kernel's payloads read at an index, in terms of the specification.

  A block of 80 pillars starting at pillar k0: the features block [80,100,4], the aux block [80,8] whose columns
  0, 1, 2 hold the count, the centre's x and the centre's y, and the weights [9,64]. The statistics kernel's matmul
  output at row r·100 + p and column u is the specification's x(k0 + r, p, u); its column sums are the sums of x and
  of x squared over the block; the main kernel's output at (r, u) is the maximum over the pillar's points of the
  affine map of x clamped at zero.

  First the layout operations read at an index written by coordinates (trailing unit axes, row-major flattening,
  broadcasts, slices of the last axis, sums and maxima over the middle axis, the matmul), then the pieces of the
  augmented features one by one, then the payloads.
-/
import proofs.«147546_j60705067762261_2_alg».proof.Proof.Gen.KernelIdeal.Skeleton
import proofs.«147546_j60705067762261_2_alg».proof.Proof.SpecIn
import proofs.«147546_j60705067762261_2_alg».proof.Proof.LibConcat2
import proofs.«147546_j60705067762261_2_alg».proof.Proof.LibColSum
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.KPay

open Cert.KernelIdeal Cert.KernelIdeal.Gen Cert.PFN Idealize.ShloMosaic Idealize.ShloMosaic.ValueIdx

/-! ## Layout operations at an index written by coordinates -/

section Layout
variable {α : Type}

/-- An `[a, 1]` array cast to `[a, 1, 1]` reads the operand's row. -/
theorem shapeCast_a1_a11_apply {a : ℕ} (x : (⟨2, ![a, 1]⟩ : Shape).Idx → α)
    (h : (⟨2, ![a, 1]⟩ : Shape).ShapeCasts ⟨3, ![a, 1, 1]⟩) (i : Fin a) (u v w : Fin 1) :
    shapeCast ⟨3, ![a, 1, 1]⟩ x h (ix3 i u v) = x (ix2 i w) :=
  shapeCast_apply x h _ _ (by
    rw [Shape.rowMajor_val_two, Shape.rowMajor_val_three]
    show i.val * 1 + w.val = (i.val * 1 + u.val) * 1 + v.val
    omega)

/-- An `[a, c]` array cast to `[a, 1, c]` reads the operand at the two outer coordinates. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_two, Shape.rowMajor_val_three]
    show i.val * c + j.val = (i.val * 1 + u.val) * c + j.val
    rw [hu, Nat.mul_one, Nat.add_zero])

/-- An `[a, b]` array cast to `[a, b, 1]` reads the operand at the two outer coordinates. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (w : Fin 1) :
    shapeCast ⟨3, ![a, b, 1]⟩ x h (ix3 i j w) = x (ix2 i j) :=
  shapeCast_apply x h _ _ (by
    have hw : w.val = 0 := by omega
    rw [Shape.rowMajor_val_two, Shape.rowMajor_val_three]
    show i.val * b + j.val = (i.val * b + j.val) * 1 + w.val
    rw [hw, Nat.mul_one, Nat.add_zero])

/-- An `[a, b, n]` array flattened to `[a·b, n]` reads, at row `i·b + j`, the operand at `(i, j)`. -/
theorem shapeCast_flat_apply {a b m n : ℕ} (x : (⟨3, ![a, b, n]⟩ : Shape).Idx → α)
    (h : (⟨3, ![a, b, n]⟩ : Shape).ShapeCasts ⟨2, ![m, n]⟩) (i : Fin a) (j : Fin b) (c : Fin n) (q : Fin m)
    (hq : q.val = i.val * b + j.val) :
    shapeCast ⟨2, ![m, n]⟩ x h (ix2 q c) = x (ix3 i j c) :=
  shapeCast_apply x h _ _ (by
    rw [Shape.rowMajor_val_three, Shape.rowMajor_val_two]
    show (i.val * b + j.val) * n + c.val = q.val * n + c.val
    rw [hq])

/-- An `[a·b, n]` array viewed as `[a, b, n]` reads, at `(i, j)`, the operand's row `i·b + j`. -/
theorem shapeCast_unflat_apply {a b m n : ℕ} (x : (⟨2, ![m, n]⟩ : Shape).Idx → α)
    (h : (⟨2, ![m, n]⟩ : Shape).ShapeCasts ⟨3, ![a, b, n]⟩) (i : Fin a) (j : Fin b) (c : Fin n) (q : Fin m)
    (hq : q.val = i.val * b + j.val) :
    shapeCast ⟨3, ![a, b, n]⟩ x h (ix3 i j c) = x (ix2 q c) :=
  shapeCast_apply x h _ _ (by
    rw [Shape.rowMajor_val_three, Shape.rowMajor_val_two]
    show q.val * n + c.val = (i.val * b + j.val) * n + c.val
    rw [hq])

/-- A broadcast between rank-3 shapes reads the operand at the coordinates the caller names: zero on a unit axis of
    the operand, the result's coordinate elsewhere. -/
theorem broadcastTo3_apply {a0 a1 a2 b0 b1 b2 : ℕ} (x : (⟨3, ![a0, a1, a2]⟩ : Shape).Idx → α)
    (h : (⟨3, ![a0, a1, a2]⟩ : Shape).Broadcasts ⟨3, ![b0, b1, b2]⟩) (j0 : Fin b0) (j1 : Fin b1) (j2 : Fin b2)
    (k0 : Fin a0) (k1 : Fin a1) (k2 : Fin a2) (h0 : k0.val = if a0 = 1 then 0 else j0.val)
    (h1 : k1.val = if a1 = 1 then 0 else j1.val) (h2 : k2.val = if a2 = 1 then 0 else j2.val) :
    broadcastTo ⟨3, ![b0, b1, b2]⟩ x h (ix3 j0 j1 j2) = x (ix3 k0 k1 k2) :=
  broadcastTo_apply x h (ix3 j0 j1 j2) (ix3 k0 k1 k2) (fun ax => by
    match ax with
    | ⟨0, _⟩ => exact h0
    | ⟨1, _⟩ => exact h1
    | ⟨2, _⟩ => exact h2)

/-- The same at rank 2. -/
theorem broadcastTo2_apply {a0 a1 b0 b1 : ℕ} (x : (⟨2, ![a0, a1]⟩ : Shape).Idx → α)
    (h : (⟨2, ![a0, a1]⟩ : Shape).Broadcasts ⟨2, ![b0, b1]⟩) (j0 : Fin b0) (j1 : Fin b1)
    (k0 : Fin a0) (k1 : Fin a1) (h0 : k0.val = if a0 = 1 then 0 else j0.val)
    (h1 : k1.val = if a1 = 1 then 0 else j1.val) :
    broadcastTo ⟨2, ![b0, b1]⟩ x h (ix2 j0 j1) = x (ix2 k0 k1) :=
  broadcastTo_apply x h (ix2 j0 j1) (ix2 k0 k1) (fun ax => by
    match ax with
    | ⟨0, _⟩ => exact h0
    | ⟨1, _⟩ => exact h1)

/-- A rank-3 array cut along its last axis from `o` reads, at `(a, b, j)`, the source at `(a, b, k)` with `k = o + j`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- A concatenation of THREE arrays along the last axis at rank 3: a column of the first piece. -/
theorem concat3_first {n0 n1 m1 m2 m3 m : ℕ} (x : (⟨3, ![n0, n1, m1]⟩ : Shape).Idx → α)
    (y : (⟨3, ![n0, n1, m2]⟩ : Shape).Idx → α) (z : (⟨3, ![n0, n1, m3]⟩ : Shape).Idx → α)
    (h : Shape.Concatenates [(⟨3, ![n0, n1, m1]⟩ : Shape), ⟨3, ![n0, n1, m2]⟩, ⟨3, ![n0, n1, m3]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩, ⟨⟨3, ![n0, n1, m3]⟩, z⟩] h (ix3 b i e)
      = x (ix3 b i ⟨e.val, he⟩) :=
  concatenate_apply_piece (t := ⟨3, ![n0, n1, m]⟩) (2 : Fin 3)
    [⟨⟨3, ![n0, n1, m1]⟩, x⟩, ⟨⟨3, ![n0, n1, m2]⟩, y⟩, ⟨⟨3, ![n0, n1, m3]⟩, z⟩] h (ix3 b i e) 0 (by simp) _ x rfl rfl 0 rfl
    (ix3 b i ⟨e.val, he⟩)
    (fun c hc => by
      match c with
      | ⟨0, _⟩ => rfl
      | ⟨1, _⟩ => rfl
      | ⟨2, _⟩ => exact absurd rfl hc)
    (Nat.zero_add _)

/-- … a column of the second piece. -/
theorem concat3_second {n0 n1 m1 m2 m3 m : ℕ} (x : (⟨3, ![n0, n1, m1]⟩ : Shape).Idx → α)
    (y : (⟨3, ![n0, n1, m2]⟩ : Shape).Idx → α) (z : (⟨3, ![n0, n1, m3]⟩ : Shape).Idx → α)
    (h : Shape.Concatenates [(⟨3, ![n0, n1, m1]⟩ : Shape), ⟨3, ![n0, n1, m2]⟩, ⟨3, ![n0, n1, m3]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩, ⟨⟨3, ![n0, n1, m3]⟩, z⟩] h (ix3 b i e)
      = y (ix3 b i ⟨e.val - m1, he'⟩) :=
  concatenate_apply_piece (t := ⟨3, ![n0, n1, m]⟩) (2 : Fin 3)
    [⟨⟨3, ![n0, n1, m1]⟩, x⟩, ⟨⟨3, ![n0, n1, m2]⟩, y⟩, ⟨⟨3, ![n0, n1, m3]⟩, z⟩] h (ix3 b i e) 1 (by simp) _ y rfl rfl m1 (by simp)
    (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- … a column of the third piece. -/
theorem concat3_third {n0 n1 m1 m2 m3 m : ℕ} (x : (⟨3, ![n0, n1, m1]⟩ : Shape).Idx → α)
    (y : (⟨3, ![n0, n1, m2]⟩ : Shape).Idx → α) (z : (⟨3, ![n0, n1, m3]⟩ : Shape).Idx → α)
    (h : Shape.Concatenates [(⟨3, ![n0, n1, m1]⟩ : Shape), ⟨3, ![n0, n1, m2]⟩, ⟨3, ![n0, n1, m3]⟩] ⟨3, ![n0, n1, m]⟩ 2)
    (b : Fin n0) (i : Fin n1) (e : Fin m) (he : m1 + m2 ≤ e.val) (he' : e.val - (m1 + m2) < m3) :
    concatenate ⟨3, ![n0, n1, m]⟩ 2 [⟨⟨3, ![n0, n1, m1]⟩, x⟩, ⟨⟨3, ![n0, n1, m2]⟩, y⟩, ⟨⟨3, ![n0, n1, m3]⟩, z⟩] h (ix3 b i e)
      = z (ix3 b i ⟨e.val - (m1 + m2), he'⟩) :=
  concatenate_apply_piece (t := ⟨3, ![n0, n1, m]⟩) (2 : Fin 3)
    [⟨⟨3, ![n0, n1, m1]⟩, x⟩, ⟨⟨3, ![n0, n1, m2]⟩, y⟩, ⟨⟨3, ![n0, n1, m3]⟩, z⟩] h (ix3 b i e) 2 (by simp) _ z rfl rfl (m1 + m2) (by simp)
    (ix3 b i ⟨e.val - (m1 + m2), he'⟩)
    (fun c hc => by
      match c with
      | ⟨0, _⟩ => rfl
      | ⟨1, _⟩ => rfl
      | ⟨2, _⟩ => exact absurd rfl hc)
    (by show m1 + m2 + (e.val - (m1 + m2)) = e.val; omega)

end Layout

/-! ## Reductions and the matmul at an index -/

/-- A sum along the MIDDLE axis of an `[a, b, c]` array, read at `(r, j)`: the sum over `p` of the entries `(r, p, j)`. -/
theorem midSum_apply {a b c : ℕ} (src : FVec Ideal ⟨3, ![a, b, c]⟩ .f32)
    (h : (⟨3, ![a, b, c]⟩ : Shape).Reduces [(1 : Fin 3)] ⟨2, ![a, c]⟩) (hφ : FKind.Formats .f32)
    (hacc : (0x00000000#32 : BitVec 32) = FKind.add.neutral .f32 hφ) (r : Fin a) (j : Fin c) :
    multiReduction .add [(1 : Fin 3)] ⟨2, ![a, c]⟩ src 0x00000000#32 h hφ hacc (ix2 r j) = ∑ p : Fin b, src (ix3 r p j) :=
  (Ideal.multiReduction_add_single src 0x00000000#32 h hφ hacc (ix2 r j)).trans
    (Finset.sum_congr rfl fun p _ => congrArg src (funext fun x => Fin.ext (by
      match x with
      | ⟨0, _⟩ => rfl
      | ⟨1, _⟩ => rfl
      | ⟨2, _⟩ => rfl)))

/-- A maximum along the MIDDLE axis of an `[a, b, c]` array, read at `(r, j)`: the fold of `max` over `p` of the entries
    `(r, p, j)`, from what the accumulator's pattern denotes. -/
theorem midMax_apply {a b c : ℕ} (src : FVec Ideal ⟨3, ![a, b, c]⟩ .f32) (acc : BitVec 32)
    (h : (⟨3, ![a, b, c]⟩ : Shape).Reduces [(1 : Fin 3)] ⟨2, ![a, c]⟩) (hφ : FKind.Formats .f32)
    (hacc : acc = FKind.maximumf.neutral .f32 hφ) (r : Fin a) (j : Fin c) :
    multiReduction .maximumf [(1 : Fin 3)] ⟨2, ![a, c]⟩ src acc h hφ hacc (ix2 r j)
      = (Finset.univ : Finset (Fin b)).fold max (Ideal.ofBits .f32 acc) (fun p => src (ix3 r p j)) :=
  (Ideal.multiReduction_maximumf_single src acc h hφ hacc (ix2 r j)).trans
    (Finset.fold_congr fun p _ => congrArg src (funext fun x => Fin.ext (by
      match x with
      | ⟨0, _⟩ => rfl
      | ⟨1, _⟩ => rfl
      | ⟨2, _⟩ => rfl)))

/-- A sum over the 8000 rows, taken pillar by pillar: row `r·100 + p` is point `p` of pillar `r`. -/
theorem sum_rows (f : Fin 8000 → EReal) :
    ∑ q, f q = ∑ r : Fin 80, ∑ p : Fin 100, f ⟨r.val * 100 + p.val, by omega⟩ := by
  rw [← Equiv.sum_comp ((finProdFinEquiv (m := 80) (n := 100)).trans (finCongr (by norm_num))) f, Fintype.sum_prod_type]
  refine Finset.sum_congr rfl fun r _ => Finset.sum_congr rfl fun p _ => congrArg f (Fin.ext ?_)
  show p.val + 100 * r.val = r.val * 100 + p.val
  omega

/-! ## The pieces of the augmented features, as the kernel computes them on a block -/

section Pieces
variable (x0 : Vec Ideal S80x100x4 .f32) (x1 : Vec Ideal S80x8 .f32) (x2 : Vec Ideal S9x64 .f32)

/-- Column 0 of the aux block: the counts. -/
def cntV : FVec Ideal S80x1 .f32 :=
  extractStridedSlice S80x1 ![0, 0] (shapeCast S80x8 x1 shapeCasts_S80x8_S80x8) slices_S80x8_o0_0_S80x1
/-- Column 1: the centres' first coordinate. -/
def cxV : FVec Ideal S80x1 .f32 :=
  extractStridedSlice S80x1 ![0, 1] (shapeCast S80x8 x1 shapeCasts_S80x8_S80x8) slices_S80x8_o0_1_S80x1
/-- Column 2: the centres' second coordinate. -/
def cyV : FVec Ideal S80x1 .f32 :=
  extractStridedSlice S80x1 ![0, 2] (shapeCast S80x8 x1 shapeCasts_S80x8_S80x8) slices_S80x8_o0_2_S80x1

/-- The first three features. -/
def f3V : FVec Ideal S80x100x3 .f32 :=
  extractStridedSlice S80x100x3 ![0, 0, 0] x0 slices_S80x100x4_o0_0_0_S80x100x3

/-- The pillars' means: the sum over the points by the count. -/
def meanV : FVec Ideal S80x1x3 .f32 :=
  divf (shapeCast S80x1x3 (multiReduction .add [1] S80x3 (f3V x0) 0x00000000#32 reduces_S80x100x3_S80x3 (.inl rfl) rfl)
      shapeCasts_S80x3_S80x1x3)
    (broadcastTo S80x1x3 (shapeCast S80x1x1 (cntV x1) shapeCasts_S80x1_S80x1x1) broadcasts_S80x1x1_S80x1x3)

/-- The first three features less the mean. -/
def cluV : FVec Ideal S80x100x3 .f32 :=
  subf (f3V x0) (broadcastTo S80x100x3 (meanV x0 x1) broadcasts_S80x1x3_S80x100x3)

/-- The first feature less the centre's first coordinate. -/
def c0V : FVec Ideal S80x100x1 .f32 :=
  subf (extractStridedSlice S80x100x1 ![0, 0, 0] x0 slices_S80x100x4_o0_0_0_S80x100x1)
    (broadcastTo S80x100x1 (shapeCast S80x1x1 (cxV x1) shapeCasts_S80x1_S80x1x1) broadcasts_S80x1x1_S80x100x1)
/-- The second feature less the centre's second coordinate. -/
def c1V : FVec Ideal S80x100x1 .f32 :=
  subf (extractStridedSlice S80x100x1 ![0, 0, 1] x0 slices_S80x100x4_o0_0_1_S80x100x1)
    (broadcastTo S80x100x1 (shapeCast S80x1x1 (cyV x1) shapeCasts_S80x1_S80x1x1) broadcasts_S80x1x1_S80x100x1)
/-- The two of them side by side. -/
def ctrV : FVec Ideal S80x100x2 .f32 :=
  concatenate S80x100x2 2 [⟨S80x100x1, c0V x0 x1⟩, ⟨S80x100x1, c1V x0 x1⟩] concatenates_S80x100x1_S80x100x1_S80x100x2_d2

/-- The mask: one where the point's number is below the count. -/
def mskV : FVec Ideal S80x100x1 .f32 :=
  shapeCast S80x100x1
    (sitofp .f32 (extui 32 (cmpf .olt (sitofp .f32 (iota .tc S80x100 32 [1] iota_S80x100_d1_w32) : FVec Ideal S80x100 .f32)
      (broadcastTo S80x100 (cntV x1) broadcasts_S80x1_S80x100)) natLt_1_32) : FVec Ideal S80x100 .f32)
    shapeCasts_S80x100_S80x100x1

/-- The nine channels. -/
def augV : FVec Ideal S80x100x9 .f32 :=
  concatenate S80x100x9 2 [⟨S80x100x4, x0⟩, ⟨S80x100x3, cluV x0 x1⟩, ⟨S80x100x2, ctrV x0 x1⟩]
    concatenates_S80x100x4_S80x100x3_S80x100x2_S80x100x9_d2

/-- The masked channels. -/
def feV : FVec Ideal S80x100x9 .f32 :=
  mulf (augV x0 x1) (broadcastTo S80x100x9 (mskV x1) broadcasts_S80x100x1_S80x100x9)

/-- The linear layer's output on the block, rows by points. -/
def xV : FVec Ideal S8000x64 .f32 :=
  matmul dot_S8000x9_S9x64_S8000x64_1_0_0_1_n_n none
    (truncf .bf16 (shapeCast S8000x9 (feV x0 x1) shapeCasts_S80x100x9_S8000x9) bitsLt_bf16_f32 : FVec Ideal S8000x9 .bf16)
    (truncf .bf16 x2 bitsLt_bf16_f32 : FVec Ideal S9x64 .bf16) (constant S8000x64 .f32 0x00000000#32)

/-- The statistics kernel's matmul payload is that output. -/
theorem k0_pay5_eq : k0_pay5 (F := Ideal) x0 x1 x2 = xV x0 x1 x2 := rfl

/-- The main kernel's scaled payload is that output times the scale broadcast over the rows. -/
theorem k1_pay2_eq (x3 : Vec Ideal S64 .f32) : k1_pay2 (F := Ideal) x0 x1 x2 x3
    = mulf (xV x0 x1 x2) (broadcastTo S8000x64 (shapeCast S1x64 (shapeCast S64 x3 shapeCasts_S64_S64) shapeCasts_S64_S1x64)
        broadcasts_S1x64_S8000x64) := rfl

end Pieces
/-! ## The pieces at an index, in terms of the specification: one row `r` of the block, holding pillar `k` -/

/-- The ideal conversion of a signed integer word. -/
theorem sitofp_ideal {w : ℕ} (b : BitVec w) : FloatOps.sitofp (F := Ideal) .f32 b = (((b.toInt : ℤ) : ℝ) : EReal) := rfl

/-- A point's number as a 32-bit word reads back, signed, as the number. -/
theorem toInt_ofNat_small (p : ℕ) (hp : p < 100) : (BitVec.ofNat 32 p).toInt = (p : ℤ) := by
  rw [BitVec.toInt_eq_toNat_of_lt (by rw [BitVec.toNat_ofNat]; omega), BitVec.toNat_ofNat]
  omega

section Row
variable (I : In) (x0 : Vec Ideal S80x100x4 .f32) (x1 : Vec Ideal S80x8 .f32) (x2 : Vec Ideal S9x64 .f32)
  (r : Fin 80) (k : Fin 20000)
  (hf : ∀ (p : Fin 100) (j : Fin 4), x0 (ix3 r p j) = I.feat k p j)
  (hn : x1 (ix2 r (0 : Fin 8)) = pn I k) (hx : x1 (ix2 r (1 : Fin 8)) = cx I k) (hy : x1 (ix2 r (2 : Fin 8)) = cy I k)
  (hw : ∀ (c : Fin 9) (u : Fin 64), x2 (ix2 c u) = I.w c u)

theorem cntV_apply (w : Fin 1) : cntV x1 (ix2 r w) = x1 (ix2 r (0 : Fin 8)) := by
  unfold cntV
  refine (slice2_axis1_apply 0 _ _ r w (0 : Fin 8) (by show 0 = 0 + w.val; omega)).trans ?_
  rw [shapeCast_self]

theorem cxV_apply (w : Fin 1) : cxV x1 (ix2 r w) = x1 (ix2 r (1 : Fin 8)) := by
  unfold cxV
  refine (slice2_axis1_apply 1 _ _ r w (1 : Fin 8) (by show 1 = 1 + w.val; omega)).trans ?_
  rw [shapeCast_self]

theorem cyV_apply (w : Fin 1) : cyV x1 (ix2 r w) = x1 (ix2 r (2 : Fin 8)) := by
  unfold cyV
  refine (slice2_axis1_apply 2 _ _ r w (2 : Fin 8) (by show 2 = 2 + w.val; omega)).trans ?_
  rw [shapeCast_self]

theorem f3V_apply (p : Fin 100) (j : Fin 3) : f3V x0 (ix3 r p j) = x0 (ix3 r p (j.castLE (by decide))) := by
  unfold f3V
  exact slice3_axis2_apply 0 _ _ r p j (j.castLE (by decide)) (by show j.val = 0 + j.val; omega)

include hf hn in
theorem meanV_apply (u : Fin 1) (j : Fin 3) : meanV x0 x1 (ix3 r u j) = mean I k j := by
  unfold meanV mean
  refine (divf_apply _ _ _).trans ?_
  refine congrArg₂ Ideal.div ?_ ?_
  · refine (shapeCast_ac_a1c_apply _ _ r u j).trans ?_
    refine (midSum_apply _ _ _ _ r j).trans ?_
    refine Finset.sum_congr rfl fun p _ => ?_
    exact (f3V_apply x0 r p j).trans (hf p _)
  · refine (broadcastTo3_apply _ _ r u j r (0 : Fin 1) (0 : Fin 1) (by simp) (by simp) (by simp)).trans ?_
    refine (shapeCast_a1_a11_apply _ _ r 0 0 0).trans ?_
    exact (cntV_apply x1 r 0).trans hn

include hf hn in
theorem cluV_apply (p : Fin 100) (j : Fin 3) :
    cluV x0 x1 (ix3 r p j) = I.feat k p (j.castLE (by decide)) - mean I k j := by
  unfold cluV
  refine (subf_apply _ _ _).trans ?_
  refine congrArg₂ (· - ·) ((f3V_apply x0 r p j).trans (hf p _)) ?_
  refine (broadcastTo3_apply _ _ r p j r (0 : Fin 1) j (by simp) (by simp) (by simp)).trans ?_
  exact meanV_apply I x0 x1 r k hf hn 0 j

include hf hx in
theorem c0V_apply (p : Fin 100) (w : Fin 1) : c0V x0 x1 (ix3 r p w) = I.feat k p 0 - cx I k := by
  unfold c0V
  refine (subf_apply _ _ _).trans ?_
  refine congrArg₂ (· - ·) ?_ ?_
  · exact (slice3_axis2_apply 0 _ _ r p w (0 : Fin 4) (by show 0 = 0 + w.val; omega)).trans (hf p 0)
  · refine (broadcastTo3_apply _ _ r p w r (0 : Fin 1) (0 : Fin 1) (by simp) (by simp) (by simp)).trans ?_
    refine (shapeCast_a1_a11_apply _ _ r 0 0 0).trans ?_
    exact (cxV_apply x1 r 0).trans hx

include hf hy in
theorem c1V_apply (p : Fin 100) (w : Fin 1) : c1V x0 x1 (ix3 r p w) = I.feat k p 1 - cy I k := by
  unfold c1V
  refine (subf_apply _ _ _).trans ?_
  refine congrArg₂ (· - ·) ?_ ?_
  · exact (slice3_axis2_apply 1 _ _ r p w (1 : Fin 4) (by show 1 = 1 + w.val; omega)).trans (hf p 1)
  · refine (broadcastTo3_apply _ _ r p w r (0 : Fin 1) (0 : Fin 1) (by simp) (by simp) (by simp)).trans ?_
    refine (shapeCast_a1_a11_apply _ _ r 0 0 0).trans ?_
    exact (cyV_apply x1 r 0).trans hy

include hf hx in
theorem ctrV_apply0 (p : Fin 100) (e : Fin 2) (he : e.val = 0) : ctrV x0 x1 (ix3 r p e) = I.feat k p 0 - cx I k := by
  unfold ctrV
  refine (Cert.LibConcat2.last3_left _ _ _ r p e (by omega)).trans ?_
  exact c0V_apply I x0 x1 r k hf hx p _

include hf hy in
theorem ctrV_apply1 (p : Fin 100) (e : Fin 2) (he : e.val = 1) : ctrV x0 x1 (ix3 r p e) = I.feat k p 1 - cy I k := by
  unfold ctrV
  refine (Cert.LibConcat2.last3_right _ _ _ r p e (by omega) (by omega)).trans ?_
  exact c1V_apply I x0 x1 r k hf hy p _

include hf hn hx hy in
theorem augV_apply (p : Fin 100) (c : Fin 9) : augV x0 x1 (ix3 r p c) = aug I k p c := by
  unfold augV aug
  split_ifs with h4 h7 h8
  · exact (concat3_first _ _ _ _ r p c h4).trans (hf p ⟨c.val, h4⟩)
  · refine (concat3_second _ _ _ _ r p c (by omega) (by omega)).trans ?_
    exact cluV_apply I x0 x1 r k hf hn p ⟨c.val - 4, by omega⟩
  · refine (concat3_third _ _ _ _ r p c (by omega) (by omega)).trans ?_
    exact ctrV_apply0 I x0 x1 r k hf hx p _ (by show c.val - (4 + 3) = 0; omega)
  · refine (concat3_third _ _ _ _ r p c (by omega) (by have := c.isLt; omega)).trans ?_
    exact ctrV_apply1 I x0 x1 r k hf hy p _ (by show c.val - (4 + 3) = 1; have := c.isLt; omega)

include hn in
theorem mskV_apply (p : Fin 100) (w : Fin 1) : mskV x1 (ix3 r p w) = msk I k p := by
  unfold mskV msk
  refine (shapeCast_ab_ab1_apply _ _ r p w).trans ?_
  have hc : broadcastTo S80x100 (cntV x1) broadcasts_S80x1_S80x100 (ix2 r p) = (((I.nv k).toInt : ℝ) : EReal) := by
    refine (broadcastTo2_apply _ _ r p r (0 : Fin 1) (by simp) (by simp)).trans ?_
    exact (cntV_apply x1 r 0).trans hn
  have hi : iota .tc S80x100 32 [1] iota_S80x100_d1_w32 (ix2 r p) = BitVec.ofNat 32 p.val :=
    iota_single_apply .tc S80x100 32 1 _ (ix2 r p)
  rw [sitofp_apply, extui_apply, cmpf_apply, sitofp_apply, hi, hc, sitofp_ideal, sitofp_ideal, Ideal.cmpf_def,
    toInt_ofNat_small _ p.isLt]
  by_cases hlt : ((p.val : ℕ) : ℤ) < (I.nv k).toInt
  · have h' : ((((p.val : ℕ) : ℤ) : ℝ) : EReal) < (((I.nv k).toInt : ℝ) : EReal) := by exact_mod_cast hlt
    have e : Ideal.cmp .olt ((((p.val : ℕ) : ℤ) : ℝ) : EReal) (((I.nv k).toInt : ℝ) : EReal) = 1#1 := by
      show BitVec.ofBool (decide (_ < _)) = 1#1
      rw [decide_eq_true h']; rfl
    have e2 : (BitVec.setWidth 32 1#1).toInt = 1 := by decide
    rw [if_pos hlt, e, e2]; simp
  · have h' : ¬ ((((p.val : ℕ) : ℤ) : ℝ) : EReal) < (((I.nv k).toInt : ℝ) : EReal) := by exact_mod_cast hlt
    have e : Ideal.cmp .olt ((((p.val : ℕ) : ℤ) : ℝ) : EReal) (((I.nv k).toInt : ℝ) : EReal) = 0#1 := by
      show BitVec.ofBool (decide (_ < _)) = 0#1
      rw [decide_eq_false h']; rfl
    have e2 : (BitVec.setWidth 32 0#1).toInt = 0 := by decide
    rw [if_neg hlt, e, e2]; simp

end Row
/-! ## The matmul at an index -/

/-- The matmul's operand indices at a result index and a contraction index, coordinate by coordinate. -/
theorem mm_lhs0 (i : S8000x64.Idx) (q : dot_S8000x9_S9x64_S8000x64_1_0_0_1_n_n.contr.Idx) : (dot_S8000x9_S9x64_S8000x64_1_0_0_1_n_n.lhsIdx i q 0).val = (i 0).val := by
  unfold DotDims.lhsIdx
  rw [dif_neg (show ¬(0 : Fin S8000x9.rank) ∈ dot_S8000x9_S9x64_S8000x64_1_0_0_1_n_n.lhsBatch by decide),
    dif_pos (show (0 : Fin S8000x9.rank) ∈ dot_S8000x9_S9x64_S8000x64_1_0_0_1_n_n.lhsNonContracting by decide)]
  rfl
theorem mm_lhs1 (i : S8000x64.Idx) (q : dot_S8000x9_S9x64_S8000x64_1_0_0_1_n_n.contr.Idx) : (dot_S8000x9_S9x64_S8000x64_1_0_0_1_n_n.lhsIdx i q 1).val = (q ⟨0, by decide⟩).val :=
  dot_S8000x9_S9x64_S8000x64_1_0_0_1_n_n.lhsIdx_val_of_single rfl i q
theorem mm_rhs0 (i : S8000x64.Idx) (q : dot_S8000x9_S9x64_S8000x64_1_0_0_1_n_n.contr.Idx) : (dot_S8000x9_S9x64_S8000x64_1_0_0_1_n_n.rhsIdx i q 0).val = (q ⟨0, by decide⟩).val :=
  dot_S8000x9_S9x64_S8000x64_1_0_0_1_n_n.rhsIdx_val_of_single rfl i q
theorem mm_rhs1 (i : S8000x64.Idx) (q : dot_S8000x9_S9x64_S8000x64_1_0_0_1_n_n.contr.Idx) : (dot_S8000x9_S9x64_S8000x64_1_0_0_1_n_n.rhsIdx i q 1).val = (i 1).val := by
  unfold DotDims.rhsIdx
  rw [dif_neg (show ¬(1 : Fin S9x64.rank) ∈ dot_S8000x9_S9x64_S8000x64_1_0_0_1_n_n.rhsBatch by decide),
    dif_pos (show (1 : Fin S9x64.rank) ∈ dot_S8000x9_S9x64_S8000x64_1_0_0_1_n_n.rhsNonContracting by decide)]
  rfl

/-- The block's matmul into the zero accumulator, read at row `q` and column `u`: the sum over the nine channels. -/
theorem mm_apply (lhs : FVec Ideal S8000x9 .bf16) (rhs : FVec Ideal S9x64 .bf16) (q : Fin 8000) (u : Fin 64) :
    matmul dot_S8000x9_S9x64_S8000x64_1_0_0_1_n_n none lhs rhs (constant S8000x64 .f32 0x00000000#32) (ix2 q u)
      = ∑ c : Fin 9, lhs (ix2 q c) * rhs (ix2 c u) := by
  simp only [matmul]
  rw [Ideal.matmul_constant_zero_apply, ← Equiv.sum_comp (contrEquiv1 dot_S8000x9_S9x64_S8000x64_1_0_0_1_n_n 9 rfl rfl).symm]
  refine Finset.sum_congr rfl fun c _ => ?_
  have hk := contrEquiv1_symm_val dot_S8000x9_S9x64_S8000x64_1_0_0_1_n_n 9 rfl rfl c
  have el : dot_S8000x9_S9x64_S8000x64_1_0_0_1_n_n.lhsIdx (ix2 q u) ((contrEquiv1 dot_S8000x9_S9x64_S8000x64_1_0_0_1_n_n 9 rfl rfl).symm c) = ix2 q c :=
    funext fun a => Fin.ext (by
      match a with
      | ⟨0, _⟩ => exact mm_lhs0 _ _
      | ⟨1, _⟩ => exact (mm_lhs1 _ _).trans hk)
  have er : dot_S8000x9_S9x64_S8000x64_1_0_0_1_n_n.rhsIdx (ix2 q u) ((contrEquiv1 dot_S8000x9_S9x64_S8000x64_1_0_0_1_n_n 9 rfl rfl).symm c) = ix2 c u :=
    funext fun a => Fin.ext (by
      match a with
      | ⟨0, _⟩ => exact (mm_rhs0 _ _).trans hk
      | ⟨1, _⟩ => exact mm_rhs1 _ _)
  rw [el, er]

/-! ## The payloads -/

section Block
variable (I : In) (k0 : ℕ) (hk0 : k0 + 80 ≤ 20000) (x0 : Vec Ideal S80x100x4 .f32) (x1 : Vec Ideal S80x8 .f32)
  (x2 : Vec Ideal S9x64 .f32)
  (h0 : ∀ (r : Fin 80) (p : Fin 100) (j : Fin 4), x0 (ix3 r p j) = I.feat ⟨k0 + r.val, by omega⟩ p j)
  (h1n : ∀ r : Fin 80, x1 (ix2 r (0 : Fin 8)) = pn I ⟨k0 + r.val, by omega⟩)
  (h1x : ∀ r : Fin 80, x1 (ix2 r (1 : Fin 8)) = cx I ⟨k0 + r.val, by omega⟩)
  (h1y : ∀ r : Fin 80, x1 (ix2 r (2 : Fin 8)) = cy I ⟨k0 + r.val, by omega⟩)
  (h2 : ∀ (c : Fin 9) (u : Fin 64), x2 (ix2 c u) = I.w c u)
include h0 h1n h1x h1y h2

/-- The block's linear layer output at row `r·100 + p` is the specification's x at pillar `k0 + r`, point `p`. -/
theorem xV_apply (r : Fin 80) (p : Fin 100) (u : Fin 64) :
    xV x0 x1 x2 (ix2 (⟨r.val * 100 + p.val, by omega⟩ : Fin 8000) u) = x I ⟨k0 + r.val, by omega⟩ p u := by
  unfold xV x
  refine (mm_apply _ _ _ u).trans ?_
  refine Finset.sum_congr rfl fun c _ => ?_
  refine congrArg₂ (· * ·) ((truncf_apply (ψ := FTy.bf16) (φ := FTy.f32) _ bitsLt_bf16_f32 _).trans ?_)
    ((truncf_apply (ψ := FTy.bf16) (φ := FTy.f32) _ bitsLt_bf16_f32 _).trans (h2 c u))
  refine (shapeCast_flat_apply _ _ r p c _ rfl).trans ?_
  unfold feV fe
  refine (mulf_apply _ _ _).trans ?_
  refine congrArg₂ (· * ·) (augV_apply I x0 x1 r _ (h0 r) (h1n r) (h1x r) (h1y r) p c) ?_
  refine (broadcastTo3_apply _ _ r p c r p (0 : Fin 1) (by simp) (by simp) (by simp)).trans ?_
  exact mskV_apply I x1 r _ (h1n r) p 0

theorem pay5_apply (r : Fin 80) (p : Fin 100) (u : Fin 64) :
    k0_pay5 (F := Ideal) x0 x1 x2 (ix2 (⟨r.val * 100 + p.val, by omega⟩ : Fin 8000) u) = x I ⟨k0 + r.val, by omega⟩ p u := by
  rw [k0_pay5_eq]
  exact xV_apply I k0 hk0 x0 x1 x2 h0 h1n h1x h1y h2 r p u

theorem pay7_apply (u : Fin 64) :
    k0_pay7 (F := Ideal) x0 x1 x2 (ix1 u) = ∑ r : Fin 80, ∑ p : Fin 100, x I ⟨k0 + r.val, by omega⟩ p u := by
  unfold k0_pay7
  rw [k0_pay5_eq]
  refine (Cert.LibColSum.colSum_apply _ _ _ _ u).trans ?_
  rw [sum_rows]
  exact Finset.sum_congr rfl fun r _ => Finset.sum_congr rfl fun p _ => xV_apply I k0 hk0 x0 x1 x2 h0 h1n h1x h1y h2 r p u

theorem pay2_apply (v47 : Vec Ideal S64 .f32) (u : Fin 64) :
    k0_pay2 (F := Ideal) (k0_pay5 x0 x1 x2) v47 (ix1 u)
      = v47 (ix1 u) + ∑ r : Fin 80, ∑ p : Fin 100, x I ⟨k0 + r.val, by omega⟩ p u * x I ⟨k0 + r.val, by omega⟩ p u := by
  unfold k0_pay2
  rw [k0_pay5_eq]
  refine (addf_apply _ _ _).trans ?_
  refine congrArg₂ (· + ·) (by rw [shapeCast_self]) ?_
  refine (Cert.LibColSum.colSum_apply _ _ _ _ u).trans ?_
  rw [sum_rows]
  refine Finset.sum_congr rfl fun r _ => Finset.sum_congr rfl fun p _ => ?_
  refine (mulf_apply _ _ _).trans ?_
  rw [xV_apply I k0 hk0 x0 x1 x2 h0 h1n h1x h1y h2 r p u]

theorem out1_apply (x3 x4 : Vec Ideal S64 .f32) (r : Fin 80) (u : Fin 64) :
    k1_pay1 (F := Ideal) (k1_pay2 x0 x1 x2 x3) (k1_pay3 x4) (ix2 r u)
      = Finset.univ.fold max cNegInf
          (fun p : Fin 100 => max (x I ⟨k0 + r.val, by omega⟩ p u * x3 (ix1 u) + x4 (ix1 u)) cZero) := by
  unfold k1_pay1
  rw [k1_pay2_eq]
  refine (midMax_apply _ _ _ _ _ r u).trans ?_
  unfold cNegInf
  refine Finset.fold_congr fun p _ => ?_
  refine (shapeCast_unflat_apply _ _ r p u (⟨r.val * 100 + p.val, by omega⟩ : Fin 8000) rfl).trans ?_
  refine (maximumf_apply _ _ _).trans ?_
  unfold cZero
  refine congrArg₂ max ?_ rfl
  refine (addf_apply _ _ _).trans ?_
  refine congrArg₂ (· + ·) ?_ ?_
  · refine (mulf_apply _ _ _).trans ?_
    refine congrArg₂ (· * ·) (xV_apply I k0 hk0 x0 x1 x2 h0 h1n h1x h1y h2 r p u) ?_
    refine (broadcastTo_1b_ab_apply _ _ _ u).trans ?_
    refine (shapeCast_a_1a_apply _ _ 0 u).trans ?_
    rw [shapeCast_self]
  · unfold k1_pay3
    refine (broadcastTo_1b_ab_apply _ _ _ u).trans ?_
    refine (shapeCast_a_1a_apply _ _ 0 u).trans ?_
    rw [shapeCast_self]

end Block

theorem pay1_apply (a b : FVec Ideal S64 .f32) (u : Fin 64) : k0_pay1 (F := Ideal) a b (ix1 u) = a (ix1 u) + b (ix1 u) := rfl

theorem pay6_eq (v : Vec Ideal S64 .f32) : k0_pay6 (F := Ideal) v = v := by
  unfold k0_pay6
  exact shapeCast_self _ _

theorem pay3_apply (u : Fin 64) : k0_pay3 (F := Ideal) (ix1 u) = 0 := by
  unfold k0_pay3
  exact Ideal.ofBits_zero_f32

theorem pay4_apply (u : Fin 64) : k0_pay4 (F := Ideal) (ix1 u) = 0 := by
  unfold k0_pay4
  exact Ideal.ofBits_zero_f32

end Cert.KernelIdeal.KPay

end
-- ==== Proof.KVal.HostAux.lean ====
/-
  The auxiliary array the host builds before the first region: per pillar its count as a number, and the
  two centre coordinates, in columns 0, 1, 2 of a [20000, 8] array (the other five columns are zero).
-/
import proofs.«147546_j60705067762261_2_alg».proof.Proof.Gen.KernelIdeal.Launch
import proofs.«147546_j60705067762261_2_alg».proof.Proof.SpecIn
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.KVal

open Cert.KernelIdeal Cert.KernelIdeal.Gen Cert.PFN
open Idealize.ShloMosaic Idealize.ShloMosaic.TcCoe Idealize.SL.Sem Idealize.ShloMosaic.StableHlo Idealize.ShloMosaic.ValueIdx

variable (X : Valuation τ sig (Elt Ideal))

/-- The joined array is the concatenation of the four arrays the same stretch wrote before it. -/
theorem v19_eq :
    (after hostOps0 X (Proc.devRef .tc main_v19) : S20000x8.Idx → EReal)
      = concatenate S20000x8 1 [⟨S20000x1, after hostOps0 X (Proc.devRef .tc main_v16)⟩,
          ⟨S20000x1, after hostOps0 X (Proc.devRef .tc main_v17)⟩,
          ⟨S20000x1, after hostOps0 X (Proc.devRef .tc main_v18)⟩,
          ⟨S20000x5, after hostOps0 X (Proc.devRef .tc main_v15)⟩]
          concatenates_S20000x1_S20000x1_S20000x1_S20000x5_S20000x8_d1 := by
  simp only [hostOps0, after_cons, after_nil]
  rw [nary_result]
  rw [nary_result_ne (h := by decide), nary_result_ne (h := by decide), nary_result_ne (h := by decide), nary_result_ne (h := by decide)]
  rfl

/-- A scalar literal broadcast to a vector reads as the literal. -/
theorem bcast_const (w : BitVec 32) (k : Fin 20000) :
    broadcastInDim S20000 ![] bcast_S_S20000 (constant (F := Ideal) S_ .f32 w) (ix1 k) = Ideal.ofBits .f32 w :=
  (broadcastInDim_apply ![] bcast_S_S20000 (constant (F := Ideal) S_ .f32 w) (ix1 k) ix0 (fun a => a.elim0)).trans rfl

/-- A vector viewed as a one-column matrix reads row k at k. -/
theorem col_apply {α : Type} (x : S20000.Idx → α) (k : Fin 20000) :
    broadcastInDim S20000x1 ![0] bcast_S20000_S20000x1_0 x (ix2 k (0 : Fin 1)) = x (ix1 k) :=
  broadcastInDim_apply ![0] bcast_S20000_S20000x1_0 x (ix2 k (0 : Fin 1)) (ix1 k) (fun a => by
    match a with
    | ⟨0, _⟩ =>
      show k.val = if (20000 : ℕ) = 1 then 0 else k.val
      rw [if_neg (by decide)])

/-- Column j of the integer coordinate array, as a vector. -/
theorem coord_col (x : S20000x4.Idx → BitVec 32) (j : Fin 4) (off : Fin 2 → Nat) (hoff : off = ![0, j.val])
    (h : S20000x4.Slices off S20000x1) (k : Fin 20000) :
    shapeCast S20000 (extractStridedSlice S20000x1 off x h) shapeCasts_S20000x1_S20000 (ix1 k) = x (ix2 k j) := by
  subst hoff
  refine (shapeCast_apply _ shapeCasts_S20000x1_S20000 (ix1 k) (ix2 k (0 : Fin 1)) ?_).trans ?_
  · rw [Shape.rowMajor_val_two, Shape.rowMajor_val_one]; show k.val * 1 + 0 = k.val; omega
  · refine extractStridedSlice_apply _ x h (ix2 k (0 : Fin 1)) (ix2 k j) (fun a => ?_)
    match a with
    | ⟨0, _⟩ => show k.val = 0 + k.val; omega
    | ⟨1, _⟩ => show j.val = j.val + 0; omega

theorem v16_eq : (after hostOps0 X (Proc.devRef .tc main_v16) : S20000x1.Idx → EReal)
    = (broadcastInDim S20000x1 ![0] bcast_S20000_S20000x1_0 (sitofp .f32 (X (Proc.devRef .tc main_arg1) : IVec S20000 32) : FVec Ideal S20000 .f32) : S20000x1.Idx → EReal) := by
  dsimp only [hostOps0]
  after_results

theorem v17_eq : (after hostOps0 X (Proc.devRef .tc main_v17) : S20000x1.Idx → EReal)
    = (broadcastInDim S20000x1 ![0] bcast_S20000_S20000x1_0
        (addf (mulf (sitofp .f32 (shapeCast S20000 (extractStridedSlice S20000x1 ![0, 3] (X (Proc.devRef .tc main_arg2) : IVec S20000x4 32) slices_S20000x4_S20000x1_0_3) shapeCasts_S20000x1_S20000 : IVec S20000 32) : FVec Ideal S20000 .f32)
            (broadcastInDim S20000 ![] bcast_S_S20000 (constant (F := Ideal) S_ .f32 0x3E4CCCCD#32)))
          (broadcastInDim S20000 ![] bcast_S_S20000 (constant (F := Ideal) S_ .f32 0x3DCCCCCD#32))) : S20000x1.Idx → EReal) := by
  dsimp only [hostOps0]
  after_results
  rfl

theorem v18_eq : (after hostOps0 X (Proc.devRef .tc main_v18) : S20000x1.Idx → EReal)
    = (broadcastInDim S20000x1 ![0] bcast_S20000_S20000x1_0
        (addf (mulf (sitofp .f32 (shapeCast S20000 (extractStridedSlice S20000x1 ![0, 2] (X (Proc.devRef .tc main_arg2) : IVec S20000x4 32) slices_S20000x4_S20000x1_0_2) shapeCasts_S20000x1_S20000 : IVec S20000 32) : FVec Ideal S20000 .f32)
            (broadcastInDim S20000 ![] bcast_S_S20000 (constant (F := Ideal) S_ .f32 0x3E4CCCCD#32)))
          (broadcastInDim S20000 ![] bcast_S_S20000 (constant (F := Ideal) S_ .f32 0xC21F999A#32))) : S20000x1.Idx → EReal) := by
  dsimp only [hostOps0]
  after_results
  rfl

/-- The joined array at column q < 3 is piece q at column 0. -/
theorem v19_col (q : Fin 3) (k : Fin 20000) (P : S20000x1.Idx → EReal)
    (hP : [(⟨S20000x1, after hostOps0 X (Proc.devRef .tc main_v16)⟩ : (s : Shape) × (s.Idx → EReal)),
          ⟨S20000x1, after hostOps0 X (Proc.devRef .tc main_v17)⟩,
          ⟨S20000x1, after hostOps0 X (Proc.devRef .tc main_v18)⟩,
          ⟨S20000x5, after hostOps0 X (Proc.devRef .tc main_v15)⟩][q.val]'(by have := q.isLt; simp; omega) = ⟨S20000x1, P⟩) :
    (after hostOps0 X (Proc.devRef .tc main_v19) : S20000x8.Idx → EReal) (ix2 k (⟨q.val, by omega⟩ : Fin 8)) = P (ix2 k (0 : Fin 1)) := by
  rw [v19_eq]
  refine concatenate_apply_piece (1 : Fin 2) _ _ (ix2 k (⟨q.val, by omega⟩ : Fin 8)) q.val (by have := q.isLt; simp; omega) S20000x1 P hP rfl q.val ?_
    (ix2 k (0 : Fin 1)) (fun b hb => ?_) ?_
  · match q with
    | ⟨0, _⟩ => rfl
    | ⟨1, _⟩ => rfl
    | ⟨2, _⟩ => rfl
  · match b with
    | ⟨0, _⟩ => rfl
    | ⟨1, _⟩ => exact absurd rfl hb
  · show q.val + 0 = q.val; omega

/-- Column 0: the pillar's count as a number. -/
theorem aux_n (k : Fin 20000) :
    (after hostOps0 X (Proc.devRef .tc main_v19) : S20000x8.Idx → EReal) (ix2 k (0 : Fin 8))
      = ((((X (Proc.devRef .tc main_arg1) : S20000.Idx → BitVec 32) (ix1 k)).toInt : ℝ) : EReal) := by
  refine (v19_col X 0 k _ rfl).trans ?_
  rw [v16_eq, col_apply]
  rfl

/-- Column 1: the x centre, from the coordinate array's column 3. -/
theorem aux_x (k : Fin 20000) :
    (after hostOps0 X (Proc.devRef .tc main_v19) : S20000x8.Idx → EReal) (ix2 k (1 : Fin 8))
      = ((((X (Proc.devRef .tc main_arg2) : S20000x4.Idx → BitVec 32) (ix2 k (3 : Fin 4))).toInt : ℝ) : EReal) * cVX + cXO := by
  refine (v19_col X 1 k _ rfl).trans ?_
  rw [v17_eq, col_apply]
  show (((shapeCast S20000 (extractStridedSlice S20000x1 ![0, 3] (X (Proc.devRef .tc main_arg2)) slices_S20000x4_S20000x1_0_3) shapeCasts_S20000x1_S20000 (ix1 k)).toInt : ℝ) : EReal)
      * broadcastInDim S20000 ![] bcast_S_S20000 (constant (F := Ideal) S_ .f32 0x3E4CCCCD#32) (ix1 k)
      + broadcastInDim S20000 ![] bcast_S_S20000 (constant (F := Ideal) S_ .f32 0x3DCCCCCD#32) (ix1 k) = _
  rw [bcast_const, bcast_const,
    show shapeCast S20000 (extractStridedSlice S20000x1 ![0, 3] (X (Proc.devRef .tc main_arg2)) slices_S20000x4_S20000x1_0_3) shapeCasts_S20000x1_S20000 (ix1 k)
      = (X (Proc.devRef .tc main_arg2) : S20000x4.Idx → BitVec 32) (ix2 k (3 : Fin 4)) from coord_col _ (3 : Fin 4) _ rfl _ k]
  rfl

/-- Column 2: the y centre, from the coordinate array's column 2. -/
theorem aux_y (k : Fin 20000) :
    (after hostOps0 X (Proc.devRef .tc main_v19) : S20000x8.Idx → EReal) (ix2 k (2 : Fin 8))
      = ((((X (Proc.devRef .tc main_arg2) : S20000x4.Idx → BitVec 32) (ix2 k (2 : Fin 4))).toInt : ℝ) : EReal) * cVX + cYO := by
  refine (v19_col X 2 k _ rfl).trans ?_
  rw [v18_eq, col_apply]
  show (((shapeCast S20000 (extractStridedSlice S20000x1 ![0, 2] (X (Proc.devRef .tc main_arg2)) slices_S20000x4_S20000x1_0_2) shapeCasts_S20000x1_S20000 (ix1 k)).toInt : ℝ) : EReal)
      * broadcastInDim S20000 ![] bcast_S_S20000 (constant (F := Ideal) S_ .f32 0x3E4CCCCD#32) (ix1 k)
      + broadcastInDim S20000 ![] bcast_S_S20000 (constant (F := Ideal) S_ .f32 0xC21F999A#32) (ix1 k) = _
  rw [bcast_const, bcast_const,
    show shapeCast S20000 (extractStridedSlice S20000x1 ![0, 2] (X (Proc.devRef .tc main_arg2)) slices_S20000x4_S20000x1_0_2) shapeCasts_S20000x1_S20000 (ix1 k)
      = (X (Proc.devRef .tc main_arg2) : S20000x4.Idx → BitVec 32) (ix2 k (2 : Fin 4)) from coord_col _ (2 : Fin 4) _ rfl _ k]
  rfl

end Cert.KernelIdeal.KVal

end
-- ==== Proof.KI.StatsBlocks.lean ====
/- REGION 0's input blocks read off the arrays as the region finds them (`V`), and its two output arrays after the
   region read from what the body leaves at the last point. Windows 0 and 1 move with the grid point on axis 0 (block
   `t` is rows `80 t … 80 t + 79`); window 2 has a constant index map and its block is the whole array; output windows
   3 and 4 have a constant index map, their block is the whole [64] array, written back at the last point only. -/
import proofs.«147546_j60705067762261_2_alg».proof.Proof.Gen.KernelIdeal.Launch
import proofs.«147546_j60705067762261_2_alg».proof.Proof.Gen.KernelIdeal.Skeleton
import proofs.«147546_j60705067762261_2_alg».proof.Proof.Gen.KernelIdeal.Points
import Idealize.ShloMosaic.Lib.Pipeline.FrameBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx

variable {F : FTy → Type} [FloatOps F]

section Blocks0
variable (V : (c : Dev nD) → (b : Ref sig .tc) → Buf (Elt F) ((c : Thread nD τ).loc b))

/-- The printed index maps, decided over the grid: windows 0 and 1 are at block `t` on axis 0 and block 0 on the
    others; windows 2, 3, 4 at block 0 throughout. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 1) = 0 :=
  (by decide +kernel : ∀ t : Fin grid0.N, _)

/-- A row of block `t` is a row of the array. -/
theorem row_lt0 (t : Fin cfg0.N) (r : Fin 80) : 80 * t.val + r.val < 20000 := by
  have := t.isLt; have : cfg0.N = 250 := N_0; omega

/-- The last point of the grid. -/
theorem last_lt0 : 249 < cfg0.N := by rw [show cfg0.N = 250 from N_0]; omega

/-- Window 0's block at point `t` is rows `80 t … 80 t + 79` of its array. -/
theorem blk0_0 (c : Dev nD) (t : Fin cfg0.N) (r : Fin 80) (p : Fin 100) (j : Fin 4) :
    (((cfg0.win 0).blk t).view.read (Elt F) (V c (Pipeline.arrRef spec0 0)) : Vec F S80x100x4 .f32) (ix3 r p j)
      = (V c main_arg0 : S20000x100x4.Idx → Elt F .f32) (ix3 (⟨80 * t.val + r.val, row_lt0 t r⟩ : Fin 20000) p j) := by
  obtain ⟨e0, e1, e2, -⟩ := idx_facts0 t
  rw [View.read_apply]
  show V c main_arg0 _ = V c main_arg0 _
  congr 1
  funext a; apply Fin.ext
  match a with
  | ⟨0, _⟩ => show win0_0.index t (0 : Fin 3) * 80 + 1 * r.val = 80 * t.val + r.val; omega
  | ⟨1, _⟩ => show win0_0.index t (1 : Fin 3) * 100 + 1 * p.val = p.val; omega
  | ⟨2, _⟩ => show win0_0.index t (2 : Fin 3) * 4 + 1 * j.val = j.val; omega

/-- Window 1's block at point `t` is rows `80 t … 80 t + 79` of its array. -/
theorem blk0_1 (c : Dev nD) (t : Fin cfg0.N) (r : Fin 80) (j : Fin 8) :
    (((cfg0.win 1).blk t).view.read (Elt F) (V c (Pipeline.arrRef spec0 1)) : Vec F S80x8 .f32) (ix2 r j)
      = (V c main_v19 : S20000x8.Idx → Elt F .f32) (ix2 (⟨80 * t.val + r.val, row_lt0 t r⟩ : Fin 20000) j) := by
  obtain ⟨-, -, -, e0, e1, -⟩ := idx_facts0 t
  rw [View.read_apply]
  show V c main_v19 _ = V c main_v19 _
  congr 1
  funext a; apply Fin.ext
  match a with
  | ⟨0, _⟩ => show win0_1.index t (0 : Fin 2) * 80 + 1 * r.val = 80 * t.val + r.val; omega
  | ⟨1, _⟩ => show win0_1.index t (1 : Fin 2) * 8 + 1 * j.val = j.val; omega

/-- Window 2's block at any point is its whole array. -/
theorem blk0_2 (c : Dev nD) (t : Fin cfg0.N) (i : S9x64.Idx) :
    (((cfg0.win 2).blk t).view.read (Elt F) (V c (Pipeline.arrRef spec0 2)) : Vec F S9x64 .f32) i = (V c main_arg3 : S9x64.Idx → Elt F .f32) i := by
  obtain ⟨-, -, -, -, -, e0, e1, -⟩ := idx_facts0 t
  rw [View.read_apply]
  show V c main_arg3 _ = V c main_arg3 _
  congr 1
  funext a; apply Fin.ext
  match a with
  | ⟨0, _⟩ => show win0_2.index t (0 : Fin 2) * 9 + 1 * (i 0).val = (i 0).val; omega
  | ⟨1, _⟩ => show win0_2.index t (1 : Fin 2) * 64 + 1 * (i 1).val = (i 1).val; omega

/-! ## The output arrays after the region -/

/-- An index of window 3's array is in point `t`'s block iff its coordinate is in the block's range. -/
theorem mem_blk0_3 (t : Fin cfg0.N) (i : S64.Idx) :
    i ∈ ((cfg0.win 3).blk t).view.set ↔ ∀ a : Fin 1, win0_3.index t a * S64.size a ≤ (i a).val ∧ (i a).val < win0_3.index t a * S64.size a + S64.size a := by
  show i ∈ ((View.whole main_v20_0).slice (win0_3.rect t)).set ↔ _
  rw [View.set_slice_whole, Rect.mem_set_unit]
  exact Iff.rfl

/-- The one write-back of window 3, at the last point, writes `G`, for any `G` that the body leaves there. -/
theorem flushed0_3_eq (c : Dev nD) (dat : Dat τ (Elt F) Unit ℕ (UR sig nD τ) ℕ cfg0 c) (G : S64.Idx → Elt F .f32)
    (hG : ∀ i : S64.Idx, (dat.after 3 ⟨249, last_lt0⟩ : Vec F S64 .f32) i = G i)
    (t : Fin cfg0.N) (hf : (cfg0.win 3).flush t = true) : dat.flushed 3 t = ((cfg0.win 3).blk t).view.read (Elt F) G := by
  have hN : cfg0.N = 250 := N_0
  have h1 : t.val = 249 := by have := (flush0_3 t).mp hf; have := t.isLt; omega
  obtain rfl : t = ⟨249, last_lt0⟩ := Fin.ext h1
  show (cfg0.win 3).cut (grid0.coords ⟨249, last_lt0⟩) (dat.after 3 ⟨249, last_lt0⟩) = _
  obtain ⟨-, -, -, -, -, -, -, e0, -⟩ := idx_facts0 ⟨249, last_lt0⟩
  refine funext fun (y : S64.Idx) => ?_
  show (dat.after 3 ⟨249, last_lt0⟩ : Vec F S64 .f32) y = G (((cfg0.win 3).blk ⟨249, last_lt0⟩).view.emb y)
  rw [hG y]
  congr 1
  funext a; apply Fin.ext
  match a with
  | ⟨0, _⟩ => show (y 0).val = win0_3.index ⟨249, last_lt0⟩ (0 : Fin 1) * 64 + 1 * (y 0).val; omega

/-- The last point's block of window 3 is the whole array. -/
theorem tiles0_3 (i : S64.Idx) : ∃ t : Fin cfg0.N, (cfg0.win 3).flush t = true ∧ i ∈ ((cfg0.win 3).blk t).view.set := by
  have h0 : (i 0).val < 64 := (i 0).isLt
  refine ⟨⟨249, last_lt0⟩, (flush0_3 _).mpr rfl, ?_⟩
  rw [mem_blk0_3]
  obtain ⟨-, -, -, -, -, -, -, e0, -⟩ := idx_facts0 ⟨249, last_lt0⟩
  intro a
  match a with
  | ⟨0, _⟩ =>
    show win0_3.index ⟨249, last_lt0⟩ (0 : Fin 1) * 64 ≤ (i 0).val ∧ (i 0).val < win0_3.index ⟨249, last_lt0⟩ (0 : Fin 1) * 64 + 64
    rw [e0]; omega

/-- Window 3's array after the region is `G`, for any proof data and any `G` that the body leaves at the last point. -/
theorem final0_3 (c : Dev nD) (dat : Dat τ (Elt F) Unit ℕ (UR sig nD τ) ℕ cfg0 c) (G : S64.Idx → Elt F .f32)
    (hG : ∀ i : S64.Idx, (dat.after 3 ⟨249, last_lt0⟩ : Vec F S64 .f32) i = G i) : dat.arrAt 3 cfg0.N = G :=
  dat.arrAt_eq_of_cover 3 G (flushed0_3_eq c dat G hG) tiles0_3

/-- An index of window 4's array is in point `t`'s block iff its coordinate is in the block's range. -/
theorem mem_blk0_4 (t : Fin cfg0.N) (i : S64.Idx) :
    i ∈ ((cfg0.win 4).blk t).view.set ↔ ∀ a : Fin 1, win0_4.index t a * S64.size a ≤ (i a).val ∧ (i a).val < win0_4.index t a * S64.size a + S64.size a := by
  show i ∈ ((View.whole main_v20_1).slice (win0_4.rect t)).set ↔ _
  rw [View.set_slice_whole, Rect.mem_set_unit]
  exact Iff.rfl

/-- The one write-back of window 4, at the last point, writes `G`, for any `G` that the body leaves there. -/
theorem flushed0_4_eq (c : Dev nD) (dat : Dat τ (Elt F) Unit ℕ (UR sig nD τ) ℕ cfg0 c) (G : S64.Idx → Elt F .f32)
    (hG : ∀ i : S64.Idx, (dat.after 4 ⟨249, last_lt0⟩ : Vec F S64 .f32) i = G i)
    (t : Fin cfg0.N) (hf : (cfg0.win 4).flush t = true) : dat.flushed 4 t = ((cfg0.win 4).blk t).view.read (Elt F) G := by
  have hN : cfg0.N = 250 := N_0
  have h1 : t.val = 249 := by have := (flush0_4 t).mp hf; have := t.isLt; omega
  obtain rfl : t = ⟨249, last_lt0⟩ := Fin.ext h1
  show (cfg0.win 4).cut (grid0.coords ⟨249, last_lt0⟩) (dat.after 4 ⟨249, last_lt0⟩) = _
  obtain ⟨-, -, -, -, -, -, -, -, e0⟩ := idx_facts0 ⟨249, last_lt0⟩
  refine funext fun (y : S64.Idx) => ?_
  show (dat.after 4 ⟨249, last_lt0⟩ : Vec F S64 .f32) y = G (((cfg0.win 4).blk ⟨249, last_lt0⟩).view.emb y)
  rw [hG y]
  congr 1
  funext a; apply Fin.ext
  match a with
  | ⟨0, _⟩ => show (y 0).val = win0_4.index ⟨249, last_lt0⟩ (0 : Fin 1) * 64 + 1 * (y 0).val; omega

/-- The last point's block of window 4 is the whole array. -/
theorem tiles0_4 (i : S64.Idx) : ∃ t : Fin cfg0.N, (cfg0.win 4).flush t = true ∧ i ∈ ((cfg0.win 4).blk t).view.set := by
  have h0 : (i 0).val < 64 := (i 0).isLt
  refine ⟨⟨249, last_lt0⟩, (flush0_4 _).mpr rfl, ?_⟩
  rw [mem_blk0_4]
  obtain ⟨-, -, -, -, -, -, -, -, e0⟩ := idx_facts0 ⟨249, last_lt0⟩
  intro a
  match a with
  | ⟨0, _⟩ =>
    show win0_4.index ⟨249, last_lt0⟩ (0 : Fin 1) * 64 ≤ (i 0).val ∧ (i 0).val < win0_4.index ⟨249, last_lt0⟩ (0 : Fin 1) * 64 + 64
    rw [e0]; omega

/-- Window 4's array after the region is `G`, for any proof data and any `G` that the body leaves at the last point. -/
theorem final0_4 (c : Dev nD) (dat : Dat τ (Elt F) Unit ℕ (UR sig nD τ) ℕ cfg0 c) (G : S64.Idx → Elt F .f32)
    (hG : ∀ i : S64.Idx, (dat.after 4 ⟨249, last_lt0⟩ : Vec F S64 .f32) i = G i) : dat.arrAt 4 cfg0.N = G :=
  dat.arrAt_eq_of_cover 4 G (flushed0_4_eq c dat G hG) tiles0_4

end Blocks0
end Cert.KernelIdeal.Hand
end
-- ==== Proof.SumBlocks.lean ====
/-
  Sums over the 20000 pillars, regrouped as 250 consecutive blocks of 80: the sum over all pillars is the sum over
  the blocks of the sums within a block; a running sum that starts at zero plus the first block's term and adds one
  block's term per step ends at the total; and the two statistics S1 and S2 in that form.
-/
import proofs.«147546_j60705067762261_2_alg».proof.Proof.Spec
import Mathlib.Algebra.BigOperators.Fin
import Mathlib.Logic.Equiv.Fin.Basic

noncomputable section

namespace Cert.PFN

open Idealize.ShloMosaic

/-- A sum over `m * n` indices is the sum over `m` blocks of the sums over the `n` indices of a block. -/
theorem sum_prod_blocks {M : Type*} [AddCommMonoid M] (m n : ℕ) (g : Fin (m * n) → M) :
    ∑ k : Fin (m * n), g k = ∑ t : Fin m, ∑ r : Fin n, g (finProdFinEquiv (t, r)) :=
  ((finProdFinEquiv (m := m) (n := n)).sum_comp g).symm.trans (Fintype.sum_prod_type _)

/-- The sum over the 20000 pillars is the sum over 250 blocks of 80 consecutive pillars each. -/
theorem sum_blocks {M : Type*} [AddCommMonoid M] (f : Fin 20000 → M) :
    ∑ k : Fin 20000, f k = ∑ t : Fin 250, ∑ r : Fin 80, f ⟨80 * t.val + r.val, by have := t.isLt; have := r.isLt; omega⟩ := by
  have h : 250 * 80 = 20000 := by norm_num
  calc ∑ k : Fin 20000, f k = ∑ k : Fin (250 * 80), f (finCongr h k) := ((finCongr h).sum_comp f).symm
    _ = ∑ t : Fin 250, ∑ r : Fin 80, f (finCongr h (finProdFinEquiv (t, r))) := sum_prod_blocks 250 80 _
    _ = _ := by
      refine Finset.sum_congr rfl fun t _ => Finset.sum_congr rfl fun r _ => ?_
      congr 1
      apply Fin.ext
      show (finProdFinEquiv (t, r)).val = 80 * t.val + r.val
      rw [finProdFinEquiv_apply_val]
      show r.val + 80 * t.val = 80 * t.val + r.val
      omega

/-- A running sum started at zero plus the first term, adding one term per step, ends at the total. -/
theorem running_total (B : Fin 250 → EReal) (a : (n : ℕ) → n < 250 → EReal)
    (h0 : a 0 (by decide) = 0 + B ⟨0, by decide⟩)
    (hs : ∀ (n : ℕ) (h : n + 1 < 250), a (n + 1) h = a n (Nat.lt_of_succ_lt h) + B ⟨n + 1, h⟩) :
    a 249 (by decide) = ∑ t : Fin 250, B t := by
  have key : ∀ (n : ℕ) (h : n < 250), a n h = ∑ i : Fin (n + 1), B ⟨i.val, lt_of_lt_of_le i.isLt h⟩ := by
    intro n
    induction n with
    | zero =>
      intro h
      rw [h0, Fin.sum_univ_castSucc, Fin.sum_univ_zero]
      rfl
    | succ n ih =>
      intro h
      rw [hs n h, ih (Nat.lt_of_succ_lt h)]
      conv_rhs => rw [Fin.sum_univ_castSucc]
      rfl
  exact key 249 (by decide)

/-- The sum of x over all points, block by block. -/
theorem S1_blocks (I : In) (u : Fin 64) :
    S1 I u = ∑ t : Fin 250, ∑ r : Fin 80, ∑ p : Fin 100, x I ⟨80 * t.val + r.val, by have := t.isLt; have := r.isLt; omega⟩ p u :=
  sum_blocks (fun k => ∑ p : Fin 100, x I k p u)

/-- The sum of the squares of x over all points, block by block. -/
theorem S2_blocks (I : In) (u : Fin 64) :
    S2 I u = ∑ t : Fin 250, ∑ r : Fin 80, ∑ p : Fin 100,
      x I ⟨80 * t.val + r.val, by have := t.isLt; have := r.isLt; omega⟩ p u * x I ⟨80 * t.val + r.val, by have := t.isLt; have := r.isLt; omega⟩ p u :=
  sum_blocks (fun k => ∑ p : Fin 100, x I k p u * x I k p u)

end Cert.PFN

end
-- ==== Proof.KVal.StatsValue.lean ====
/-
  The values the statistics region leaves: its two output arrays hold, at channel u, the sum of x and the sum of
  the squares of x over all 2,000,000 points, x the specification's linear-layer output on the launch arguments.

  The region walks the 250 blocks of 80 pillars in order. At the first block its two outputs are zero plus the
  block's column sums (of x, of x squared); at each later block, what the block before left plus the block's column
  sums. A running sum of that shape ends at the total over the blocks, which is the total over the pillars.
  Each block's rows are rows 80 t + r of the features, of the auxiliary array (whose columns 0, 1, 2 are the count
  and the centre of the pillar, as the host operations before the region computed them) and all of the weights.
-/
import proofs.«147546_j60705067762261_2_alg».proof.Proof.KI.Run
import proofs.«147546_j60705067762261_2_alg».proof.Proof.KI.StatsBlocks
import proofs.«147546_j60705067762261_2_alg».proof.Proof.KVal.HostAux
import proofs.«147546_j60705067762261_2_alg».proof.Proof.KPay
import proofs.«147546_j60705067762261_2_alg».proof.Proof.SumBlocks

set_option maxRecDepth 16384

open scoped BigOperators

noncomputable section

namespace Cert.KernelIdeal.KVal

open Cert.KernelIdeal Cert.KernelIdeal.Gen Cert.KernelIdeal.Hand Cert.KernelIdeal.KPay Cert.PFN
open Idealize.ShloMosaic Idealize.ShloMosaic.TcCoe Idealize.SL.Sem Idealize.ShloMosaic.ValueIdx
open Idealize.ShloMosaic.Pipeline (Dat Cfg)

variable (m : (ℓ : Loc nD τ sig) → Buf (Elt Ideal) ℓ) (ρ : Dev nD → PrngReg)

/-- The specification's input record of the run on core `c`: the six argument buffers as launched. -/
abbrev inOf (c : Dev nD) : In :=
  mkIn (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A point's number below 250 is a point of the region's grid. -/
theorem lt_N {n : ℕ} (h : n < 250) : n < cfg0.N := by rw [show cfg0.N = 250 from N_0]; exact h

/-- A block of 80 rows starting at row `80 t` lies inside the 20000 rows. -/
theorem blk_le (t : Fin cfg0.N) : 80 * t.val + 80 ≤ 20000 := by
  have := t.isLt; have : cfg0.N = 250 := N_0; omega

section Step
variable (c : Dev nD) (t : Fin cfg0.N)

/-- Block `t`'s features are the launch features at rows `80 t + r`. -/
theorem feat_hyp0 (r : Fin 80) (p : Fin 100) (j : Fin 4) :
    (iblk0 (Vin0 m ρ) c 0 t : Vec Ideal S80x100x4 .f32) (ix3 r p j)
      = (inOf m c).feat ⟨80 * t.val + r.val, by have := blk_le t; omega⟩ p j :=
  (blk0_0 (Vin0 m ρ) c t r p j).trans (congrFun (W1_main_arg0 m ρ c) _)

/-- Block `t`'s auxiliary rows are rows `80 t + r` of the array the host operations built. -/
theorem aux_blk0 (r : Fin 80) (j : Fin 8) :
    (iblk0 (Vin0 m ρ) c 1 t : Vec Ideal S80x8 .f32) (ix2 r j)
      = (StableHlo.after hostOps0 (W0 m ρ c) (Proc.devRef .tc main_v19) : S20000x8.Idx → EReal)
          (ix2 (⟨80 * t.val + r.val, by have := blk_le t; omega⟩ : Fin 20000) j) :=
  blk0_1 (Vin0 m ρ) c t r j

theorem n_hyp0 (r : Fin 80) :
    (iblk0 (Vin0 m ρ) c 1 t : Vec Ideal S80x8 .f32) (ix2 r (0 : Fin 8))
      = pn (inOf m c) ⟨80 * t.val + r.val, by have := blk_le t; omega⟩ :=
  (aux_blk0 m ρ c t r 0).trans (aux_n (W0 m ρ c) _)

theorem x_hyp0 (r : Fin 80) :
    (iblk0 (Vin0 m ρ) c 1 t : Vec Ideal S80x8 .f32) (ix2 r (1 : Fin 8))
      = cx (inOf m c) ⟨80 * t.val + r.val, by have := blk_le t; omega⟩ :=
  (aux_blk0 m ρ c t r 1).trans (aux_x (W0 m ρ c) _)

theorem y_hyp0 (r : Fin 80) :
    (iblk0 (Vin0 m ρ) c 1 t : Vec Ideal S80x8 .f32) (ix2 r (2 : Fin 8))
      = cy (inOf m c) ⟨80 * t.val + r.val, by have := blk_le t; omega⟩ :=
  (aux_blk0 m ρ c t r 2).trans (aux_y (W0 m ρ c) _)

/-- Every block's weights are the launch weights. -/
theorem w_hyp0 (k : Fin 9) (u : Fin 64) :
    (iblk0 (Vin0 m ρ) c 2 t : Vec Ideal S9x64 .f32) (ix2 k u) = (inOf m c).w k u :=
  (blk0_2 (Vin0 m ρ) c t (ix2 k u)).trans (congrFun (W1_main_arg3 m ρ c) _)

/-- Block `t`'s column sums of x. -/
theorem pay7_blk (u : Fin 64) :
    k0_pay7 (F := Ideal) (iblk0 (Vin0 m ρ) c 0 t) (iblk0 (Vin0 m ρ) c 1 t) (iblk0 (Vin0 m ρ) c 2 t) (ix1 u)
      = ∑ r : Fin 80, ∑ p : Fin 100, x (inOf m c) ⟨80 * t.val + r.val, by have := blk_le t; omega⟩ p u :=
  pay7_apply (inOf m c) (80 * t.val) (blk_le t) _ _ _ (feat_hyp0 m ρ c t) (n_hyp0 m ρ c t) (x_hyp0 m ρ c t) (y_hyp0 m ρ c t)
    (w_hyp0 m ρ c t) u

/-- Block `t`'s column sums of x squared, added to what is there. -/
theorem pay2_blk (v : Vec Ideal S64 .f32) (u : Fin 64) :
    k0_pay2 (F := Ideal) (k0_pay5 (iblk0 (Vin0 m ρ) c 0 t) (iblk0 (Vin0 m ρ) c 1 t) (iblk0 (Vin0 m ρ) c 2 t)) v (ix1 u)
      = v (ix1 u) + ∑ r : Fin 80, ∑ p : Fin 100,
          x (inOf m c) ⟨80 * t.val + r.val, by have := blk_le t; omega⟩ p u
            * x (inOf m c) ⟨80 * t.val + r.val, by have := blk_le t; omega⟩ p u :=
  pay2_apply (inOf m c) (80 * t.val) (blk_le t) _ _ _ (feat_hyp0 m ρ c t) (n_hyp0 m ρ c t) (x_hyp0 m ρ c t) (y_hyp0 m ρ c t)
    (w_hyp0 m ρ c t) v u

end Step

/-- After the last block the first output holds the sum of x. -/
theorem acc_last1 (c : Dev nD) (u : Fin 64) :
    ((acc0 (Vin0 m ρ) c 249 last_lt0).1 : Vec Ideal S64 .f32) (ix1 u) = S1 (inOf m c) u := by
  rw [S1_blocks]
  refine running_total
    (fun t => ∑ r : Fin 80, ∑ p : Fin 100, x (inOf m c) ⟨80 * t.val + r.val, by have := t.isLt; have := r.isLt; omega⟩ p u)
    (fun n h => ((acc0 (Vin0 m ρ) c n (lt_N h)).1 : Vec Ideal S64 .f32) (ix1 u)) ?_ ?_
  · show ((acc0 (Vin0 m ρ) c 0 (lt_N (by decide))).1 : Vec Ideal S64 .f32) (ix1 u) = _
    rw [acc0_zero]
    refine (pay1_apply _ _ u).trans ?_
    rw [pay6_eq, pay3_apply]
    exact congrArg (0 + ·) (pay7_blk m ρ c ⟨0, lt_N (by decide)⟩ u)
  · intro n h
    show ((acc0 (Vin0 m ρ) c (n + 1) (lt_N h)).1 : Vec Ideal S64 .f32) (ix1 u) = _
    rw [acc0_succ]
    refine (pay1_apply _ _ u).trans ?_
    rw [pay6_eq]
    exact congrArg (_ + ·) (pay7_blk m ρ c ⟨n + 1, lt_N h⟩ u)

/-- After the last block the second output holds the sum of the squares of x. -/
theorem acc_last2 (c : Dev nD) (u : Fin 64) :
    ((acc0 (Vin0 m ρ) c 249 last_lt0).2 : Vec Ideal S64 .f32) (ix1 u) = S2 (inOf m c) u := by
  rw [S2_blocks]
  refine running_total
    (fun t => ∑ r : Fin 80, ∑ p : Fin 100,
      x (inOf m c) ⟨80 * t.val + r.val, by have := t.isLt; have := r.isLt; omega⟩ p u
        * x (inOf m c) ⟨80 * t.val + r.val, by have := t.isLt; have := r.isLt; omega⟩ p u)
    (fun n h => ((acc0 (Vin0 m ρ) c n (lt_N h)).2 : Vec Ideal S64 .f32) (ix1 u)) ?_ ?_
  · show ((acc0 (Vin0 m ρ) c 0 (lt_N (by decide))).2 : Vec Ideal S64 .f32) (ix1 u) = _
    rw [acc0_zero]
    refine (pay2_blk m ρ c ⟨0, lt_N (by decide)⟩ _ u).trans ?_
    rw [pay4_apply]
  · intro n h
    show ((acc0 (Vin0 m ρ) c (n + 1) (lt_N h)).2 : Vec Ideal S64 .f32) (ix1 u) = _
    rw [acc0_succ]
    exact pay2_blk m ρ c ⟨n + 1, lt_N h⟩ _ u

/-- The region's first output array, at its exit, is the sum of x over all points. -/
theorem stats1 (c : Dev nD) (u : Fin 64) :
    (W2 (F := Ideal) m ρ c (Proc.devRef .tc main_v20_0) : S64.Idx → EReal) (ix1 u) = S1 (inOf m c) u := by
  have hG : ∀ i : S64.Idx, ((dat0 (Vin0 m ρ) c).after 3 ⟨249, last_lt0⟩ : Vec Ideal S64 .f32) i = S1 (inOf m c) (i 0) := by
    intro i
    obtain ⟨v, rfl⟩ : ∃ v : Fin 64, i = ix1 v := ⟨i 0, eq_ix1 i⟩
    rw [after0_3]
    exact acc_last1 m ρ c v
  have e := (W2_arr m ρ c 3).trans (final0_3 c (dat0 (Vin0 m ρ) c) (fun i => S1 (inOf m c) (i 0)) hG)
  exact congrFun e (ix1 u)

/-- The region's second output array, at its exit, is the sum of the squares of x over all points. -/
theorem stats2 (c : Dev nD) (u : Fin 64) :
    (W2 (F := Ideal) m ρ c (Proc.devRef .tc main_v20_1) : S64.Idx → EReal) (ix1 u) = S2 (inOf m c) u := by
  have hG : ∀ i : S64.Idx, ((dat0 (Vin0 m ρ) c).after 4 ⟨249, last_lt0⟩ : Vec Ideal S64 .f32) i = S2 (inOf m c) (i 0) := by
    intro i
    obtain ⟨v, rfl⟩ : ∃ v : Fin 64, i = ix1 v := ⟨i 0, eq_ix1 i⟩
    rw [after0_4]
    exact acc_last2 m ρ c v
  have e := (W2_arr m ρ c 4).trans (final0_4 c (dat0 (Vin0 m ρ) c) (fun i => S2 (inOf m c) (i 0)) hG)
  exact congrFun e (ix1 u)

end Cert.KernelIdeal.KVal

end
-- ==== Proof.KVal.HostNorm.lean ====
/-
  Between the two regions the per-channel scale and shift are computed from the two sums the statistics region left:
  with m = S1 / N and v = max (S2 / N - m * m) 0, the scale is gamma * rsqrt (v + eps) and the shift is beta - m * scale.
  Read at a channel, over any contents of the buffers before these operations.
-/
import proofs.«147546_j60705067762261_2_alg».proof.Proof.Gen.KernelIdeal.Launch
import proofs.«147546_j60705067762261_2_alg».proof.Proof.SpecIn
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.KVal

open Cert.KernelIdeal Cert.KernelIdeal.Gen Cert.PFN Idealize.ShloMosaic Idealize.ShloMosaic.TcCoe Idealize.SL.Sem Idealize.ShloMosaic.StableHlo Idealize.ShloMosaic.ValueIdx

local infixl:70 " ⬝ " => @HMul.hMul EReal EReal EReal instHMul
local infixl:65 " ⊖ " => @HSub.hSub EReal EReal EReal instHSub

/-- A scalar literal spread over the 64 channels reads as the literal. -/
theorem bc_const (w : BitVec 32) (u : Fin 64) :
    (broadcastInDim S64 ![] bcast_S_S64 (constant (F := Ideal) S_ .f32 w) : S64.Idx → EReal) (ix1 u) = Ideal.ofBits .f32 w :=
  (broadcastInDim_apply ![] bcast_S_S64 (constant (F := Ideal) S_ .f32 w) (ix1 u) ix0 (fun a => a.elim0)).trans rfl

/-- The scale's term, read at a channel. -/
theorem scale_pt (g s1 s2 : FVec Ideal S64 .f32) (u : Fin 64) :
    (mulf g (Host.rsqrt (addf (maximumf (subf (Host.divf s2 (broadcastInDim S64 ![] bcast_S_S64 (constant (F := Ideal) S_ .f32 0x49F42400#32)))
        (mulf (Host.divf s1 (broadcastInDim S64 ![] bcast_S_S64 (constant (F := Ideal) S_ .f32 0x49F42400#32)))
          (Host.divf s1 (broadcastInDim S64 ![] bcast_S_S64 (constant (F := Ideal) S_ .f32 0x49F42400#32)))))
        (broadcastInDim S64 ![] bcast_S_S64 (constant (F := Ideal) S_ .f32 0x00000000#32)))
        (broadcastInDim S64 ![] bcast_S_S64 (constant (F := Ideal) S_ .f32 0x3A83126F#32)))) : FVec Ideal S64 .f32) (ix1 u)
      = g (ix1 u) ⬝ Ideal.rsqrt (max (Ideal.div (s2 (ix1 u)) cN - Ideal.div (s1 (ix1 u)) cN * Ideal.div (s1 (ix1 u)) cN) cZero + cEps) := by
  show g (ix1 u) ⬝ Ideal.rsqrt (max (Ideal.div (s2 (ix1 u)) ((broadcastInDim S64 ![] bcast_S_S64 (constant (F := Ideal) S_ .f32 0x49F42400#32) : S64.Idx → EReal) (ix1 u))
      - Ideal.div (s1 (ix1 u)) ((broadcastInDim S64 ![] bcast_S_S64 (constant (F := Ideal) S_ .f32 0x49F42400#32) : S64.Idx → EReal) (ix1 u))
        * Ideal.div (s1 (ix1 u)) ((broadcastInDim S64 ![] bcast_S_S64 (constant (F := Ideal) S_ .f32 0x49F42400#32) : S64.Idx → EReal) (ix1 u)))
      ((broadcastInDim S64 ![] bcast_S_S64 (constant (F := Ideal) S_ .f32 0x00000000#32) : S64.Idx → EReal) (ix1 u))
      + (broadcastInDim S64 ![] bcast_S_S64 (constant (F := Ideal) S_ .f32 0x3A83126F#32) : S64.Idx → EReal) (ix1 u)) = _
  rw [bc_const, bc_const, bc_const]
  rfl

/-- The scale: gamma times the reciprocal root of the clamped variance plus epsilon. -/
theorem scale_apply (Y : Valuation τ sig (Elt Ideal)) (u : Fin 64) :
    (after hostOps1 Y (Proc.devRef .tc main_v32) : S64.Idx → EReal) (ix1 u)
      = (Y (Proc.devRef .tc main_arg4) : S64.Idx → EReal) (ix1 u) ⬝ Ideal.rsqrt (max (Ideal.div ((Y (Proc.devRef .tc main_v20_1) : S64.Idx → EReal) (ix1 u)) cN - Ideal.div ((Y (Proc.devRef .tc main_v20_0) : S64.Idx → EReal) (ix1 u)) cN * Ideal.div ((Y (Proc.devRef .tc main_v20_0) : S64.Idx → EReal) (ix1 u)) cN) cZero + cEps) := by
  dsimp only [hostOps1]; after_results
  exact scale_pt _ _ _ u

theorem after_split (Y : Valuation τ sig (Elt Ideal)) :
    after hostOps1 Y = after ((hostOps1 (F := Ideal)).drop 16) (after ((hostOps1 (F := Ideal)).take 16) Y) := rfl

theorem mid22 (Y : Valuation τ sig (Elt Ideal)) (u : Fin 64) :
    (after ((hostOps1 (F := Ideal)).take 16) Y (Proc.devRef .tc main_v22) : S64.Idx → EReal) (ix1 u)
      = Ideal.div ((Y (Proc.devRef .tc main_v20_0) : S64.Idx → EReal) (ix1 u)) cN := by
  dsimp only [hostOps1, List.take]; after_results
  show Ideal.div ((Y (Proc.devRef .tc main_v20_0) : S64.Idx → EReal) (ix1 u)) ((broadcastInDim S64 ![] bcast_S_S64 (constant (F := Ideal) S_ .f32 0x49F42400#32) : S64.Idx → EReal) (ix1 u)) = _
  rw [bc_const]; rfl

theorem mid5 (Y : Valuation τ sig (Elt Ideal)) :
    after ((hostOps1 (F := Ideal)).take 16) Y (Proc.devRef .tc main_arg5) = Y (Proc.devRef .tc main_arg5) := by
  dsimp only [hostOps1, List.take]; after_results

theorem tail34 (Z : Valuation τ sig (Elt Ideal)) (u : Fin 64) :
    (after ((hostOps1 (F := Ideal)).drop 16) Z (Proc.devRef .tc main_v34) : S64.Idx → EReal) (ix1 u)
      = (Z (Proc.devRef .tc main_arg5) : S64.Idx → EReal) (ix1 u)
        ⊖ (Z (Proc.devRef .tc main_v22) : S64.Idx → EReal) (ix1 u) ⬝ (Z (Proc.devRef .tc main_v32) : S64.Idx → EReal) (ix1 u) := by
  dsimp only [hostOps1, List.drop]; after_results
  rfl

theorem tail32 (Z : Valuation τ sig (Elt Ideal)) :
    after ((hostOps1 (F := Ideal)).drop 16) Z (Proc.devRef .tc main_v32) = Z (Proc.devRef .tc main_v32) := by
  dsimp only [hostOps1, List.drop]; after_results

/-- The shift: beta minus the mean times the scale. -/
theorem shift_apply (Y : Valuation τ sig (Elt Ideal)) (u : Fin 64) :
    (after hostOps1 Y (Proc.devRef .tc main_v34) : S64.Idx → EReal) (ix1 u)
      = (Y (Proc.devRef .tc main_arg5) : S64.Idx → EReal) (ix1 u) ⊖ Ideal.div ((Y (Proc.devRef .tc main_v20_0) : S64.Idx → EReal) (ix1 u)) cN * (after hostOps1 Y (Proc.devRef .tc main_v32) : S64.Idx → EReal) (ix1 u) := by
  have h22 := mid22 Y u
  have h5 := mid5 Y
  rw [after_split Y, tail34, tail32, h5, h22]

/-- The scale in the specification's words. -/
theorem scale_spec (I : In) (Y : Valuation τ sig (Elt Ideal))
    (hS1 : ∀ u : Fin 64, (Y (Proc.devRef .tc main_v20_0) : S64.Idx → EReal) (ix1 u) = S1 I u)
    (hS2 : ∀ u : Fin 64, (Y (Proc.devRef .tc main_v20_1) : S64.Idx → EReal) (ix1 u) = S2 I u)
    (hg : ∀ u : Fin 64, (Y (Proc.devRef .tc main_arg4) : S64.Idx → EReal) (ix1 u) = I.gamma u)
    (hb : ∀ u : Fin 64, (Y (Proc.devRef .tc main_arg5) : S64.Idx → EReal) (ix1 u) = I.beta u) (u : Fin 64) :
    (after hostOps1 Y (Proc.devRef .tc main_v32) : S64.Idx → EReal) (ix1 u) = scaleK I u := by
  rw [scale_apply, hS1, hS2, hg]
  unfold scaleK varK mu
  rfl

/-- The shift in the specification's words. -/
theorem shift_spec (I : In) (Y : Valuation τ sig (Elt Ideal))
    (hS1 : ∀ u : Fin 64, (Y (Proc.devRef .tc main_v20_0) : S64.Idx → EReal) (ix1 u) = S1 I u)
    (hS2 : ∀ u : Fin 64, (Y (Proc.devRef .tc main_v20_1) : S64.Idx → EReal) (ix1 u) = S2 I u)
    (hg : ∀ u : Fin 64, (Y (Proc.devRef .tc main_arg4) : S64.Idx → EReal) (ix1 u) = I.gamma u)
    (hb : ∀ u : Fin 64, (Y (Proc.devRef .tc main_arg5) : S64.Idx → EReal) (ix1 u) = I.beta u) (u : Fin 64) :
    (after hostOps1 Y (Proc.devRef .tc main_v34) : S64.Idx → EReal) (ix1 u) = shiftK I u := by
  rw [shift_apply, scale_spec I Y hS1 hS2 hg hb u, hS1, hb]
  unfold shiftK mu
  rfl

end Cert.KernelIdeal.KVal

end
-- ==== Proof.KVal.MainValue.lean ====
/-
  The value the main region leaves: the output array after the run, index by index, is the specification's
  `outK` of the argument arrays. Block `t` of the output is the body's result on the blocks of the five inputs at
  `t`: rows `80 t … 80 t + 79` of the features and of the auxiliary array (count and centre per pillar), the weights,
  and the scale and shift the host computed from the two sums of the statistics region.
-/
import proofs.«147546_j60705067762261_2_alg».proof.Proof.KI.Run
import proofs.«147546_j60705067762261_2_alg».proof.Proof.KI.MainBlocks
import proofs.«147546_j60705067762261_2_alg».proof.Proof.KPay
import proofs.«147546_j60705067762261_2_alg».proof.Proof.KVal.HostAux
import proofs.«147546_j60705067762261_2_alg».proof.Proof.KVal.StatsValue
import proofs.«147546_j60705067762261_2_alg».proof.Proof.KVal.HostNorm

set_option maxRecDepth 16384

noncomputable section

namespace Cert.KernelIdeal.KVal

open Cert.KernelIdeal Cert.KernelIdeal.Gen Cert.KernelIdeal.Hand Cert.KernelIdeal.KPay Cert.PFN
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The main region's inputs, as it finds them -/

/-- Block `t` of the features is rows `80 t … 80 t + 79` of the features argument. -/
theorem in_feat1 (c : Dev nD) (t : Fin cfg1.N) (r : Fin 80) (p : Fin 100) (j : Fin 4) :
    (iblk1 (Vin1 m ρ) c 0 t : Vec Ideal S80x100x4 .f32) (ix3 r p j) = (inOf m c).feat ⟨80 * t.val + r.val, row_lt1 t r⟩ p j :=
  (blk1_0 (Vin1 m ρ) c t r p j).trans (congrFun (W3_main_arg0 m ρ c) _)

/-- The auxiliary array as the main region finds it is what the first stretch of host operations left. -/
theorem in_aux1 (c : Dev nD) (t : Fin cfg1.N) (r : Fin 80) (j : Fin 8) :
    (iblk1 (Vin1 m ρ) c 1 t : Vec Ideal S80x8 .f32) (ix2 r j)
      = (after hostOps0 (W0 m ρ c) (Proc.devRef .tc main_v19) : S20000x8.Idx → EReal) (ix2 (⟨80 * t.val + r.val, row_lt1 t r⟩ : Fin 20000) j) :=
  (blk1_1 (Vin1 m ρ) c t r j).trans (congrFun (W3_main_v19 m ρ c) _)

/-- Column 0 of the auxiliary block is the pillars' counts, -/
theorem in_cnt1 (c : Dev nD) (t : Fin cfg1.N) (r : Fin 80) :
    (iblk1 (Vin1 m ρ) c 1 t : Vec Ideal S80x8 .f32) (ix2 r (0 : Fin 8)) = pn (inOf m c) ⟨80 * t.val + r.val, row_lt1 t r⟩ :=
  (in_aux1 m ρ c t r 0).trans (aux_n (W0 m ρ c) _)

/-- column 1 the centres' first coordinates, -/
theorem in_cx1 (c : Dev nD) (t : Fin cfg1.N) (r : Fin 80) :
    (iblk1 (Vin1 m ρ) c 1 t : Vec Ideal S80x8 .f32) (ix2 r (1 : Fin 8)) = cx (inOf m c) ⟨80 * t.val + r.val, row_lt1 t r⟩ :=
  (in_aux1 m ρ c t r 1).trans (aux_x (W0 m ρ c) _)

/-- column 2 their second. -/
theorem in_cy1 (c : Dev nD) (t : Fin cfg1.N) (r : Fin 80) :
    (iblk1 (Vin1 m ρ) c 1 t : Vec Ideal S80x8 .f32) (ix2 r (2 : Fin 8)) = cy (inOf m c) ⟨80 * t.val + r.val, row_lt1 t r⟩ :=
  (in_aux1 m ρ c t r 2).trans (aux_y (W0 m ρ c) _)

/-- The weights block is the weights argument. -/
theorem in_w1 (c : Dev nD) (t : Fin cfg1.N) (q : Fin 9) (u : Fin 64) :
    (iblk1 (Vin1 m ρ) c 2 t : Vec Ideal S9x64 .f32) (ix2 q u) = (inOf m c).w q u :=
  (blk1_2 (Vin1 m ρ) c t (ix2 q u)).trans (congrFun (W3_main_arg3 m ρ c) _)

/-- The scale and shift arguments as the second stretch of host operations finds them. -/
theorem in_gamma1 (c : Dev nD) (u : Fin 64) : (W2 (F := Ideal) m ρ c (Proc.devRef .tc main_arg4) : S64.Idx → EReal) (ix1 u) = (inOf m c).gamma u :=
  congrFun (W2_main_arg4 m ρ c) _
theorem in_beta1 (c : Dev nD) (u : Fin 64) : (W2 (F := Ideal) m ρ c (Proc.devRef .tc main_arg5) : S64.Idx → EReal) (ix1 u) = (inOf m c).beta u :=
  congrFun (W2_main_arg5 m ρ c) _

/-- The scale block is the specification's scale: the host's second stretch on the two sums. -/
theorem in_scale1 (c : Dev nD) (t : Fin cfg1.N) (u : Fin 64) :
    (iblk1 (Vin1 m ρ) c 3 t : Vec Ideal S64 .f32) (ix1 u) = scaleK (inOf m c) u :=
  (blk1_3 (Vin1 m ρ) c t (ix1 u)).trans
    (scale_spec (inOf m c) (W2 m ρ c) (stats1 m ρ c) (stats2 m ρ c) (in_gamma1 m ρ c) (in_beta1 m ρ c) u)

/-- The shift block is the specification's shift. -/
theorem in_shift1 (c : Dev nD) (t : Fin cfg1.N) (u : Fin 64) :
    (iblk1 (Vin1 m ρ) c 4 t : Vec Ideal S64 .f32) (ix1 u) = shiftK (inOf m c) u :=
  (blk1_4 (Vin1 m ρ) c t (ix1 u)).trans
    (shift_spec (inOf m c) (W2 m ρ c) (stats1 m ρ c) (stats2 m ρ c) (in_gamma1 m ρ c) (in_beta1 m ρ c) u)

/-! ## What the body leaves at a point, and the output array -/

/-- At point `t` the body leaves, in row `r` of its block, the specification's result for pillar `80 t + r`. -/
theorem main_block (c : Dev nD) (t : Fin cfg1.N) (r : Fin 80) (u : Fin 64) :
    ((dat1 (Vin1 m ρ) c).after 5 t : Vec Ideal S80x64 .f32) (ix2 r u) = outK (inOf m c) ⟨80 * t.val + r.val, row_lt1 t r⟩ u := by
  have hk0 : 80 * t.val + 80 ≤ 20000 := by have := t.isLt; have : cfg1.N = 250 := N_1; omega
  rw [after1_5, out1_5_eq]
  refine (out1_apply (inOf m c) (80 * t.val) hk0 (iblk1 (Vin1 m ρ) c 0 t) (iblk1 (Vin1 m ρ) c 1 t) (iblk1 (Vin1 m ρ) c 2 t)
    (in_feat1 m ρ c t) (in_cnt1 m ρ c t) (in_cx1 m ρ c t) (in_cy1 m ρ c t) (in_w1 m ρ c t)
    (iblk1 (Vin1 m ρ) c 3 t) (iblk1 (Vin1 m ρ) c 4 t) r u).trans ?_
  unfold outK yK
  refine Finset.fold_congr fun p _ => ?_
  rw [in_scale1 m ρ c t u, in_shift1 m ρ c t u]

/-- THE OUTPUT ARRAY after the run is the specification's result, index by index. -/
theorem main_out (c : Dev nD) (i : S20000x64.Idx) :
    (W4 (F := Ideal) m ρ c (Proc.devRef .tc main_v35) : S20000x64.Idx → EReal) i = outK (inOf m c) (i 0) (i 1) :=
  congrFun ((W4_arr m ρ c 5).trans
    (final1_5 (Vin1 m ρ) c (fun i => outK (inOf m c) (i 0) (i 1)) (main_block m ρ c))) i

end Cert.KernelIdeal.KVal

end
-- ==== Proof.RefValue.lean ====
/-
  The reference's result, index by index, is the specification's 'outR'.

  Stage by stage the reference's arrays are read at an index built from literal coordinates: the count and the
  two centre coordinates as numbers, the mask as one or zero by comparing the point's number with the count, the
  per-pillar mean as a sum over the pillar's 100 points by the count, the nine channels by cases on the channel
  (features, features minus the mean, the two centre offsets), the linear layer as a sum over the nine channels,
  the two statistics as double sums over all pillars and points by the literal 2,000,000, then the affine map,
  the clamp at zero and the maximum over the pillar's points as a fold of max from minus infinity.
-/
import proofs.«147546_j60705067762261_2_alg».proof.Proof.Gen.ReferenceIdeal.Read
import proofs.«147546_j60705067762261_2_alg».proof.Proof.SpecIn

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

theorem red_d1 : S20000x100x64.Reduces [1] S20000x64 := by decide

theorem lift_d1 (h : S20000x100x64.Reduces [1] S20000x64) (k : Fin 20000) (u : Fin 64) (p : Fin 100) :
    h.lift (ix2 k u) p = ix3 k p u := by
  funext c; apply Fin.ext
  match c with
  | ⟨0, _⟩ => rfl
  | ⟨1, _⟩ => rfl
  | ⟨2, _⟩ => rfl

/-- A maximum over the middle axis, read at (k, u): the fold of max over the 100 middle coordinates. -/
theorem rowmax_at (X : FVec Ideal S20000x100x64 .f32) (init : FVec Ideal S_ .f32) (k : Fin 20000) (u : Fin 64) :
    (Host.reduce FloatOps.maximumf X init reducesTo_S20000x100x64_S20000x64_d1 h_S_ : FVec Ideal S20000x64 .f32) (ix2 k u)
      = Finset.univ.fold max (init (Shape.Idx.first h_S_)) (fun p : Fin 100 => X (ix3 k p u)) := by
  rw [Host.reduce_eq_fold_single FloatOps.maximumf X init reducesTo_S20000x100x64_S20000x64_d1 red_d1 h_S_]
  have hf : (X ∘ red_d1.lift (ix2 k u)) = fun p : Fin 100 => X (ix3 k p u) := funext fun p => congrArg X (lift_d1 red_d1 k u p)
  exact congrArg (fun f => Finset.fold max (init (Shape.Idx.first h_S_)) f (Finset.univ : Finset (Fin 100))) hf

theorem v75_at (x0 : (⟨S20000x100x4, .f32⟩ : BufTy).Contents (Elt Ideal)) (x1 : (⟨S20000, .i32⟩ : BufTy).Contents (Elt Ideal)) (x2 : (⟨S20000x4, .i32⟩ : BufTy).Contents (Elt Ideal)) (x3 : (⟨S9x64, .f32⟩ : BufTy).Contents (Elt Ideal)) (x4 x5 : (⟨S64, .f32⟩ : BufTy).Contents (Elt Ideal)) (k : Fin 20000) (u : Fin 64) :
    val_main_v75 (F := Ideal) x0 x1 x2 x3 x4 x5 (ix2 k u) = Finset.univ.fold max Cert.PFN.cNegInf (fun p : Fin 100 => val_main_v74 (F := Ideal) x0 x1 x2 x3 x4 x5 (ix3 k p u)) := by
  unfold val_main_v75
  exact rowmax_at _ _ k u

theorem drop_d01 {n0 n1 n2 : Nat} (h : (⟨3, ![n0, n1, n2]⟩ : Shape).ReducesTo [0, 1] ⟨1, ![n2]⟩) (i : (⟨3, ![n0, n1, n2]⟩ : Shape).Idx) :
    (h.drop i 0 : Nat) = (i 2 : Nat) :=
  Shape.ReducesTo.drop_apply_val_of_eq h i 0 2 (Nat.one_pos : (0 : Nat) < 1) rfl

/-- A sum over the first two axes of a three-axis array, read at u: the double sum over the first two coordinates. -/
theorem sum_d01_gen {n0 n1 n2 : Nat} (h : (⟨3, ![n0, n1, n2]⟩ : Shape).ReducesTo [0, 1] ⟨1, ![n2]⟩)
    (X : (⟨3, ![n0, n1, n2]⟩ : Shape).Idx → EReal) (init : EReal) (u : Fin n2) :
    Ideal.hostReduceAdd h X init (ix1 u) = init + ∑ k : Fin n0, ∑ p : Fin n1, X (ix3 k p u) := by
  unfold Ideal.hostReduceAdd
  refine congrArg (init + ·) ?_
  rw [← Fintype.sum_prod_type' (fun (k : Fin n0) (p : Fin n1) => X (ix3 k p u))]
  have key : ∀ i : (⟨3, ![n0, n1, n2]⟩ : Shape).Idx, h.drop i = ix1 u → ix3 (i 0) (i 1) u = i := by
    intro i hi
    have h2 : (i 2 : Nat) = u.val := by
      rw [← drop_d01 h i, hi]; rfl
    funext c; apply Fin.ext
    match c with
    | ⟨0, _⟩ => rfl
    | ⟨1, _⟩ => rfl
    | ⟨2, _⟩ => exact h2.symm
  refine Finset.sum_nbij' (fun i => ((i 0 : Fin n0), (i 1 : Fin n1))) (fun q => ix3 q.1 q.2 u) ?_ ?_ ?_ ?_ ?_
  · intro i _; exact Finset.mem_univ _
  · intro q _
    refine Finset.mem_filter.2 ⟨Finset.mem_univ _, ?_⟩
    funext b; apply Fin.ext
    match b with
    | ⟨0, _⟩ => exact drop_d01 h (ix3 q.1 q.2 u)
  · intro i hi; exact key i (Finset.mem_filter.1 hi).2
  · intro q _; rfl
  · intro i hi; exact congrArg X (key i (Finset.mem_filter.1 hi).2).symm

theorem sum_d01 (X : FVec Ideal S20000x100x64 .f32) (init : EReal) (u : Fin 64) :
    Ideal.hostReduceAdd reducesTo_S20000x100x64_S64_d0_1 X init (ix1 u) = init + ∑ k : Fin 20000, ∑ p : Fin 100, X (ix3 k p u) :=
  sum_d01_gen (n0 := 20000) (n1 := 100) (n2 := 64) reducesTo_S20000x100x64_S64_d0_1 X init u

section Concat3
variable {α : Type} (A : S20000x100x4.Idx → α) (B : S20000x100x3.Idx → α) (C : S20000x100x2.Idx → α)

/-- Three pieces of extents 4, 3, 2 along the last axis, read in the first piece. -/
theorem concat3_lo (k : Fin 20000) (p : Fin 100) (c : Fin 9) (h : c.val < 4) :
    concatenate S20000x100x9 2 [⟨S20000x100x4, A⟩, ⟨S20000x100x3, B⟩, ⟨S20000x100x2, C⟩] concatenates_S20000x100x4_S20000x100x3_S20000x100x2_S20000x100x9_d2 (ix3 k p c)
      = A (ix3 k p (⟨c.val, h⟩ : Fin 4)) :=
  concatenate_apply_piece (t := S20000x100x9) (2 : Fin 3) ([⟨S20000x100x4, A⟩, ⟨S20000x100x3, B⟩, ⟨S20000x100x2, C⟩] : List ((s : Shape) × (s.Idx → α)))
    concatenates_S20000x100x4_S20000x100x3_S20000x100x2_S20000x100x9_d2 (ix3 k p c) 0 (Nat.zero_lt_succ 2) S20000x100x4 A rfl rfl 0 rfl
    (ix3 k p (⟨c.val, h⟩ : Fin 4))
    (fun b => by
      match b with
      | ⟨0, _⟩ => exact fun _ => rfl
      | ⟨1, _⟩ => exact fun _ => rfl
      | ⟨2, _⟩ => exact fun hb => absurd rfl hb)
    (Nat.zero_add _)

/-- … in the second piece. -/
theorem concat3_mid (k : Fin 20000) (p : Fin 100) (c : Fin 9) (h1 : 4 ≤ c.val) (h2 : c.val < 7) :
    concatenate S20000x100x9 2 [⟨S20000x100x4, A⟩, ⟨S20000x100x3, B⟩, ⟨S20000x100x2, C⟩] concatenates_S20000x100x4_S20000x100x3_S20000x100x2_S20000x100x9_d2 (ix3 k p c)
      = B (ix3 k p (⟨c.val - 4, by omega⟩ : Fin 3)) :=
  concatenate_apply_piece (t := S20000x100x9) (2 : Fin 3) ([⟨S20000x100x4, A⟩, ⟨S20000x100x3, B⟩, ⟨S20000x100x2, C⟩] : List ((s : Shape) × (s.Idx → α)))
    concatenates_S20000x100x4_S20000x100x3_S20000x100x2_S20000x100x9_d2 (ix3 k p c) 1 (Nat.succ_lt_succ (Nat.zero_lt_succ 1)) S20000x100x3 B rfl rfl 4 rfl
    (ix3 k p (⟨c.val - 4, by omega⟩ : Fin 3))
    (fun b => by
      match b with
      | ⟨0, _⟩ => exact fun _ => rfl
      | ⟨1, _⟩ => exact fun _ => rfl
      | ⟨2, _⟩ => exact fun hb => absurd rfl hb)
    (by show 4 + (c.val - 4) = c.val; omega)

/-- … in the third piece. -/
theorem concat3_hi (k : Fin 20000) (p : Fin 100) (c : Fin 9) (h1 : 7 ≤ c.val) :
    concatenate S20000x100x9 2 [⟨S20000x100x4, A⟩, ⟨S20000x100x3, B⟩, ⟨S20000x100x2, C⟩] concatenates_S20000x100x4_S20000x100x3_S20000x100x2_S20000x100x9_d2 (ix3 k p c)
      = C (ix3 k p (⟨c.val - 7, by have := c.isLt; omega⟩ : Fin 2)) :=
  concatenate_apply_piece (t := S20000x100x9) (2 : Fin 3) ([⟨S20000x100x4, A⟩, ⟨S20000x100x3, B⟩, ⟨S20000x100x2, C⟩] : List ((s : Shape) × (s.Idx → α)))
    concatenates_S20000x100x4_S20000x100x3_S20000x100x2_S20000x100x9_d2 (ix3 k p c) 2 (Nat.succ_lt_succ (Nat.succ_lt_succ (Nat.zero_lt_succ 0))) S20000x100x2 C rfl rfl 7 rfl
    (ix3 k p (⟨c.val - 7, by have := c.isLt; omega⟩ : Fin 2))
    (fun b => by
      match b with
      | ⟨0, _⟩ => exact fun _ => rfl
      | ⟨1, _⟩ => exact fun _ => rfl
      | ⟨2, _⟩ => exact fun hb => absurd rfl hb)
    (by show 7 + (c.val - 7) = c.val; omega)

end Concat3

section
variable (x0 : (⟨S20000x100x4, .f32⟩ : BufTy).Contents (Elt Ideal)) (x1 : (⟨S20000, .i32⟩ : BufTy).Contents (Elt Ideal)) (x2 : (⟨S20000x4, .i32⟩ : BufTy).Contents (Elt Ideal)) (x3 : (⟨S9x64, .f32⟩ : BufTy).Contents (Elt Ideal)) (x4 x5 : (⟨S64, .f32⟩ : BufTy).Contents (Elt Ideal))

local notation "II" => Cert.PFN.mkIn x0 x1 x2 x3 x4 x5

/-- The count as a number. -/
theorem v1_at (k : Fin 20000) (z z' : Fin 1) : val_main_v1 (F := Ideal) x1 (ix3 k z z') = Cert.PFN.pn II k := by
  rw [val_main_v1_apply, val_main_v0_apply]
  have e : idx_main_v1 (ix3 k z z') = ix1 k := by
    funext a; apply Fin.ext
    match a with
    | ⟨0, _⟩ => rfl
  rw [e]; rfl

/-- The centre's first coordinate. -/
theorem v9_at (k : Fin 20000) (z : Fin 1) : val_main_v9 (F := Ideal) x2 (ix2 k z) = Cert.PFN.cx II k := by
  rw [val_main_v9_apply, val_main_v7_apply, val_main_v8_apply, val_main_cst_0_apply, val_main_v5_apply, val_main_v4_apply,
    val_main_v3_apply, val_main_v2_apply, val_main_v6_apply, val_main_cst_apply]
  have e : idx_main_v2 (idx_main_v3 (idx_main_v5 (ix2 k z))) = ix2 k 3 := by
    funext a; apply Fin.ext
    match a with
    | ⟨0, _⟩ => show k.val / 1 = k.val; omega
    | ⟨1, _⟩ => rfl
  rw [e]; rfl

/-- The centre's second coordinate. -/
theorem v17_at (k : Fin 20000) (z : Fin 1) : val_main_v17 (F := Ideal) x2 (ix2 k z) = Cert.PFN.cy II k := by
  rw [val_main_v17_apply, val_main_v15_apply, val_main_v16_apply, val_main_cst_2_apply, val_main_v13_apply, val_main_v12_apply,
    val_main_v11_apply, val_main_v10_apply, val_main_v14_apply, val_main_cst_1_apply]
  have e : idx_main_v10 (idx_main_v11 (idx_main_v13 (ix2 k z))) = ix2 k 2 := by
    funext a; apply Fin.ext
    match a with
    | ⟨0, _⟩ => show k.val / 1 = k.val; omega
    | ⟨1, _⟩ => rfl
  rw [e]; rfl

theorem toInt_ofNat_small (p : Fin 100) : (BitVec.ofNat 32 p.val).toInt = (p.val : ℤ) := by
  have hp := p.isLt
  have h1 : (BitVec.ofNat 32 p.val).toNat = p.val := by
    rw [BitVec.toNat_ofNat]; exact Nat.mod_eq_of_lt (by omega)
  rw [BitVec.toInt_eq_toNat_of_lt (by rw [h1]; omega), h1]

/-- The mask. -/
theorem v25_at (k : Fin 20000) (p : Fin 100) (z : Fin 1) : val_main_v25 (F := Ideal) x1 (ix3 k p z) = Cert.PFN.msk II k p := by
  rw [val_main_v25_apply, val_main_v24_apply, val_main_v23_apply, val_main_v21_apply, val_main_v19_apply, val_main_v18_apply,
    val_main_v22_apply, val_main_v20_apply]
  have e : idx_main_v20 (idx_main_v22 (idx_main_v25 (ix3 k p z))) = ix1 k := by
    funext a; apply Fin.ext
    match a with
    | ⟨0, _⟩ => rfl
  rw [e]
  show (((IntOp.cmpi .slt (BitVec.ofNat 32 p.val) (x1 (ix1 k))).toNat : ℝ) : EReal) = if ((p.val : ℕ) : ℤ) < (x1 (ix1 k)).toInt then 1 else 0
  unfold IntOp.cmpi
  show (((BitVec.ofBool ((BitVec.ofNat 32 p.val).slt (x1 (ix1 k)))).toNat : ℝ) : EReal) = _
  rw [BitVec.slt, toInt_ofNat_small]
  by_cases h : ((p.val : ℕ) : ℤ) < (x1 (ix1 k)).toInt
  · rw [if_pos h, decide_eq_true h]; simp
  · rw [if_neg h, decide_eq_false h]; simp

/-- The mean of feature j over the pillar's points, by the count. -/
theorem v30_at (k : Fin 20000) (z : Fin 1) (j : Fin 3) : val_main_v30 (F := Ideal) x0 x1 (ix3 k z j) = Cert.PFN.mean II k j := by
  rw [val_main_v30_apply, val_main_v28_apply, val_main_v29_apply, val_main_v27_apply, val_main_cst_3_apply]
  have e1 : idx_main_v29 (ix3 k z j) = ix3 k (0 : Fin 1) (0 : Fin 1) := by
    funext a; apply Fin.ext
    match a with
    | ⟨0, _⟩ => rfl
    | ⟨1, _⟩ => rfl
    | ⟨2, _⟩ => rfl
  rw [e1, v1_at]
  have e2 : ∀ p : Fin 100, val_main_v26 (F := Ideal) x0 (idx_main_v27 (idx_main_v28 (ix3 k z j)) p) = x0 (ix3 k p (j.castLE (by decide))) := by
    intro p; rw [val_main_v26_apply]; refine congrArg x0 ?_
    funext a; apply Fin.ext
    match a with
    | ⟨0, _⟩ => rfl
    | ⟨1, _⟩ => rfl
    | ⟨2, _⟩ => rfl
  simp only [Ideal.hostDivf_def, Ideal.ofBits_def, Ideal.ofBits_zero_f32, zero_add, e2]
  rfl

/-- A feature minus its pillar's mean. -/
theorem v33_at (k : Fin 20000) (p : Fin 100) (j : Fin 3) :
    val_main_v33 (F := Ideal) x0 x1 (ix3 k p j) = x0 (ix3 k p (j.castLE (by decide))) - Cert.PFN.mean II k j := by
  rw [val_main_v33_apply, val_main_v31_apply, val_main_v32_apply]
  have e1 : idx_main_v31 (ix3 k p j) = ix3 k p (j.castLE (by decide) : Fin 4) := by
    funext a; apply Fin.ext
    match a with
    | ⟨0, _⟩ => rfl
    | ⟨1, _⟩ => rfl
    | ⟨2, _⟩ => rfl
  have e2 : idx_main_v32 (ix3 k p j) = ix3 k (0 : Fin 1) j := by
    funext a; apply Fin.ext
    match a with
    | ⟨0, _⟩ => rfl
    | ⟨1, _⟩ => rfl
    | ⟨2, _⟩ => rfl
  rw [e1, e2, v30_at]; rfl

/-- The first feature minus the centre's first coordinate. -/
theorem v37_at (k : Fin 20000) (p : Fin 100) : val_main_v37 (F := Ideal) x0 x2 (ix2 k p) = x0 (ix3 k p (0 : Fin 4)) - Cert.PFN.cx II k := by
  rw [val_main_v37_apply, val_main_v35_apply, val_main_v34_apply, val_main_v36_apply]
  have hk := k.isLt; have hp := p.isLt
  have e1 : idx_main_v34 (idx_main_v35 (ix2 k p)) = ix3 k p (0 : Fin 4) := by
    funext a; apply Fin.ext
    match a with
    | ⟨0, _⟩ => show (k.val * 100 + p.val) / 100 = k.val; omega
    | ⟨1, _⟩ => show (k.val * 100 + p.val) / 1 % 100 = p.val; omega
    | ⟨2, _⟩ => rfl
  have e2 : idx_main_v36 (ix2 k p) = ix2 k (0 : Fin 1) := by
    funext a; apply Fin.ext
    match a with
    | ⟨0, _⟩ => rfl
    | ⟨1, _⟩ => rfl
  rw [e1, e2, v9_at]; rfl

/-- The second feature minus the centre's second coordinate. -/
theorem v41_at (k : Fin 20000) (p : Fin 100) : val_main_v41 (F := Ideal) x0 x2 (ix2 k p) = x0 (ix3 k p (1 : Fin 4)) - Cert.PFN.cy II k := by
  rw [val_main_v41_apply, val_main_v39_apply, val_main_v38_apply, val_main_v40_apply]
  have hk := k.isLt; have hp := p.isLt
  have e1 : idx_main_v38 (idx_main_v39 (ix2 k p)) = ix3 k p (1 : Fin 4) := by
    funext a; apply Fin.ext
    match a with
    | ⟨0, _⟩ => show (k.val * 100 + p.val) / 100 = k.val; omega
    | ⟨1, _⟩ => show (k.val * 100 + p.val) / 1 % 100 = p.val; omega
    | ⟨2, _⟩ => rfl
  have e2 : idx_main_v40 (ix2 k p) = ix2 k (0 : Fin 1) := by
    funext a; apply Fin.ext
    match a with
    | ⟨0, _⟩ => rfl
    | ⟨1, _⟩ => rfl
  rw [e1, e2, v17_at]; rfl

theorem v42_at (k : Fin 20000) (p : Fin 100) (z : Fin 1) : val_main_v42 (F := Ideal) x0 x2 (ix3 k p z) = x0 (ix3 k p (0 : Fin 4)) - Cert.PFN.cx II k := by
  rw [val_main_v42_apply]
  have e : idx_main_v42 (ix3 k p z) = ix2 k p := by
    funext a; apply Fin.ext
    match a with
    | ⟨0, _⟩ => rfl
    | ⟨1, _⟩ => rfl
  rw [e, v37_at]

theorem v43_at (k : Fin 20000) (p : Fin 100) (z : Fin 1) : val_main_v43 (F := Ideal) x0 x2 (ix3 k p z) = x0 (ix3 k p (1 : Fin 4)) - Cert.PFN.cy II k := by
  rw [val_main_v43_apply]
  have e : idx_main_v43 (ix3 k p z) = ix2 k p := by
    funext a; apply Fin.ext
    match a with
    | ⟨0, _⟩ => rfl
    | ⟨1, _⟩ => rfl
  rw [e, v41_at]

/-- The two centre offsets side by side: the first. -/
theorem v44_at0 (k : Fin 20000) (p : Fin 100) : val_main_v44 (F := Ideal) x0 x2 (ix3 k p (0 : Fin 2)) = x0 (ix3 k p (0 : Fin 4)) - Cert.PFN.cx II k := by
  unfold val_main_v44
  refine (concatenate_pair_apply_left (t := S20000x100x2) (s₁ := S20000x100x1) (s₂ := S20000x100x1) (2 : Fin 3) (val_main_v42 (F := Ideal) x0 x2) (val_main_v43 (F := Ideal) x0 x2) concatenates_S20000x100x1_S20000x100x1_S20000x100x2_d2 (ix3 k p (0 : Fin 2)) rfl (ix3 k p (0 : Fin 1))
    (fun b => by
      match b with
      | ⟨0, _⟩ => rfl
      | ⟨1, _⟩ => rfl
      | ⟨2, _⟩ => rfl)).trans ?_
  exact v42_at x0 x1 x2 x3 x4 x5 k p 0

/-- The second. -/
theorem v44_at1 (k : Fin 20000) (p : Fin 100) : val_main_v44 (F := Ideal) x0 x2 (ix3 k p (1 : Fin 2)) = x0 (ix3 k p (1 : Fin 4)) - Cert.PFN.cy II k := by
  unfold val_main_v44
  refine (concatenate_pair_apply_right (t := S20000x100x2) (s₁ := S20000x100x1) (s₂ := S20000x100x1) (2 : Fin 3) (val_main_v42 (F := Ideal) x0 x2) (val_main_v43 (F := Ideal) x0 x2) concatenates_S20000x100x1_S20000x100x1_S20000x100x2_d2 (ix3 k p (1 : Fin 2)) rfl rfl (ix3 k p (0 : Fin 1))
    (fun b => by
      match b with
      | ⟨0, _⟩ => exact fun _ => rfl
      | ⟨1, _⟩ => exact fun _ => rfl
      | ⟨2, _⟩ => exact fun hb => absurd rfl hb) rfl).trans ?_
  exact v43_at x0 x1 x2 x3 x4 x5 k p 0

/-- The nine channels of a point. -/
theorem v45_at (k : Fin 20000) (p : Fin 100) (c : Fin 9) : val_main_v45 (F := Ideal) x0 x1 x2 (ix3 k p c) = Cert.PFN.aug II k p c := by
  unfold Cert.PFN.aug val_main_v45
  have hc := c.isLt
  by_cases h4 : c.val < 4
  · rw [dif_pos h4, concat3_lo _ _ _ k p c h4]; rfl
  · rw [dif_neg h4]
    by_cases h7 : c.val < 7
    · rw [dif_pos h7, concat3_mid _ _ _ k p c (by omega) h7, v33_at]; rfl
    · rw [dif_neg h7, concat3_hi _ _ _ k p c (by omega)]
      by_cases h : c.val = 7
      · rw [if_pos h]
        have e : (⟨c.val - 7, by omega⟩ : Fin 2) = 0 := Fin.ext (by show c.val - 7 = 0; omega)
        rw [e, v44_at0]; rfl
      · rw [if_neg h]
        have e : (⟨c.val - 7, by omega⟩ : Fin 2) = 1 := Fin.ext (by show c.val - 7 = 1; omega)
        rw [e, v44_at1]; rfl

theorem v46_at (k : Fin 20000) (p : Fin 100) (c : Fin 9) : val_main_v46 (F := Ideal) x1 (ix3 k p c) = Cert.PFN.msk II k p := by
  rw [val_main_v46_apply]
  have e : idx_main_v46 (ix3 k p c) = ix3 k p (0 : Fin 1) := by
    funext a; apply Fin.ext
    match a with
    | ⟨0, _⟩ => rfl
    | ⟨1, _⟩ => rfl
    | ⟨2, _⟩ => rfl
  rw [e, v25_at]

/-- The masked channels. -/
theorem v47_at (k : Fin 20000) (p : Fin 100) (c : Fin 9) : val_main_v47 (F := Ideal) x0 x1 x2 (ix3 k p c) = Cert.PFN.fe II k p c := by
  rw [val_main_v47_apply, v45_at, v46_at]; rfl

/-- The linear layer. -/
theorem v48_at (k : Fin 20000) (p : Fin 100) (u : Fin 64) : val_main_v48 (F := Ideal) x0 x1 x2 x3 (ix3 k p u) = Cert.PFN.x II k p u := by
  rw [val_main_v48_apply]
  unfold Cert.PFN.x
  refine Finset.sum_congr rfl fun c _ => ?_
  have e1 : lidx_main_v48 (ix3 k p u) c = ix3 k p c := by
    funext a; apply Fin.ext
    match a with
    | ⟨0, _⟩ => rfl
    | ⟨1, _⟩ => rfl
    | ⟨2, _⟩ => rfl
  have e2 : ridx_main_v48 (ix3 k p u) c = ix2 c u := by
    funext a; apply Fin.ext
    match a with
    | ⟨0, _⟩ => rfl
    | ⟨1, _⟩ => rfl
  rw [e1, e2, v47_at]; rfl

theorem bc64 (k : Fin 20000) (p : Fin 100) (u : Fin 64) : idx_main_v52 (idx_main_v53 (ix3 k p u)) = ix1 u := by
  funext a; apply Fin.ext
  match a with
  | ⟨0, _⟩ => rfl

/-- The mean over all points. -/
theorem v51_at (u : Fin 64) : val_main_v51 (F := Ideal) x0 x1 x2 x3 (ix1 u) = Cert.PFN.mu II u := by
  rw [val_main_v51_apply, val_main_v50_apply, val_main_cst_5_apply]
  unfold val_main_v49
  simp only [Host.reduceAdd, Ideal.hostReduceAdd_def]
  rw [sum_d01]
  simp only [v48_at x0 x1 x2 x3 x4 x5, val_main_cst_4_apply, Ideal.ofBits_def, Ideal.ofBits_zero_f32, zero_add, Ideal.hostDivf_def]
  unfold Cert.PFN.mu Cert.PFN.S1 Cert.PFN.cN
  rfl

theorem v53_at (k : Fin 20000) (p : Fin 100) (u : Fin 64) : val_main_v53 (F := Ideal) x0 x1 x2 x3 (ix3 k p u) = Cert.PFN.mu II u := by
  rw [val_main_v53_apply, val_main_v52_apply]
  have e : idx_main_v52 (idx_main_v53 (ix3 k p u)) = ix1 u := bc64 k p u
  rw [e, v51_at]

theorem v60_at (k : Fin 20000) (p : Fin 100) (u : Fin 64) : val_main_v60 (F := Ideal) x0 x1 x2 x3 (ix3 k p u) = Cert.PFN.mu II u := by
  rw [val_main_v60_apply, val_main_v59_apply]
  have e : idx_main_v59 (idx_main_v60 (ix3 k p u)) = ix1 u := bc64 k p u
  rw [e, v51_at]

/-- The centred squares. -/
theorem v55_at (k : Fin 20000) (p : Fin 100) (u : Fin 64) :
    val_main_v55 (F := Ideal) x0 x1 x2 x3 (ix3 k p u) = (Cert.PFN.x II k p u - Cert.PFN.mu II u) * (Cert.PFN.x II k p u - Cert.PFN.mu II u) := by
  rw [val_main_v55_apply, val_main_v54_apply, v48_at, v53_at]; rfl

/-- The variance. -/
theorem v58_at (u : Fin 64) : val_main_v58 (F := Ideal) x0 x1 x2 x3 (ix1 u) = Cert.PFN.varR II u := by
  rw [val_main_v58_apply, val_main_v57_apply, val_main_cst_7_apply]
  unfold val_main_v56
  simp only [Host.reduceAdd, Ideal.hostReduceAdd_def]
  rw [sum_d01]
  simp only [v55_at x0 x1 x2 x3 x4 x5, val_main_cst_6_apply, Ideal.ofBits_def, Ideal.ofBits_zero_f32, zero_add, Ideal.hostDivf_def]
  unfold Cert.PFN.varR Cert.PFN.cN
  rfl

/-- The reciprocal standard deviation. -/
theorem v64_at (u : Fin 64) : val_main_v64 (F := Ideal) x0 x1 x2 x3 (ix1 u) = Ideal.rsqrt (Cert.PFN.varR II u + Cert.PFN.cEps) := by
  rw [val_main_v64_apply, val_main_v63_apply, v58_at, val_main_v62_apply, val_main_cst_8_apply]; rfl

theorem v66_at (k : Fin 20000) (p : Fin 100) (u : Fin 64) :
    val_main_v66 (F := Ideal) x0 x1 x2 x3 (ix3 k p u) = Ideal.rsqrt (Cert.PFN.varR II u + Cert.PFN.cEps) := by
  rw [val_main_v66_apply, val_main_v65_apply]
  have e : idx_main_v65 (idx_main_v66 (ix3 k p u)) = ix1 u := bc64 k p u
  rw [e, v64_at]

theorem v69_at (k : Fin 20000) (p : Fin 100) (u : Fin 64) : val_main_v69 (F := Ideal) x4 (ix3 k p u) = x4 (ix1 u) := by
  rw [val_main_v69_apply, val_main_v68_apply]
  exact congrArg x4 (bc64 k p u)

theorem v72_at (k : Fin 20000) (p : Fin 100) (u : Fin 64) : val_main_v72 (F := Ideal) x5 (ix3 k p u) = x5 (ix1 u) := by
  rw [val_main_v72_apply, val_main_v71_apply]
  exact congrArg x5 (bc64 k p u)

/-- Normalised, scaled, shifted, clamped at zero. -/
theorem v74_at (k : Fin 20000) (p : Fin 100) (u : Fin 64) :
    val_main_v74 (F := Ideal) x0 x1 x2 x3 x4 x5 (ix3 k p u) = Cert.PFN.yR II k p u := by
  rw [val_main_v74_apply, val_main_v73_apply, val_main_v70_apply, val_main_v67_apply, val_main_v61_apply, v48_at, v60_at, v66_at,
    v69_at, v72_at, val_main_call0_v0_apply, val_main_call0_cst_apply]
  rfl

/-- The reference's result, index by index, is the specification's. -/
theorem ref_at (k : Fin 20000) (u : Fin 64) :
    val_main_v75 (F := Ideal) x0 x1 x2 x3 x4 x5 (ix2 k u) = Cert.PFN.outR II k u := by
  rw [v75_at]
  unfold Cert.PFN.outR
  exact congrArg (fun f => Finset.fold max Cert.PFN.cNegInf f (Finset.univ : Finset (Fin 100))) (funext fun p => v74_at x0 x1 x2 x3 x4 x5 k p u)

theorem ref_eq (i : S20000x64.Idx) :
    val_main_v75 (F := Ideal) x0 x1 x2 x3 x4 x5 i = Cert.PFN.outR II (i 0) (i 1) := by
  rw [eq_ix2 i]
  exact ref_at x0 x1 x2 x3 x4 x5 (i 0) (i 1)

end

end Cert.ReferenceIdeal.RefValue

end
-- ==== Proof.LibVariance.lean ====
/-
  The variance of finitely many real numbers, computed two ways on the extended reals.

  With `S = Σ x`, `N` the number of entries and `μ = S / N`, the mean of the squared deviations `(Σ (x − μ)²) / N` is the mean of
  the squares less the squared mean, `(Σ x²) / N − μ²`: expanding the square, `Σ (x − μ)² = Σ x² − 2 μ S + N μ² = Σ x² − N μ²`
  because `μ N = S`. Both sides are stated with the extended reals' arithmetic and their division `Ideal.div`, as a program read
  at exact arithmetic computes them; every entry is real, so every partial result is real and the identity is the real one
  (a finite sum of reals read as extended reals is the real sum; a division by a nonzero real is the product with its reciprocal).
-/
import Idealize.ShloMosaic.PureOps.Ideal

open scoped BigOperators

noncomputable section

namespace Cert.LibVariance

open Idealize.ShloMosaic

/-- A finite sum of real numbers read as extended reals is the real sum read as an extended real. -/
theorem coe_sum {ι : Type} (s : Finset ι) (f : ι → ℝ) : (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The sum of squared deviations from a number `μ` with `μ N = Σ x`, over `N` entries, is the sum of squares less `N μ²`. -/
theorem sum_dev_sq {ι : Type} [Fintype ι] (x : ι → ℝ) (N μ : ℝ) (hcard : (Fintype.card ι : ℝ) = N) (hμ : μ * N = ∑ j, x j) :
    (∑ i, (x i - μ) * (x i - μ)) = (∑ i, x i * x i) - N * (μ * μ) := by
  have e : ∀ i, (x i - μ) * (x i - μ) = x i * x i - 2 * μ * x i + μ * μ := fun i => by ring
  simp only [e, Finset.sum_add_distrib, Finset.sum_sub_distrib, ← Finset.mul_sum, Finset.sum_const, Finset.card_univ,
    nsmul_eq_mul, hcard, ← hμ]
  ring

/-- The real identity: the mean of squared deviations from the mean is the mean of squares less the squared mean. -/
theorem real_var {ι : Type} [Fintype ι] (x : ι → ℝ) (N : ℝ) (hN : N ≠ 0) (hcard : (Fintype.card ι : ℝ) = N) :
    (∑ i, (x i - (∑ j, x j) * (1 / N)) * (x i - (∑ j, x j) * (1 / N))) * (1 / N)
      = (∑ i, x i * x i) * (1 / N) - (∑ j, x j) * (1 / N) * ((∑ j, x j) * (1 / N)) := by
  rw [sum_dev_sq x N ((∑ j, x j) * (1 / N)) hcard (by field_simp)]
  field_simp

/-- THE IDENTITY ON THE EXTENDED REALS, with the programs' division: for real entries `x` over an index type of `N` elements, the
    two-pass variance (deviations from the mean, squared, averaged) is the one-pass one (the mean of squares less the squared mean). -/
theorem var_two_ways {ι : Type} [Fintype ι] (x : ι → ℝ) (N : ℝ) (hN : N ≠ 0) (hcard : (Fintype.card ι : ℝ) = N) :
    Ideal.div (∑ i, (((x i : ℝ) : EReal) - Ideal.div (∑ j, ((x j : ℝ) : EReal)) (N : EReal))
        * (((x i : ℝ) : EReal) - Ideal.div (∑ j, ((x j : ℝ) : EReal)) (N : EReal))) (N : EReal)
      = Ideal.div (∑ i, ((x i : ℝ) : EReal) * ((x i : ℝ) : EReal)) (N : EReal)
        - Ideal.div (∑ j, ((x j : ℝ) : EReal)) (N : EReal) * Ideal.div (∑ j, ((x j : ℝ) : EReal)) (N : EReal) := by
  rw [Ideal.div_coe hN, Ideal.div_coe hN, Ideal.div_coe hN, coe_sum]
  simp only [← EReal.coe_mul, ← EReal.coe_sub, coe_sum]
  exact congrArg _ (real_var x N hN hcard)

end Cert.LibVariance

end
-- ==== Proof.Algebra.lean ====
/-
  The two normalisations agree on real inputs.

  Every input is a real number, so the linear layer's output x(k,p,u) is a real number: each masked channel
  is either an augmented channel times one (the count is then positive, so the mean is a real sum times a
  real reciprocal) or something times zero, which is zero on the extended reals whatever the other factor is.

  Over the 2,000,000 real entries x, the mean of the squares less the squared mean is the mean of the squared
  deviations, which is not negative; so clamping at zero changes nothing and the two variances are one real
  number v. With e > 0 the literal added to it, s = 1/sqrt(v + e) is real, and
  x (γ s) + (β - m (γ s)) = (x - m) s γ + β in the reals.
-/
import proofs.«147546_j60705067762261_2_alg».proof.Proof.Spec
import proofs.«147546_j60705067762261_2_alg».proof.Proof.LibVariance

open scoped BigOperators

noncomputable section

namespace Cert.PFN

open Idealize.ShloMosaic

/-! ### Extended reals that are real numbers -/

/-- An extended real that is a real number. -/
def IsR (a : EReal) : Prop := ∃ r : ℝ, a = (r : EReal)

theorem IsR.coe (r : ℝ) : IsR (r : EReal) := ⟨r, rfl⟩
theorem IsR.zero : IsR 0 := ⟨0, rfl⟩
theorem IsR.add {a b : EReal} (ha : IsR a) (hb : IsR b) : IsR (a + b) := by
  obtain ⟨r, rfl⟩ := ha; obtain ⟨s, rfl⟩ := hb; exact ⟨r + s, (EReal.coe_add r s).symm⟩
theorem IsR.sub {a b : EReal} (ha : IsR a) (hb : IsR b) : IsR (a - b) := by
  obtain ⟨r, rfl⟩ := ha; obtain ⟨s, rfl⟩ := hb; exact ⟨r - s, (EReal.coe_sub r s).symm⟩
theorem IsR.mul {a b : EReal} (ha : IsR a) (hb : IsR b) : IsR (a * b) := by
  obtain ⟨r, rfl⟩ := ha; obtain ⟨s, rfl⟩ := hb; exact ⟨r * s, (EReal.coe_mul r s).symm⟩
theorem IsR.sum {ι : Type} (s : Finset ι) (f : ι → EReal) (h : ∀ i, IsR (f i)) : IsR (∑ i ∈ s, f i) := by
  choose g hg using h
  exact ⟨∑ i ∈ s, g i, by rw [← Cert.LibVariance.coe_sum]; exact Finset.sum_congr rfl (fun i _ => hg i)⟩

/-! ### The literals -/

theorem cN_eq : cN = ((2000000 : ℝ) : EReal) := by
  simp [cN, Ideal.ofBits, Ideal.ieee, -EReal.coe_mul]; norm_num
theorem cZero_eq : cZero = 0 := by
  simp [cZero, Ideal.ofBits, Ideal.ieee]
theorem cEps_pos : ∃ r : ℝ, 0 < r ∧ cEps = (r : EReal) := by
  refine ⟨8589935 * (2 ^ 33)⁻¹, by positivity, ?_⟩
  simp [cEps, Ideal.ofBits, Ideal.ieee, -EReal.coe_mul]
theorem cVX_real : IsR cVX :=
  ⟨13421773 * (2 ^ 26)⁻¹, by simp [cVX, Ideal.ofBits, Ideal.ieee, -EReal.coe_mul]⟩
theorem cXO_real : IsR cXO :=
  ⟨13421773 * (2 ^ 27)⁻¹, by simp [cXO, Ideal.ofBits, Ideal.ieee, -EReal.coe_mul]⟩
theorem cYO_real : IsR cYO :=
  ⟨-(10459546 * (2 ^ 18)⁻¹), by simp [cYO, Ideal.ofBits, Ideal.ieee, -EReal.coe_mul]⟩

/-! ### The linear layer's output is real -/

theorem cx_real (I : In) (k : Fin 20000) : IsR (cx I k) := ((IsR.coe _).mul cVX_real).add cXO_real
theorem cy_real (I : In) (k : Fin 20000) : IsR (cy I k) := ((IsR.coe _).mul cVX_real).add cYO_real

theorem mean_real (I : In) (hI : I.Real) (k : Fin 20000) (j : Fin 3) (h : (I.nv k).toInt ≠ 0) : IsR (mean I k j) := by
  unfold mean pn
  rw [Ideal.div_coe (by exact_mod_cast h)]
  exact (IsR.sum _ _ (fun p => hI.feat k p _)).mul (IsR.coe _)

theorem aug_real (I : In) (hI : I.Real) (k : Fin 20000) (p : Fin 100) (c : Fin 9) (h : (I.nv k).toInt ≠ 0) :
    IsR (aug I k p c) := by
  unfold aug
  split_ifs
  · exact hI.feat _ _ _
  · exact IsR.sub (hI.feat _ _ _) (mean_real I hI k _ h)
  · exact IsR.sub (hI.feat _ _ _) (cx_real I k)
  · exact IsR.sub (hI.feat _ _ _) (cy_real I k)

theorem fe_real (I : In) (hI : I.Real) (k : Fin 20000) (p : Fin 100) (c : Fin 9) : IsR (fe I k p c) := by
  unfold fe msk
  split_ifs with h
  · have h0 : (I.nv k).toInt ≠ 0 := by omega
    rw [mul_one]; exact aug_real I hI k p c h0
  · rw [mul_zero]; exact IsR.zero

theorem x_real (I : In) (hI : I.Real) (k : Fin 20000) (p : Fin 100) (u : Fin 64) : ∃ r : ℝ, x I k p u = (r : EReal) :=
  IsR.sum _ _ (fun c => IsR.mul (fe_real I hI k p c) (hI.w c u))

/-! ### The statistics, over the 2,000,000 real entries -/

theorem card_idx : (Fintype.card (Fin 20000 × Fin 100) : ℝ) = 2000000 := by
  rw [Fintype.card_prod, Fintype.card_fin, Fintype.card_fin]; norm_num

section stats
variable (I : In) (u : Fin 64) (g : Fin 20000 × Fin 100 → ℝ) (hg : ∀ k p, x I k p u = ((g (k, p) : ℝ) : EReal))
include hg

theorem S1_eq : S1 I u = ∑ i, ((g i : ℝ) : EReal) := by
  unfold S1; simp only [hg]; rw [Fintype.sum_prod_type]

theorem S2_eq : S2 I u = ∑ i, ((g i : ℝ) : EReal) * ((g i : ℝ) : EReal) := by
  unfold S2; simp only [hg]; rw [Fintype.sum_prod_type]

theorem mu_eq : mu I u = Ideal.div (∑ j, ((g j : ℝ) : EReal)) ((2000000 : ℝ) : EReal) := by
  unfold mu; rw [S1_eq I u g hg, cN_eq]

theorem varR_eq : varR I u
    = Ideal.div (∑ i, (((g i : ℝ) : EReal) - Ideal.div (∑ j, ((g j : ℝ) : EReal)) ((2000000 : ℝ) : EReal))
        * (((g i : ℝ) : EReal) - Ideal.div (∑ j, ((g j : ℝ) : EReal)) ((2000000 : ℝ) : EReal))) ((2000000 : ℝ) : EReal) := by
  unfold varR; rw [mu_eq I u g hg, cN_eq]; simp only [hg, Fintype.sum_prod_type]

/-- The mean of the squares less the squared mean is the mean of the squared deviations. -/
theorem varK_inner : Ideal.div (S2 I u) cN - mu I u * mu I u = varR I u := by
  rw [varR_eq I u g hg, S2_eq I u g hg, mu_eq I u g hg, cN_eq]
  exact (Cert.LibVariance.var_two_ways g 2000000 (by norm_num) card_idx).symm

theorem mu_real : ∃ m : ℝ, mu I u = (m : EReal) := by
  rw [mu_eq I u g hg, Ideal.div_coe (by norm_num), Cert.LibVariance.coe_sum, ← EReal.coe_mul]
  exact ⟨_, rfl⟩

/-- The mean of the squared deviations is a real number that is not negative. -/
theorem varR_real : ∃ v : ℝ, 0 ≤ v ∧ varR I u = (v : EReal) := by
  rw [varR_eq I u g hg, Ideal.div_coe (by norm_num), Ideal.div_coe (by norm_num), Cert.LibVariance.coe_sum]
  simp only [← EReal.coe_mul, ← EReal.coe_sub, Cert.LibVariance.coe_sum]
  refine ⟨_, ?_, rfl⟩
  exact mul_nonneg (Finset.sum_nonneg (fun i _ => mul_self_nonneg _)) (by norm_num)

end stats

/-! ### The two results -/

theorem yK_eq_yR (I : In) (hI : I.Real) (k : Fin 20000) (p : Fin 100) (u : Fin 64) : yK I k p u = yR I k p u := by
  choose xr hxr using x_real I hI
  obtain ⟨g, hg⟩ : ∃ g : Fin 20000 × Fin 100 → ℝ, ∀ k p, x I k p u = ((g (k, p) : ℝ) : EReal) :=
    ⟨fun i => xr i.1 i.2 u, fun k p => hxr k p u⟩
  obtain ⟨m, hm⟩ := mu_real I u g hg
  obtain ⟨v, hv0, hv⟩ := varR_real I u g hg
  obtain ⟨e, he0, he⟩ := cEps_pos
  obtain ⟨γ, hγ⟩ := hI.gamma u
  obtain ⟨β, hβ⟩ := hI.beta u
  have hvarK : varK I u = (v : EReal) := by
    unfold varK
    rw [varK_inner I u g hg, hv, cZero_eq]
    exact max_eq_left (by exact_mod_cast hv0)
  have hrs : Ideal.rsqrt ((v : EReal) + (e : EReal)) = (((Real.sqrt (v + e))⁻¹ : ℝ) : EReal) := by
    rw [← EReal.coe_add, Ideal.rsqrt_coe, if_neg (by linarith), if_neg (by linarith)]
  unfold yK yR shiftK scaleK
  rw [hvarK, hv, he, hrs, hm, hγ, hβ, hg k p]
  congr 1
  simp only [← EReal.coe_mul, ← EReal.coe_sub, ← EReal.coe_add]
  congr 1
  ring

theorem outK_eq_outR (I : In) (hI : I.Real) (k : Fin 20000) (u : Fin 64) : outK I k u = outR I k u := by
  unfold outK outR
  congr 1
  funext p
  exact yK_eq_yR I hI k p u

end Cert.PFN

end
-- ==== Proof.LibRealEntry.lean ====
/-
  An extended real whose absolute value is below +∞ is a real number.

  The test "|x| < +∞" on the extended reals, with the absolute value taken as `max x (−x)` and +∞ spelt as the
  single-precision pattern with all exponent bits set and no fraction bits, holds exactly of the real numbers: at `⊤`
  and at `⊥` the absolute value is `⊤`, which is not below itself.
-/
import Idealize.ShloMosaic.PureOps.Ideal

noncomputable section

namespace Cert.LibRealEntry

open Idealize.ShloMosaic

/-- The single-precision pattern with all exponent bits set and no fraction denotes +∞. -/
theorem ofBits_inf : Ideal.ofBits .f32 0x7F800000#32 = ⊤ := by
  simp [Ideal.ofBits, Ideal.ieee]

/-- An extended real whose absolute value compares below that pattern is a real number. -/
theorem real_of_abs_lt : ∀ x : EReal, Ideal.cmp .olt (max x (-x)) (Ideal.ofBits .f32 0x7F800000#32) = 1#1 →
    ∃ r : ℝ, x = (r : EReal) := by
  intro x
  rw [ofBits_inf]
  induction x using EReal.rec
  · intro h; simp [Ideal.cmp] at h
  · intro _; exact ⟨_, rfl⟩
  · intro h; simp [Ideal.cmp] at h

end Cert.LibRealEntry

end
-- ==== Proof.Finite.lean ====
/-
  The precondition decoded: every float input is a real number.

  The printed predicate is a conjunction of four tests "every entry of the array has absolute value below +∞", one per
  float argument (the features, the weights, the scale, the shift), each a reduction by `and` over all axes of the
  entrywise comparison. If the predicate is true, each conjunct is, so every entry of each of the four arrays passes
  the comparison, and an extended real whose absolute value is below +∞ is a real number.
-/
import proofs.«147546_j60705067762261_2_alg».proof.Defs
import proofs.«147546_j60705067762261_2_alg».proof.Proof.Gen.Pre_finite_inputs
import proofs.«147546_j60705067762261_2_alg».proof.Proof.SpecIn
import proofs.«147546_j60705067762261_2_alg».proof.Proof.LibRealEntry
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx

/-- The rank-0 shape has one index. -/
instance subsingleton_S_ : Subsingleton Cert.Pre_finite_inputs.S_.Idx := ⟨fun a b => funext fun d => d.elim0⟩

/-- If the precondition's predicate is true of the six argument arrays, every entry of the four float arrays is a
    real number. -/
theorem real_of_pre [hPre : Cert.Pre_finite_inputs.Facts]
    (a0 : (⟨3, ![20000, 100, 4]⟩ : Shape).Idx → EReal) (a1 : (⟨1, ![20000]⟩ : Shape).Idx → BitVec 32)
    (a2 : (⟨2, ![20000, 4]⟩ : Shape).Idx → BitVec 32) (a3 : (⟨2, ![9, 64]⟩ : Shape).Idx → EReal)
    (a4 a5 : (⟨1, ![64]⟩ : Shape).Idx → EReal)
    (h : Cert.Pre_finite_inputs.fn (F := Ideal) a0 a1 a2 a3 a4 a5 = fun _ => 1#1) :
    (Cert.PFN.mkIn a0 a1 a2 a3 a4 a5).Real := by
  have h0 := congrFun h ValueIdx.ix0
  dsimp only [Cert.Pre_finite_inputs.fn, Cert.Pre_finite_inputs.fn_part1] at h0
  obtain ⟨h13, h17⟩ := IntOp.andi_eq_one.1 h0
  obtain ⟨h8, h12⟩ := IntOp.andi_eq_one.1 h13
  obtain ⟨h3, h7⟩ := IntOp.andi_eq_one.1 h8
  refine ⟨fun k p j => ?_, fun c u => ?_, fun u => ?_, fun u => ?_⟩
  · exact Cert.LibRealEntry.real_of_abs_lt (a0 (ix3 k p j)) (Host.reduce_andi_all _ _ _ _ _ h3 (ix3 k p j))
  · exact Cert.LibRealEntry.real_of_abs_lt (a3 (ix2 c u)) (Host.reduce_andi_all _ _ _ _ _ h7 (ix2 c u))
  · exact Cert.LibRealEntry.real_of_abs_lt (a4 (ix1 u)) (Host.reduce_andi_all _ _ _ _ _ h12 (ix1 u))
  · exact Cert.LibRealEntry.real_of_abs_lt (a5 (ix1 u)) (Host.reduce_andi_all _ _ _ _ _ h17 (ix1 u))

end Cert.Finite

end
-- ==== Proof.lean ====
/-
  The certificate of a pillar feature network: per pillar of 100 points, each point augmented to nine channels
  (its features, its offset from the pillar's mean, its offset from the pillar's centre), masked by the pillar's
  count, sent through a 9-by-64 linear map, normalised per channel by statistics over all 2,000,000 points,
  clamped at zero, and maximised over the pillar's points.

  The kernel program makes two passes over the pillars in 250 blocks of 80. The first accumulates, per output
  channel, the sum of the linear layer's output and the sum of its square; the host turns the two sums into one
  scale and one shift per channel (variance as E[x²] − E[x]², clamped at zero); the second pass recomputes the
  linear layer's output block by block, applies scale and shift, clamps and maximises. The reference computes
  everything at once, the variance from centred squares and the affine map step by step. On the extended reals
  the two agree once the linear layer's output is known to be real, which finite inputs give (a pillar whose
  count is not positive masks every one of its points, and zero times anything is zero, so the division by a
  zero count never reaches the output).

  The modules: Spec (the two results as functions of the inputs), Algebra (they agree for real inputs), KPay (the
  kernels' block computations are the specification's, index by index), K/ and KI/ (each kernel region's body
  run, its blocks, and the program's run through host operations and both regions, at the word level and on the
  extended reals), KVal (what the host operations and the two regions leave, in the specification's words),
  RefValue (the reference's run is the specification's second result), Finite (finite inputs are real).
-/
import proofs.«147546_j60705067762261_2_alg».proof.Defs
import proofs.«147546_j60705067762261_2_alg».proof.Proof.Gen.Kernel
import proofs.«147546_j60705067762261_2_alg».proof.Proof.Gen.KernelIdeal
import proofs.«147546_j60705067762261_2_alg».proof.Proof.Gen.ReferenceIdeal
import proofs.«147546_j60705067762261_2_alg».proof.Proof.Gen.ReferenceIdeal.Run
import proofs.«147546_j60705067762261_2_alg».proof.Proof.Gen.ReferenceIdeal.Read
import proofs.«147546_j60705067762261_2_alg».proof.Proof.Gen.Pre_finite_inputs
import proofs.«147546_j60705067762261_2_alg».proof.Proof.K.Run
import proofs.«147546_j60705067762261_2_alg».proof.Proof.KI.Run
import proofs.«147546_j60705067762261_2_alg».proof.Proof.KVal.MainValue
import proofs.«147546_j60705067762261_2_alg».proof.Proof.RefValue
import proofs.«147546_j60705067762261_2_alg».proof.Proof.Algebra
import proofs.«147546_j60705067762261_2_alg».proof.Proof.Finite
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Hand.frame (F := Bits) m ρ

/-- So does the program read on the extended reals. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's result of the launch arguments: the kernel program with the
    one-pass form (its two regions' values), the reference with the two-pass form; for finite inputs the two forms agree. -/
theorem algebraic : Cert.algebraic_KernelIdeal_ReferenceIdeal := by
  intro m ρ m' ρ' hpre hagree
  refine ⟨fun c => (fun i => Cert.PFN.outK (Cert.KernelIdeal.KVal.inOf m c) (i 0) (i 1)), ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v35 (by decide))).trans (funext (Cert.KernelIdeal.KVal.main_out m ρ c)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c),
      (h c _ (Cert.KernelIdeal.Hand.mem_uc Cert.KernelIdeal.main_arg5 (by decide))).trans (Cert.KernelIdeal.Hand.W4_main_arg5 m ρ c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5⟩ := hagree c
    rw [Cert.ReferenceIdeal.Read.val_main_v75_eq, e0, e1, e2, e3, e4, e5]
    funext i
    refine (Cert.ReferenceIdeal.RefValue.ref_eq _ _ _ _ _ _ i).trans ?_
    exact (Cert.PFN.outK_eq_outR _ (Cert.Finite.real_of_pre _ _ _ _ _ _ (hpre c)) (i 0) (i 1)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
